-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x128 : Shape := ⟨2, ![8192, 128]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S8192x256 .f32) (main_arg1 : FVec F S8192x128 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x256 : Shape := ⟨2, ![8192, 256]⟩
abbrev S8192x128 : Shape := ⟨2, ![8192, 128]⟩
abbrev S1x1 : Shape := ⟨2, ![1, 1]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S128x512 : Shape := ⟨2, ![128, 512]⟩
abbrev S512x512 : Shape := ⟨2, ![512, 512]⟩
abbrev S1x512 : Shape := ⟨2, ![1, 512]⟩
abbrev S256x512 : Shape := ⟨2, ![256, 512]⟩
abbrev S1 : Shape := ⟨1, ![1]⟩
abbrev S8192x1 : Shape := ⟨2, ![8192, 1]⟩
abbrev S_ : Shape := ⟨0, ![]⟩

abbrev nBuf : Space → Nat
  | .hbm => 10
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S1x1, .f32⟩
  | .hbm, ⟨3, _⟩ => ⟨S1x1, .f32⟩
  | .hbm, ⟨4, _⟩ => ⟨S1x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v66 : BitVec 32 := Scalar.extui v2
  let c0_i32_25 : BitVec 32 := 0#32
  let v67 : BitVec 1 := Scalar.cmpi .ne v66 c0_i32_25
  v67

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v68 : BitVec 1 := Scalar.xori v2 v_true
  let v69 : BitVec 32 := Scalar.extui v68
  let c0_i32_26 : BitVec 32 := 0#32
  let v70 : BitVec 1 := Scalar.cmpi .ne v69 c0_i32_26
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v92 : BitVec 1 := Scalar.cmpi .eq arg1 c15_i32
  let v93 : BitVec 32 := Scalar.extui v92
  let c0_i32_39 : BitVec 32 := 0#32
  let v94 : BitVec 1 := Scalar.cmpi .ne v93 c0_i32_39
  v94

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S512x256_S512x256_0_0 : ∀ a, (![0, 0] : Fin 2 → Nat) a + S512x256.size a ≤ S512x256.size a
  h_S512x256 : 0 < S512x256.numel
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  transposes_S512x128_p1_0_S128x512 : S512x128.Transposes [1, 0] S128x512
  reduces_S512x256_S512 : S512x256.Reduces [1] S512
  transposes_S512x1_p1_0_S1x512 : S512x1.Transposes [1, 0] S1x512
  transposes_S512x256_p1_0_S256x512 : S512x256.Transposes [1, 0] S256x512
  broadcasts_S512x1_S512x512 : S512x1.Broadcasts S512x512
  broadcasts_S1x512_S512x512 : S1x512.Broadcasts S512x512
  natLt_1_32 : 1 < 32
  reduces_S512x512_S512 : S512x512.Reduces [1] S512
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S1x1_S512x512 : S1x1.Broadcasts S512x512
  reducesTo_S8192x1_S_d0_1 : S8192x1.ReducesTo [0, 1] S_
  h_S_ : 0 < S_.numel
  dot_S512x128_S128x512_S512x512_1_0_0_1_n_n_wf : DotDims.WF S512x128 S128x512 S512x512 [1] [0] [0] [1] [] []
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S8192x128.size a
  hwx0_2 : ∀ i : grid0.Coords, EltTy.bits .f32 = 32 ∨ (Rect.block (s := S8192x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .f32 = 32 ∨ (Rect.block (s := S8192x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x256.size a
  hwx1_3 : ∀ i : grid1.Coords, EltTy.bits .f32 = 32 ∨ (Rect.block (s := S8192x256) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S8192x256.size a
  hwx1_4 : ∀ i : grid1.Coords, EltTy.bits .f32 = 32 ∨ (Rect.block (s := S8192x256) S512x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S8192x128.size a
  hwx1_5 : ∀ i : grid1.Coords, EltTy.bits .f32 = 32 ∨ (Rect.block (s := S8192x128) S512x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S8192x128.size a
  hwx1_6 : ∀ i : grid1.Coords, EltTy.bits .f32 = 32 ∨ (Rect.block (s := S8192x128) S512x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S8192x1.size a
  hwx1_7 : ∀ i : grid1.Coords, EltTy.bits .f32 = 32 ∨ (Rect.block (s := S8192x1) S512x1.size (cc1_transform_7 i) (hinb1_7 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | 6 => fun i => !(k0_cond1 i == 1#1) && !(k0_cond2 i == 1#1) | ⟨_ + 7, h⟩ => absurd h (Nat.not_lt.2 (Nat.le_add_left _ _))

abbrev win1_0 : Pipeline.Window sig grid1 :=
  Pipeline.Window.ofSpec (Memref.whole main_v0_0) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S512x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S512x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg1) S512x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩
abbrev S256x8192 : Shape := ⟨2, ![256, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x256, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S1x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S256x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .i1⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .i1⟩
  | .hbm, ⟨60, _⟩ => ⟨S8192x8192, .f32⟩
  | .hbm, ⟨61, _⟩ => ⟨S_, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_call2_v0 : Ref sig .tc := ⟨.hbm, 62, rfl⟩
abbrev main_call2_v1 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_call3_v0 : Ref sig .tc := ⟨.hbm, 73, rfl⟩
abbrev main_call3_v1 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_cst_15 : Ref sig .tc := ⟨.hbm, 79, rfl⟩
abbrev main_v51 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_17 : Ref sig .tc := ⟨.hbm, 86, rfl⟩
abbrev main_v56 : Ref sig .tc := ⟨.hbm, 87, rfl⟩
abbrev main_cst_18 : Ref sig .tc := ⟨.hbm, 88, rfl⟩
abbrev main_v57 : Ref sig .tc := ⟨.hbm, 89, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  reducesTo_S8192x8192_S_d0_1 : S8192x8192.ReducesTo [0, 1] S_
  bcast_S_S8192x8192 : S_.BroadcastsInDim S8192x8192 (![] : Fin 0 → Fin S8192x8192.rank)
  reducesTo_S8192x256_S8192_d1 : S8192x256.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []
  dot_S8192x256_S256x8192_S8192x8192_1_0_0_1_n_n_wf : DotDims.WF S8192x256 S256x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KData0.lean ====
/-
  The first region (the pass that reduces the 8192 × 8192 pair space to three scalars), as proof data.

  The grid has 16 × 16 points; point `t` sees row block `t / 16` and column block `t % 16` of the outputs (windows 0, 1)
  and of the labels (windows 2, 3); the two windows on one array each hold half of it. Windows 4, 5, 6 are the three
  1 × 1 results — least similarity, greatest similarity, greatest distance — whose block never moves: the body overwrites
  them at the first point with the tile's own extreme and from then on with the extreme of what it finds there and the
  tile's. `acc0` is that running triple after each point.
-/
import proofs.«136872_j61607010893834_1_alg».proof.Proof.Gen.Kernel.Launch
import proofs.«136872_j61607010893834_1_alg».proof.Proof.Gen.Kernel.Skeleton
import proofs.«136872_j61607010893834_1_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of similarities at point `t` (label row block against label column block). -/
def simT0 (c : Dev nD) (t : Fin cfg0.N) : FVec F S512x512 .f32 := k0_pay7 (iblk0 V c 2 t) (iblk0 V c 3 t)
/-- The tile of inner products of output rows, and the two broadcast squared norms. -/
def crossT0 (c : Dev nD) (t : Fin cfg0.N) : FVec F S512x512 .f32 := k0_pay8 (iblk0 V c 0 t) (iblk0 V c 1 t)
def sqiT0 (c : Dev nD) (t : Fin cfg0.N) : FVec F S512x512 .f32 := k0_pay9 (iblk0 V c 0 t)
def sqjT0 (c : Dev nD) (t : Fin cfg0.N) : FVec F S512x512 .f32 := k0_pay10 (iblk0 V c 1 t)

/-- The three running extremes after the body at position `n`: the tile's own at the first point, afterwards the
    extreme of the previous value and the tile's. -/
def acc0 (c : Dev nD) : (n : ℕ) → n < cfg0.N → Vec F S1x1 .f32 × Vec F S1x1 .f32 × Vec F S1x1 .f32
  | 0, h => (k0_pay1 (simT0 V c ⟨0, h⟩), k0_pay2 (simT0 V c ⟨0, h⟩),
      k0_pay3 (crossT0 V c ⟨0, h⟩) (sqiT0 V c ⟨0, h⟩) (sqjT0 V c ⟨0, h⟩))
  | n + 1, h => (k0_pay4 (simT0 V c ⟨n + 1, h⟩) (acc0 c n (Nat.lt_of_succ_lt h)).1,
      k0_pay5 (simT0 V c ⟨n + 1, h⟩) (acc0 c n (Nat.lt_of_succ_lt h)).2.1,
      k0_pay6 (crossT0 V c ⟨n + 1, h⟩) (sqiT0 V c ⟨n + 1, h⟩) (sqjT0 V c ⟨n + 1, h⟩) (acc0 c n (Nat.lt_of_succ_lt h)).2.2)

theorem acc0_zero (c : Dev nD) (h : 0 < cfg0.N) :
    acc0 V c 0 h = (k0_pay1 (simT0 V c ⟨0, h⟩), k0_pay2 (simT0 V c ⟨0, h⟩),
      k0_pay3 (crossT0 V c ⟨0, h⟩) (sqiT0 V c ⟨0, h⟩) (sqjT0 V c ⟨0, h⟩)) := rfl

theorem acc0_succ (c : Dev nD) (n : ℕ) (h : n + 1 < cfg0.N) :
    acc0 V c (n + 1) h = (k0_pay4 (simT0 V c ⟨n + 1, h⟩) (acc0 V c n (Nat.lt_of_succ_lt h)).1,
      k0_pay5 (simT0 V c ⟨n + 1, h⟩) (acc0 V c n (Nat.lt_of_succ_lt h)).2.1,
      k0_pay6 (crossT0 V c ⟨n + 1, h⟩) (sqiT0 V c ⟨n + 1, h⟩) (sqjT0 V c ⟨n + 1, h⟩) (acc0 V c n (Nat.lt_of_succ_lt h)).2.2) := rfl

/-- The proof data of the first region on core `c`: the arrays as the region finds them; after the body at point `t`
    each input's buffer at its block and the three results at the running extremes; the invariant the scoped rest and
    the generator register, untouched; nothing owed; the two windows on one array each at half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2.1
    | ⟨6, _⟩ => (acc0 V c t.val t.isLt).2.2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2.1 := by dsimp only [dat0]
theorem after0_6 (c : Dev nD) (t : Fin cfg0.N) : (dat0 V c).after 6 t = (acc0 V c t.val t.isLt).2.2 := by dsimp only [dat0]

end Cert.Kernel.Hand

end
-- ==== Proof.KData1.lean ====
/-
  The second region (the pass that forms the per-row masked log-sum-exp terms), as proof data.

  The grid has 16 × 16 points; point `t` sees row block `t / 16` and column block `t % 16`. Windows 0, 1, 2 are the three
  scalars the first region left (least and greatest similarity, greatest distance); windows 3, 4 the outputs' row and
  column block, windows 5, 6 the labels' (the two windows on one array each hold half of it); window 7 is the 512 × 1
  block of row losses, stored only at a row block's last column block. Two 512 × 1 scratch buffers carry, along a row
  block, the running sums of the positive pairs' and of the other pairs' exponentials: reset to zero at column block 0,
  then increased by the tile's row sums. `acc1` is that pair of running sums after each point.
-/
import proofs.«136872_j61607010893834_1_alg».proof.Proof.Gen.Kernel.Launch
import proofs.«136872_j61607010893834_1_alg».proof.Proof.Gen.Kernel.Skeleton
import proofs.«136872_j61607010893834_1_alg».proof.Proof.Gen.Kernel.Points
import Idealize.ShloMosaic.Lib.Pipeline.FrameBody
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of min-max normalised similarities at point `t`, and the squares of the row block's outputs. -/
def simnT1 (c : Dev nD) (t : Fin cfg1.N) : FVec F S512x512 .f32 :=
  k1_pay6 (iblk1 V c 5 t) (iblk1 V c 6 t) (iblk1 V c 0 t) (iblk1 V c 1 t)
def sqT1 (c : Dev nD) (t : Fin cfg1.N) : FVec F S512x256 .f32 := k1_pay7 (iblk1 V c 3 t)

/-- One point's update of the running sum of the positive pairs' exponentials, from the value `P` found. -/
def posStep1 (c : Dev nD) (t : Fin cfg1.N) (P : Vec F S512x1 .f32) : Vec F S512x1 .f32 :=
  k1_pay1 (k1_pay11 (iblk1 V c 3 t) (iblk1 V c 4 t) (simnT1 V c t) (sqT1 V c t) (iblk1 V c 2 t) P)
/-- One point's update of the running sum of the other pairs' exponentials, from the value `Q` found. -/
def negStep1 (c : Dev nD) (t : Fin cfg1.N) (Q : Vec F S512x1 .f32) : Vec F S512x1 .f32 :=
  k1_pay2 (k1_pay10 (iblk1 V c 3 t) (iblk1 V c 4 t) (simnT1 V c t) (sqT1 V c t) (iblk1 V c 2 t)) Q

/-- The two running sums after the body at position `n`: at a row block's first column block (`n % 16 = 0`) the update
    of zero, otherwise the update of what the point before left. -/
def acc1 (c : Dev nD) : (n : ℕ) → n < cfg1.N → Vec F S512x1 .f32 × Vec F S512x1 .f32
  | 0, h => (posStep1 V c ⟨0, h⟩ k1_pay4, negStep1 V c ⟨0, h⟩ k1_pay5)
  | n + 1, h =>
    if (n + 1) % 16 = 0 then (posStep1 V c ⟨n + 1, h⟩ k1_pay4, negStep1 V c ⟨n + 1, h⟩ k1_pay5)
    else (posStep1 V c ⟨n + 1, h⟩ (acc1 c n (Nat.lt_of_succ_lt h)).1, negStep1 V c ⟨n + 1, h⟩ (acc1 c n (Nat.lt_of_succ_lt h)).2)

/-- At a row block's first column block: the update of zero. -/
theorem acc1_first (c : Dev nD) (t : Fin cfg1.N) (h0 : t.val % 16 = 0) :
    acc1 V c t.val t.isLt = (posStep1 V c t k1_pay4, negStep1 V c t k1_pay5) := by
  obtain ⟨n, hn⟩ := t
  cases n with
  | zero => rfl
  | succ n => exact (if_pos h0).trans rfl

/-- At any other point: the update of what the point before left. -/
theorem acc1_next (c : Dev nD) (t : Fin cfg1.N) (h0 : ¬ t.val % 16 = 0) :
    acc1 V c t.val t.isLt = (posStep1 V c t (acc1 V c (t.val - 1) (Nat.lt_of_le_of_lt (Nat.sub_le _ _) t.isLt)).1,
      negStep1 V c t (acc1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The two scratch buffers, whole. -/
abbrev scM1_0 : Memref sig .tc .vmem S512x1 .f32 := Memref.whole cc1_scratch0
abbrev scM1_1 : Memref sig .tc .vmem S512x1 .f32 := Memref.whole cc1_scratch1

/-- The core's scoped buffers that are neither staged by this region nor its scratch, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f))

/-- The region invariant before position `n`: before the first point every scoped buffer the region does not stage at
    anything and the generator register at some state; afterwards the two scratch buffers at the running sums the point
    before left, the others at anything, the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare (acc1 V c n hn).1
      ∗ owns (c : Thread nD τ) scM1_1 fullShare (acc1 V c n hn).2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1_0 fullShare (acc1 V c n hn).1
      ∗ owns (c : Thread nD τ) scM1_1 fullShare (acc1 V c n hn).2 ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1_0 fullShare (acc1 V c (n - 1) (by omega)).1
      ∗ owns (c : Thread nD τ) scM1_1 fullShare (acc1 V c (n - 1) (by omega)).2 ∗ (∃ r, prngReg c r)) := by
  cases n with
  | zero => exact absurd rfl hz
  | succ n => rfl

/-- The proof data of the second region on core `c`: the arrays as the region finds them; after the body at point `t`
    each input's buffer at its block and the row-loss block at the clamped logarithms of the two running sums (consulted
    only where the block is stored); the invariant `PhiS1`; nothing owed; the two windows on one array each at half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (acc1 V c t.val t.isLt).1 (acc1 V c t.val t.isLt).2
  Φ t := PhiS1 V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare.left
    | ⟨6, _⟩ => fullShare.right
    | ⟨7, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = k1_pay3 (acc1 V c t.val t.isLt).1 (acc1 V c t.val t.isLt).2 := by dsimp only [dat1]

end Cert.Kernel.Hand

end
-- ==== Proof.KSegA.lean ====
/-
  The two regions' arrays among the core's unscoped buffers.

  Each region reads each of the two argument arrays through two windows. The proof data hold such an array at the two
  halves of the full share, one per window, at the same contents. When a region is entered the argument's buffer, held
  whole, is split into its halves; when it is left the halves — still at the contents the region found, an input array
  never being written — are joined again. The other windows' arrays are distinct buffers held whole.
-/
import proofs.«136872_j61607010893834_1_alg».proof.Proof.KData0
import proofs.«136872_j61607010893834_1_alg».proof.Proof.KData1
import proofs.«136872_j61607010893834_1_alg».proof.Proof.Gen.Kernel.Regions
import Idealize.ShloMosaic.Lib.Pipeline.FrameBody
import Idealize.ShloMosaic.Lib.Pipeline.Frame
import Idealize.ShloMosaic.Lib.Pipeline.Regions
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## One buffer at two half shares -/

/-- A set of a buffer's elements held at the full share is the same set held at the two halves of the full share, both
    at the same contents: split when a region is entered, joined again when it is left. -/
theorem halves {ℓ : Loc nD τ sig} (I : Finset (Idx ℓ)) (f g h : Buf (Elt F) ℓ) (hf : f = h) (hg : g = h) :
    (ℓ ↦[I]{fullShare} h : sProp 𝕄) ⊣⊢ iprop((ℓ ↦[I]{fullShare.left} f) ∗ ℓ ↦[I]{fullShare.right} g) := by
  subst hf; subst hg
  exact pointsTo_share (PosShare.mem_left_op_right fullShare)

/-! ## The first region's arrays among the unscoped buffers -/

/-- A window's array is a whole buffer: held at share `q`, it is the buffer's location held at `q`. -/
theorem win_pt0 (c : Dev nD) (w : Fin cfg0.W) (q : PosShare TreeShare) (hq : (dat0 V c).share w = q)
    (f : Buf (Elt F) ((cfg0.win w).arr.view.loc (c.tc : Thread nD τ))) :
    ((cfg0.win w).arr.view.loc (c.tc : Thread nD τ) ↦[(cfg0.win w).arr.view.set]{(dat0 V c).share w} f : sProp 𝕄)
      = (((c.tc : Thread nD τ).loc (Pipeline.arrRef spec0 w)) ↦{q} f) := by
  rw [(arr_whole0 w).set_eq_univ, hq]

/-- The first region's seven windows, one by one: the two on each argument at its halves, the three results whole. -/
theorem arrays0_eq (c : Dev nD) (G : (w : Fin cfg0.W) → Buf (Elt F) ((cfg0.win w).arr.view.loc (c.tc : Thread nD τ))) :
    ((dat0 V c).arrays G : sProp 𝕄)
      = iprop((((c.tc : Thread nD τ).loc main_arg0) ↦{fullShare.left} G 0) ∗ (((c.tc : Thread nD τ).loc main_arg0) ↦{fullShare.right} G 1)
        ∗ (((c.tc : Thread nD τ).loc main_arg1) ↦{fullShare.left} G 2) ∗ (((c.tc : Thread nD τ).loc main_arg1) ↦{fullShare.right} G 3)
        ∗ (((c.tc : Thread nD τ).loc main_v0_0) ↦{fullShare} G 4) ∗ (((c.tc : Thread nD τ).loc main_v0_1) ↦{fullShare} G 5)
        ∗ (((c.tc : Thread nD τ).loc main_v0_2) ↦{fullShare} G 6)) := by
  unfold Dat.arrays
  rw [bigSep_W0, win_pt0 V c 0 fullShare.left rfl, win_pt0 V c 1 fullShare.right rfl, win_pt0 V c 2 fullShare.left rfl,
    win_pt0 V c 3 fullShare.right rfl, win_pt0 V c 4 fullShare rfl, win_pt0 V c 5 fullShare rfl, win_pt0 V c 6 fullShare rfl]

/-- The distinct buffers behind the first region's windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
        ∗ (((c.tc : Thread nD τ).loc main_v0_0) ↦{fullShare} W main_v0_0) ∗ (((c.tc : Thread nD τ).loc main_v0_1) ↦{fullShare} W main_v0_1)
        ∗ (((c.tc : Thread nD τ).loc main_v0_2) ↦{fullShare} W main_v0_2)) := by
  unfold Pipeline.arrBufs
  exact bigSep_eq_bigSepL_of_eq [main_arg0, main_arg1, main_v0_0, main_v0_1, main_v0_2] (by decide) (by decide) _

/-- ENTRY of the first region: the core's unscoped buffers at `V c` are the region's arrays at the proof data's entry
    contents — each argument, which two windows read, split into its halves — and the unscoped rest. -/
theorem entry0 (c : Dev nD) :
    (unscopedBufs (Ix := Unit) (Name := ℕ) (U := UR sig nD τ) (Lvl := ℕ) c (V c) : sProp 𝕄)
      ⊢ iprop((dat0 V c).arrays (dat0 V c).A ∗ Pipeline.unscopedRest spec0 c (V c)) := by
  rw [Pipeline.unscopedBufs_split₀ cfgs 0 winFacts₀0.arr_unscoped c (V c)]
  refine sep_mono ?_ .rfl
  rw [show (Pipeline.arrBufs (cfgs 0).spec c (V c) : sProp 𝕄) = Pipeline.arrBufs spec0 c (V c) from rfl, arrBufs0_eq, arrays0_eq]
  iintro ⟨H0, H1, H2, H3, H4⟩
  ihave H0' := (halves (F := F) Finset.univ ((dat0 V c).A 0) ((dat0 V c).A 1) (V c main_arg0) rfl rfl).1 $$ H0
  ihave H1' := (halves (F := F) Finset.univ ((dat0 V c).A 2) ((dat0 V c).A 3) (V c main_arg1) rfl rfl).1 $$ H1
  icases H0' with ⟨Ha, Hb⟩
  icases H1' with ⟨Hc, Hd⟩
  isplitl [Ha]; · iexact Ha
  isplitl [Hb]; · iexact Hb
  isplitl [Hc]; · iexact Hc
  isplitl [Hd]; · iexact Hd
  isplitl [H2]; · iexact H2
  isplitl [H3]; · iexact H3
  iexact H4

/-- EXIT of the first region: its arrays at contents `G` — the two halves of each argument at one contents, joined
    again — and the unscoped rest at `V c` are the core's unscoped buffers at any contents `V'` that has the arrays at
    `G` and agrees with `V c` off them. -/
theorem exit0 (c : Dev nD) (V' : (b : Ref sig .tc) → Buf (Elt F) ((c : Thread nD τ).loc b))
    (G : (w : Fin cfg0.W) → Buf (Elt F) ((cfg0.win w).arr.view.loc (c.tc : Thread nD τ)))
    (h0 : G 0 = V' main_arg0) (h1 : G 1 = V' main_arg0) (h2 : G 2 = V' main_arg1) (h3 : G 3 = V' main_arg1)
    (h4 : G 4 = V' main_v0_0) (h5 : G 5 = V' main_v0_1) (h6 : G 6 = V' main_v0_2)
    (hrest : ∀ b, b ∉ Finset.univ.image (Pipeline.arrRef spec0) → V' b = V c b) :
    iprop((dat0 V c).arrays G ∗ Pipeline.unscopedRest spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono ?_ (Entails.of_eq ?_)
  · rw [show (Pipeline.arrBufs (cfgs 0).spec c V' : sProp 𝕄) = Pipeline.arrBufs spec0 c V' from rfl, arrBufs0_eq, arrays0_eq,
      ← h4, ← h5, ← h6]
    iintro ⟨Ha, Hb, Hc, Hd, H2, H3, H4⟩
    isplitl [Ha Hb]
    · iapply (halves (F := F) Finset.univ (G 0) (G 1) (V' main_arg0) h0 h1).2
      isplitl [Ha]; · iexact Ha
      iexact Hb
    isplitl [Hc Hd]
    · iapply (halves (F := F) Finset.univ (G 2) (G 3) (V' main_arg1) h2 h3).2
      isplitl [Hc]; · iexact Hc
      iexact Hd
    isplitl [H2]; · iexact H2
    isplitl [H3]; · iexact H3
    iexact H4
  · show Pipeline.unscopedRest spec0 c (V c) = Pipeline.unscopedRest spec0 c V'
    unfold Pipeline.unscopedRest
    exact bigSep_congr fun b hb => by rw [hrest b (Finset.mem_sdiff.mp hb).2]

/-! ## The second region's arrays among the unscoped buffers -/

/-- A window's array is a whole buffer: held at share `q`, it is the buffer's location held at `q`. -/
theorem win_pt1 (c : Dev nD) (w : Fin cfg1.W) (q : PosShare TreeShare) (hq : (dat1 V c).share w = q)
    (f : Buf (Elt F) ((cfg1.win w).arr.view.loc (c.tc : Thread nD τ))) :
    ((cfg1.win w).arr.view.loc (c.tc : Thread nD τ) ↦[(cfg1.win w).arr.view.set]{(dat1 V c).share w} f : sProp 𝕄)
      = (((c.tc : Thread nD τ).loc (Pipeline.arrRef spec1 w)) ↦{q} f) := by
  rw [(arr_whole1 w).set_eq_univ, hq]

/-- The second region's eight windows, one by one: the first region's three results whole, the two windows on each
    argument at its halves, the row losses whole. -/
theorem arrays1_eq (c : Dev nD) (G : (w : Fin cfg1.W) → Buf (Elt F) ((cfg1.win w).arr.view.loc (c.tc : Thread nD τ))) :
    ((dat1 V c).arrays G : sProp 𝕄)
      = iprop((((c.tc : Thread nD τ).loc main_v0_0) ↦{fullShare} G 0) ∗ (((c.tc : Thread nD τ).loc main_v0_1) ↦{fullShare} G 1)
        ∗ (((c.tc : Thread nD τ).loc main_v0_2) ↦{fullShare} G 2)
        ∗ (((c.tc : Thread nD τ).loc main_arg0) ↦{fullShare.left} G 3) ∗ (((c.tc : Thread nD τ).loc main_arg0) ↦{fullShare.right} G 4)
        ∗ (((c.tc : Thread nD τ).loc main_arg1) ↦{fullShare.left} G 5) ∗ (((c.tc : Thread nD τ).loc main_arg1) ↦{fullShare.right} G 6)
        ∗ (((c.tc : Thread nD τ).loc main_v1) ↦{fullShare} G 7)) := by
  unfold Dat.arrays
  rw [bigSep_W1, win_pt1 V c 0 fullShare rfl, win_pt1 V c 1 fullShare rfl, win_pt1 V c 2 fullShare rfl,
    win_pt1 V c 3 fullShare.left rfl, win_pt1 V c 4 fullShare.right rfl, win_pt1 V c 5 fullShare.left rfl,
    win_pt1 V c 6 fullShare.right rfl, win_pt1 V c 7 fullShare rfl]

/-- The distinct buffers behind the second region's windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c.tc : Thread nD τ).loc main_v0_0) ↦{fullShare} W main_v0_0) ∗ (((c.tc : Thread nD τ).loc main_v0_1) ↦{fullShare} W main_v0_1)
        ∗ (((c.tc : Thread nD τ).loc main_v0_2) ↦{fullShare} W main_v0_2)
        ∗ (((c.tc : Thread nD τ).loc main_arg0) ↦{fullShare} W main_arg0) ∗ (((c.tc : Thread nD τ).loc main_arg1) ↦{fullShare} W main_arg1)
        ∗ (((c.tc : Thread nD τ).loc main_v1) ↦{fullShare} W main_v1)) := by
  unfold Pipeline.arrBufs
  exact bigSep_eq_bigSepL_of_eq [main_v0_0, main_v0_1, main_v0_2, main_arg0, main_arg1, main_v1] (by decide) (by decide) _

/-- ENTRY of the second region: the core's unscoped buffers at `V c` are the region's arrays at the proof data's entry
    contents — each argument, which two windows read, split into its halves — and the unscoped rest. -/
theorem entry1 (c : Dev nD) :
    (unscopedBufs (Ix := Unit) (Name := ℕ) (U := UR sig nD τ) (Lvl := ℕ) c (V c) : sProp 𝕄)
      ⊢ iprop((dat1 V c).arrays (dat1 V c).A ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = Pipeline.arrBufs spec1 c (V c) from rfl, arrBufs1_eq, arrays1_eq]
  iintro ⟨H0, H1, H2, H3, H4, H5⟩
  ihave H3' := (halves (F := F) Finset.univ ((dat1 V c).A 3) ((dat1 V c).A 4) (V c main_arg0) rfl rfl).1 $$ H3
  ihave H4' := (halves (F := F) Finset.univ ((dat1 V c).A 5) ((dat1 V c).A 6) (V c main_arg1) rfl rfl).1 $$ H4
  icases H3' with ⟨Ha, Hb⟩
  icases H4' with ⟨Hc, Hd⟩
  isplitl [H0]; · iexact H0
  isplitl [H1]; · iexact H1
  isplitl [H2]; · iexact H2
  isplitl [Ha]; · iexact Ha
  isplitl [Hb]; · iexact Hb
  isplitl [Hc]; · iexact Hc
  isplitl [Hd]; · iexact Hd
  iexact H5

/-- EXIT of the second region: its arrays at contents `G` — the two halves of each argument at one contents, joined
    again — and the unscoped rest at `V c` are the core's unscoped buffers at any contents `V'` that has the arrays at
    `G` and agrees with `V c` off them. -/
theorem exit1 (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v0_0) (h1 : G 1 = V' main_v0_1) (h2 : G 2 = V' main_v0_2)
    (h3 : G 3 = V' main_arg0) (h4 : G 4 = V' main_arg0) (h5 : G 5 = V' main_arg1) (h6 : G 6 = V' main_arg1)
    (h7 : G 7 = V' main_v1)
    (hrest : ∀ b, b ∉ Finset.univ.image (Pipeline.arrRef spec1) → V' b = V c b) :
    iprop((dat1 V c).arrays G ∗ Pipeline.unscopedRest spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono ?_ (Entails.of_eq ?_)
  · rw [show (Pipeline.arrBufs (cfgs 1).spec c V' : sProp 𝕄) = Pipeline.arrBufs spec1 c V' from rfl, arrBufs1_eq, arrays1_eq,
      ← h0, ← h1, ← h2, ← h7]
    iintro ⟨H0, H1, H2, Ha, Hb, Hc, Hd, H7⟩
    isplitl [H0]; · iexact H0
    isplitl [H1]; · iexact H1
    isplitl [H2]; · iexact H2
    isplitl [Ha Hb]
    · iapply (halves (F := F) Finset.univ (G 3) (G 4) (V' main_arg0) h3 h4).2
      isplitl [Ha]; · iexact Ha
      iexact Hb
    isplitl [Hc Hd]
    · iapply (halves (F := F) Finset.univ (G 5) (G 6) (V' main_arg1) h5 h6).2
      isplitl [Hc]; · iexact Hc
      iexact Hd
    iexact H7
  · show Pipeline.unscopedRest spec1 c (V c) = Pipeline.unscopedRest spec1 c V'
    unfold Pipeline.unscopedRest
    exact bigSep_congr fun b hb => by rw [hrest b (Finset.mem_sdiff.mp hb).2]

end Cert.Kernel.Hand

end
-- ==== Proof.KSeg.lean ====
/-
  The two regions of the program as records over the thread state, and the program's two runs.

  Between two items of @main core `c` holds every unscoped buffer whole at a valuation — the launch memory, then what the
  first region leaves in its three results, then what the second region leaves in the row losses' buffer, then the host
  tail's four operations — beside its generator register at some state and nothing owed. A region's record splits its
  windows' arrays out of that state (an argument array, read through two windows, into the two halves of the full
  share), hands the generator register to the region's invariant, and at the exit puts everything back at the next
  valuation: an input array is never written, so both halves of an argument still hold the launch contents and join.
  The launch over the three items gives the frame (each argument array ends as launched) and the value run (the result
  buffer ends at the host tail applied to what the second region leaves).

  Taken as hypotheses: each region's body obligation at its proof data, and for the second region that the class
  invariant gives its invariant before the first point and is given back by its invariant after the last.
-/
import proofs.«136872_j61607010893834_1_alg».proof.Proof.KData0
import proofs.«136872_j61607010893834_1_alg».proof.Proof.KData1
import proofs.«136872_j61607010893834_1_alg».proof.Proof.Gen.Kernel.Regions
import proofs.«136872_j61607010893834_1_alg».proof.Proof.KSegA
import Idealize.ShloMosaic.Lib.Pipeline.FrameBody
import Idealize.ShloMosaic.Lib.Pipeline.Frame
import Idealize.ShloMosaic.Lib.Pipeline.Regions
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when each region is entered -/

/-- The first region's entry contents: the launch memory. -/
def Vin0 : (c : Dev nD) → (b : Ref sig .tc) → Buf (Elt F) ((c : Thread nD τ).loc b) := fun c b => m ((c : Thread nD τ).loc b)

theorem Vin0_eq (c : Dev nD) (b : Ref sig .tc) : Vin0 m c b = Gen.V0 m c b := rfl

/-- What the first region leaves in a buffer: its three results at what the write-backs of all points leave there,
    any other buffer as launched. -/
def out1 (r : Ref sig .tc) (c : Dev nD) : Buf (Elt F) ((c : Thread nD τ).loc r) :=
  if h : r = main_v0_0 then h ▸ ((dat0 (Vin0 m) c).arrAt 4 cfg0.N : Buf (Elt F) ((c : Thread nD τ).loc main_v0_0))
  else if h : r = main_v0_1 then h ▸ ((dat0 (Vin0 m) c).arrAt 5 cfg0.N : Buf (Elt F) ((c : Thread nD τ).loc main_v0_1))
  else if h : r = main_v0_2 then h ▸ ((dat0 (Vin0 m) c).arrAt 6 cfg0.N : Buf (Elt F) ((c : Thread nD τ).loc main_v0_2))
  else m ((c : Thread nD τ).loc r)

theorem out1_v0_0 (c : Dev nD) : out1 m main_v0_0 c = (dat0 (Vin0 m) c).arrAt 4 cfg0.N := dif_pos rfl
theorem out1_v0_1 (c : Dev nD) : out1 m main_v0_1 c = (dat0 (Vin0 m) c).arrAt 5 cfg0.N :=
  (dif_neg (by decide)).trans (dif_pos rfl)
theorem out1_v0_2 (c : Dev nD) : out1 m main_v0_2 c = (dat0 (Vin0 m) c).arrAt 6 cfg0.N :=
  (dif_neg (by decide)).trans ((dif_neg (by decide)).trans (dif_pos rfl))

/-- The second region's entry contents: the launch memory with the first region's three results in their buffers. -/
def Vin1 : (c : Dev nD) → (b : Ref sig .tc) → Buf (Elt F) ((c : Thread nD τ).loc b) := fun c b => Gen.V1 m (fun _ => out1 m) c b

/-- What the regions leave in the buffers they may change: the first its three results, the second the row losses at
    what the write-backs of all points leave there. -/
def outs : Gen.Outs (F := F) := fun _ r c =>
  if h : r = main_v1 then h ▸ ((dat1 (Vin1 m) c).arrAt 7 cfg1.N : Buf (Elt F) ((c : Thread nD τ).loc main_v1))
  else out1 m r c

theorem outs_of_ne (j : ℕ) (r : Ref sig .tc) (c : Dev nD) (h : r ≠ main_v1) : outs m j r c = out1 m r c := dif_neg h
theorem outs_v1 (j : ℕ) (c : Dev nD) : outs m j main_v1 c = (dat1 (Vin1 m) c).arrAt 7 cfg1.N := dif_pos rfl

/-- After the first region the buffers hold the second region's entry contents. -/
theorem V1_outs (c : Dev nD) : Gen.V1 m (outs m) c = Gen.V1 m (fun _ => out1 m) c := by
  show Function.update (Function.update (Function.update (Gen.V0 m c) main_v0_0 (outs m 1 main_v0_0 c)) main_v0_1 (outs m 1 main_v0_1 c)) main_v0_2 (outs m 1 main_v0_2 c) = _
  rw [outs_of_ne m 1 main_v0_0 c (by decide), outs_of_ne m 1 main_v0_1 c (by decide), outs_of_ne m 1 main_v0_2 c (by decide)]

theorem Vin1_eq (c : Dev nD) (b : Ref sig .tc) : Vin1 m c b = Gen.V1 m (outs m) c b := (congrFun (V1_outs m c) _).symm

theorem Vin1_v0_0 (c : Dev nD) : Vin1 m c main_v0_0 = (dat0 (Vin0 m) c).arrAt 4 cfg0.N := by
  show Function.update (Function.update (Function.update (Gen.V0 m c) main_v0_0 (out1 m main_v0_0 c)) main_v0_1 (out1 m main_v0_1 c)) main_v0_2 (out1 m main_v0_2 c) main_v0_0 = _
  rw [Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1),
    Function.update_self, out1_v0_0]
theorem Vin1_v0_1 (c : Dev nD) : Vin1 m c main_v0_1 = (dat0 (Vin0 m) c).arrAt 5 cfg0.N := by
  show Function.update (Function.update (Function.update (Gen.V0 m c) main_v0_0 (out1 m main_v0_0 c)) main_v0_1 (out1 m main_v0_1 c)) main_v0_2 (out1 m main_v0_2 c) main_v0_1 = _
  rw [Function.update_of_ne (StableHlo.devRef_ne_of_ne (by decide) : (Proc.devRef .tc main_v0_1 : DevRef τ sig) ≠ Proc.devRef .tc main_v0_2),
    Function.update_self, out1_v0_1]
theorem Vin1_v0_2 (c : Dev nD) : Vin1 m c main_v0_2 = (dat0 (Vin0 m) c).arrAt 6 cfg0.N := by
  show Function.update (Function.update (Function.update (Gen.V0 m c) main_v0_0 (out1 m main_v0_0 c)) main_v0_1 (out1 m main_v0_1 c)) main_v0_2 (out1 m main_v0_2 c) main_v0_2 = _
  rw [Function.update_self, out1_v0_2]
theorem Vin1_arg0 (c : Dev nD) : Vin1 m c main_arg0 = m ((c : Thread nD τ).loc main_arg0) :=
  (Gen.V1_of m (fun _ => out1 m) c main_arg0 (by decide)).trans rfl
theorem Vin1_arg1 (c : Dev nD) : Vin1 m c main_arg1 = m ((c : Thread nD τ).loc main_arg1) :=
  (Gen.V1_of m (fun _ => out1 m) c main_arg1 (by decide)).trans rfl

/-- After the second region the row losses' buffer holds what the region left. -/
theorem V2_v1 (c : Dev nD) : Gen.V2 m (outs m) c main_v1 = (dat1 (Vin1 m) c).arrAt 7 cfg1.N := by
  show Function.update (Gen.V1 m (outs m) c) main_v1 (outs m 2 main_v1 c) main_v1 = _
  rw [Function.update_self, outs_v1]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

/-- No core owes another anything: no level is assigned. -/
abbrev Ls : GSem nD τ sig → Finset Unit := fun _ => ∅
abbrev lvs : GSem nD τ sig → Unit → ℕ := fun _ _ => 0

/-- What rides beside the buffers between the program's items: the core's generator register at some state and its
    dues, at nothing. -/
abbrev R (c : Dev nD) : sProp 𝕄 := iprop((∃ r, prngReg c r) ∗ ∃ W, owes (c : Thread nD τ) (0 : CellTallies nD τ sig Unit) W)

/-- The thread state between items: every unscoped buffer whole at a valuation, beside `R`. -/
abbrev St (W : Dev nD → Valuation τ sig (Elt F)) (c : Dev nD) : sProp 𝕄 :=
  iprop(StableHlo.held (c : Thread nD τ) (Pipeline.ucRefs τ sig) (W c) ∗ R c)

/-- Entering the first region: the unscoped buffers at the launch contents are its arrays and the unscoped rest. -/
theorem split0 (c : Dev nD) :
    (StableHlo.held (c : Thread nD τ) (Pipeline.ucRefs τ sig) (Gen.V0 m c) : sProp 𝕄)
      ⊢ iprop((dat0 (Vin0 m) c).arrays (dat0 (Vin0 m) c).A ∗ Pipeline.unscopedRest spec0 c (Vin0 m c)) := by
  rw [← Pipeline.unscopedBufs_held (Ix := Unit) (Name := ℕ) (U := UR sig nD τ) (Lvl := ℕ) c (Gen.V0 m c)]
  exact entry0 (Vin0 m) c

/-- Leaving the first region: its arrays after all write-backs and the unscoped rest are the unscoped buffers at the
    contents after the first item. -/
theorem join0 (c : Dev nD) :
    iprop((dat0 (Vin0 m) c).arrays ((dat0 (Vin0 m) c).arrAt · cfg0.N) ∗ Pipeline.unscopedRest spec0 c (Vin0 m c))
      ⊢ (StableHlo.held (c : Thread nD τ) (Pipeline.ucRefs τ sig) (Gen.V1 m (outs m) c) : sProp 𝕄) := by
  rw [← Pipeline.unscopedBufs_held (Ix := Unit) (Name := ℕ) (U := UR sig nD τ) (Lvl := ℕ) c (Gen.V1 m (outs m) c)]
  refine exit0 (Vin0 m) c _ _ ?_ ?_ ?_ ?_ ?_ ?_ ?_ ?_
  · exact ((dat0 (Vin0 m) c).arrAt_in 0 rfl _).trans ((A_eq0 (Vin0 m) c 0).trans (Gen.V1_of m (outs m) c main_arg0 (by decide)).symm)
  · exact ((dat0 (Vin0 m) c).arrAt_in 1 rfl _).trans ((A_eq0 (Vin0 m) c 1).trans (Gen.V1_of m (outs m) c main_arg0 (by decide)).symm)
  · exact ((dat0 (Vin0 m) c).arrAt_in 2 rfl _).trans ((A_eq0 (Vin0 m) c 2).trans (Gen.V1_of m (outs m) c main_arg1 (by decide)).symm)
  · exact ((dat0 (Vin0 m) c).arrAt_in 3 rfl _).trans ((A_eq0 (Vin0 m) c 3).trans (Gen.V1_of m (outs m) c main_arg1 (by decide)).symm)
  · exact ((Vin1_eq m c main_v0_0).symm.trans (Vin1_v0_0 m c)).symm
  · exact ((Vin1_eq m c main_v0_1).symm.trans (Vin1_v0_1 m c)).symm
  · exact ((Vin1_eq m c main_v0_2).symm.trans (Vin1_v0_2 m c)).symm
  · intro b hb
    refine Gen.V1_of m (outs m) c b fun hmem => hb ?_
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    exact absurd hmem List.not_mem_nil

/-- Entering the second region: the unscoped buffers at the contents after the first item are its arrays and the
    unscoped rest. -/
theorem split1 (c : Dev nD) :
    (StableHlo.held (c : Thread nD τ) (Pipeline.ucRefs τ sig) (Gen.V1 m (outs m) c) : sProp 𝕄)
      ⊢ iprop((dat1 (Vin1 m) c).arrays (dat1 (Vin1 m) c).A ∗ Pipeline.unscopedRest spec1 c (Vin1 m c)) := by
  rw [V1_outs, ← Pipeline.unscopedBufs_held (Ix := Unit) (Name := ℕ) (U := UR sig nD τ) (Lvl := ℕ) c (Gen.V1 m (fun _ => out1 m) c)]
  exact entry1 (Vin1 m) c

/-- Leaving the second region: its arrays after all write-backs and the unscoped rest are the unscoped buffers at the
    contents after the second item. -/
theorem join1 (c : Dev nD) :
    iprop((dat1 (Vin1 m) c).arrays ((dat1 (Vin1 m) c).arrAt · cfg1.N) ∗ Pipeline.unscopedRest spec1 c (Vin1 m c))
      ⊢ (StableHlo.held (c : Thread nD τ) (Pipeline.ucRefs τ sig) (Gen.V2 m (outs m) c) : sProp 𝕄) := by
  rw [← Pipeline.unscopedBufs_held (Ix := Unit) (Name := ℕ) (U := UR sig nD τ) (Lvl := ℕ) c (Gen.V2 m (outs m) c)]
  refine exit1 (Vin1 m) c _ _ ?_ ?_ ?_ ?_ ?_ ?_ ?_ ?_ ?_
  · exact ((dat1 (Vin1 m) c).arrAt_in 0 rfl _).trans ((A_eq1 (Vin1 m) c 0).trans ((Gen.V2_of m (outs m) c main_v0_0 (by decide)).trans (Vin1_eq m c main_v0_0).symm).symm)
  · exact ((dat1 (Vin1 m) c).arrAt_in 1 rfl _).trans ((A_eq1 (Vin1 m) c 1).trans ((Gen.V2_of m (outs m) c main_v0_1 (by decide)).trans (Vin1_eq m c main_v0_1).symm).symm)
  · exact ((dat1 (Vin1 m) c).arrAt_in 2 rfl _).trans ((A_eq1 (Vin1 m) c 2).trans ((Gen.V2_of m (outs m) c main_v0_2 (by decide)).trans (Vin1_eq m c main_v0_2).symm).symm)
  · exact ((dat1 (Vin1 m) c).arrAt_in 3 rfl _).trans ((A_eq1 (Vin1 m) c 3).trans ((Gen.V2_of m (outs m) c main_arg0 (by decide)).trans (Vin1_eq m c main_arg0).symm).symm)
  · exact ((dat1 (Vin1 m) c).arrAt_in 4 rfl _).trans ((A_eq1 (Vin1 m) c 4).trans ((Gen.V2_of m (outs m) c main_arg0 (by decide)).trans (Vin1_eq m c main_arg0).symm).symm)
  · exact ((dat1 (Vin1 m) c).arrAt_in 5 rfl _).trans ((A_eq1 (Vin1 m) c 5).trans ((Gen.V2_of m (outs m) c main_arg1 (by decide)).trans (Vin1_eq m c main_arg1).symm).symm)
  · exact ((dat1 (Vin1 m) c).arrAt_in 6 rfl _).trans ((A_eq1 (Vin1 m) c 6).trans ((Gen.V2_of m (outs m) c main_arg1 (by decide)).trans (Vin1_eq m c main_arg1).symm).symm)
  · exact (V2_v1 m c).symm
  · intro b hb
    refine (Gen.V2_of m (outs m) c b fun hmem => hb ?_).trans (Vin1_eq m c b).symm
    rcases List.mem_cons.mp hmem with rfl | hmem
    · exact Finset.mem_image.mpr ⟨7, Finset.mem_univ _, rfl⟩
    exact absurd hmem List.not_mem_nil

-- unification against `pin pcs a p` here unfolds plain definitions in a metavariable's type
set_option backward.isDefEq.respectTransparency.types false in
/-- REGION 0 over the thread state: entered from every unscoped buffer at the contents before it, left at the contents
    after it. Its arrays are split out of the unscoped buffers (each argument into its halves) and put back; the generator
    register goes into the invariant and comes out of it; nothing is owed; the kernel has no semaphore of its own. -/
def reg0
    (hb0 : ∀ (V : (c : Dev nD) → (b : Ref sig .tc) → Buf (Elt F) ((c : Thread nD τ).loc b)) (c : Dev nD),
      Pipeline.BodyObligation (dat0 (F := F) V c) (defs₀ (F := F)) Variants.none () Set.univ) :
    Pipeline.RegionSeg (pcfgs (F := F)) adm (pdats m) () defs₀ Variants.none Ls lvs 0 where
  win := winFacts₀0
  block_pos := block_pos0
  stage_whole := stage_whole0
  K := PEmpty
  osem k := k.elim
  ho := Pipeline.OwnSemFacts.none _
  hbody c := (hb0 (Vin0 m) c).loose
  hwaits := Pipeline.hwaits_of_owed_zero _ _ _ _ Ls lvs 0 fun _ _ => rfl
  pre c := St (Gen.V0 m ) c
  post c := St (Gen.V1 m (outs m)) c
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    iintro ⟨⟨Hub, Hp, HO⟩, -, -⟩
    ihave H := split0 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply join0 m c; isplitl [Ha]
      · iexact Ha
      iexact Hrest
    isplitl [HY]; · iexact HY
    unfold Pipeline.Dat.owesAt Pipeline.owesWithin
    icases HO with ⟨%W, -, HO⟩; iexists W; iexact HO

-- unification against `pin pcs a p` here unfolds plain definitions in a metavariable's type
set_option backward.isDefEq.respectTransparency.types false in
/-- REGION 1 over the thread state: entered from every unscoped buffer at the contents before it, left at the contents
    after it. Its arrays are split out of the unscoped buffers (each argument into its halves) and put back; the generator
    register goes into the invariant and comes out of it; nothing is owed; the kernel has no semaphore of its own. -/
def reg1
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄)) :
    Pipeline.RegionSeg (pcfgs (F := F)) adm (pdats m) () defs₀ Variants.none Ls lvs 1 where
  win := winFacts₀1
  block_pos := block_pos1
  stage_whole := stage_whole1
  K := PEmpty
  osem k := k.elim
  ho := Pipeline.OwnSemFacts.none _
  hbody c := (hb1 (Vin1 m) c).loose
  hwaits := Pipeline.hwaits_of_owed_zero _ _ _ _ Ls lvs 1 fun _ _ => rfl
  pre c := St (Gen.V1 m (outs m)) c
  post c := St (Gen.V2 m (outs m)) c
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    iintro ⟨⟨Hub, Hp, HO⟩, -, -⟩
    ihave H := split1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    refine BIBase.Entails.trans (hout1 (Vin1 m) c) ?_
    rw [Pipeline.ownSems0_none]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply join1 m c; isplitl [Ha]
      · iexact Ha
      iexact Hrest
    isplitl [HY]; · iexact HY
    unfold Pipeline.Dat.owesAt Pipeline.owesWithin
    icases HO with ⟨%W, -, HO⟩; iexists W; iexact HO

/-! ## The program's two runs -/

/-- The launch element: the pipeline library's at every pipeline's staging cells; no ghost resource per core. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes `R` on every core: the generator register as launched, nothing owed. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Ls lvs)
      ⊢ (|={Set.univ}=> bigSep Finset.univ (fun c : Dev nD => R (F := F) c) : sProp 𝕄) := by
  refine Pipeline.initEach Ls lvs fun c => ?_
  iintro ⟨⟨-, HO, -, Hp, -⟩, -⟩
  imodintro
  isplitl [Hp]; · iexists _; iexact Hp
  iexists ∅; iexact HO

-- unification against `pin pcs a p` here unfolds plain definitions in a metavariable's type
set_option backward.isDefEq.respectTransparency.types false in
/-- THE FRAME: from any memory with zero counters, every weakly fair execution of @main terminates and every final memory
    holds each argument array as launched. -/
theorem frame
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () Variants.none Ls lvs (fun _ _ => rfl) ρ (outs m) (pdats m) 0 (fun _ => iprop(emp))
    (initOf (Pipeline.cells cfgs cellOf_inj) (Pipeline.launchToks cfgs cellOf_inj)) launch_elt
    (fun _ c => R c) (launch_rest ρ) (fun c => by iintro ⟨-, H⟩; iexact H)
    (reg0 m hb0) (fun _ => .rfl) (fun _ => .rfl) (reg1 m hb1 hin1 hout1) (fun _ => .rfl) (fun _ => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- unification against `pin pcs a p` here unfolds plain definitions in a metavariable's type
set_option backward.isDefEq.respectTransparency.types false in
/-- THE RUN, every buffer read: from any memory with zero counters, every weakly fair execution of @main terminates and
    every final memory holds each unscoped buffer at the contents after the last item — the launch over the three items
    (the two regions' records, the host tail), the last thread state read against the final state. -/
theorem run_all
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄))
    {Q : PUnit × MemSt nD τ sig (Elt F) → Prop}
    (hQ : ∀ s : MemSt nD τ sig (Elt F), (∀ c : Dev nD, ∀ b ∈ Pipeline.ucRefs τ sig,
      s.mem ((c : Thread nD τ).1, b) = Gen.V3 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ Variants.none Ls lvs m ρ main
    (Gen.segs m (outs m) Variants.none Ls lvs (fun _ c => R c) () (pdats m) (reg0 m hb0) (reg1 m hb1 hin1 hout1))
    (fun c Q => by
      rewrite [main_chain c, Pipeline.Seg.run_eq_chain,
        show (Gen.segs m (outs m) Variants.none Ls lvs (fun _ c => R c) () (pdats m) (reg0 m hb0) (reg1 m hb1 hin1 hout1) c).map Pipeline.Seg.prog = [
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) launch_elt
    (T₀ := St (Gen.V0 m))
    (Tₙ := fun c => StableHlo.held (c : Thread nD τ) (Pipeline.ucRefs τ sig) (Gen.V3 m (outs m) c))
    (hch := fun c => ⟨.rfl, .rfl, .rfl, sep_mono .rfl (by iintro ⟨-, H⟩; iexact H)⟩)
    (hinit := ?_)
    (QY := fun c s => ∀ b ∈ Pipeline.ucRefs τ sig, s.mem ((c : Thread nD τ).1, b) = Gen.V3 m (outs m) c b)
    (hfin := fun c s' => ?_) (hQ := hQ)
  · -- the launch: the unscoped buffers are held at the launch contents; the rest makes `R` on every core
    refine Pipeline.initEach Ls lvs fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V3 m (outs m) c) s')
    isplitl [Hh]
    · iexact Hh
    iexact HSI

/-- The program's result: the host tail's two operations — the sum of all rows, then the division by the row count —
    applied to what the second region leaves in the row losses' buffer. -/
theorem V3_v3 (c : Dev nD) : Gen.V3 m (outs m) c main_v3
    = Host.divf (Host.reduceAdd ((dat1 (Vin1 m) c).arrAt 7 cfg1.N) (constant S_ .f32 0x00000000#32) reducesTo_S8192x1_S_d0_1 h_S_)
        (constant S_ .f32 0x46000000#32) := by
  show StableHlo.after hostOps2 (Gen.V2 m (outs m) c) (Proc.devRef .tc main_v3) = _
  after_results
  rw [V2_v1]

/-- THE VALUE RUN: every weakly fair execution of @main terminates, and every final memory holds in the result buffer
    the host tail's two operations applied to what the second region leaves in the row losses' buffer, and each argument
    array as launched. -/
theorem run_value
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v3)
        = Host.divf (Host.reduceAdd ((dat1 (Vin1 m) c).arrAt 7 cfg1.N) (constant S_ .f32 0x00000000#32) reducesTo_S8192x1_S_d0_1 h_S_)
            (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_all m ρ hb0 hb1 hin1 hout1 fun s h c =>
    ⟨(h c _ (mem_uc main_v3 (by decide))).trans (V3_v3 m c),
      (h c _ (mem_uc main_arg0 (by decide))).trans (Gen.V3_main_arg0 m (outs m) c),
      (h c _ (mem_uc main_arg1 (by decide))).trans (Gen.V3_main_arg1 m (outs m) c)⟩

end Cert.Kernel.Hand

end
-- ==== Proof.KBody0Pts.lean ====
/-
  The first region's control and what its staging buffers hold when the body is entered.

  The body has two branches on the grid position: the first is taken exactly at the first point, the second exactly at
  every other point (the second condition is the negation of the first), so no result window is ever idle. An input's
  staging buffer holds its block at every point. A result's staging buffer holds anything at the first point and, from
  then on, what the body left there at the point before: the three results' blocks never move and are written back only
  after the last point.
-/
import proofs.«136872_j61607010893834_1_alg».proof.Proof.KData0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form -/

/-- The first branch is taken exactly at the first point. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)

/-- The second branch is taken exactly at every other point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two conditions holds at every grid position: both test one bit, the second its negation. -/
theorem cond0_or (i : grid0.Coords) : (!(k0_cond1 i == 1#1) && !(k0_cond2 i == 1#1)) = false := by
  unfold k0_cond1 k0_cond2
  dsimp only
  generalize Scalar.andi _ _ = b
  rcases BitVec.eq_zero_or_eq_one b with h | h <;> subst h <;> decide

/-- No window is idle anywhere: the inputs by the table, the results because one branch always stores into them. -/
theorem idle0_false : ∀ (w : Fin 7) (i : grid0.Coords), cfg0.idle w i = false := by
  intro w i
  fin_cases w
  · rfl
  · rfl
  · rfl
  · rfl
  · exact cond0_or i
  · exact cond0_or i
  · exact cond0_or i

/-! ## What the staging buffers hold when the body is entered -/

/-- An input's current staging buffer holds its block at every point, fetched there or not. -/
theorem before0_0 (c : Dev nD) (t : Fin cfg0.N) (d) : (dat0 V c).before 0 t d = iblk0 V c 0 t :=
  ((dat0 V c).before_in_eq_fetched 0 rfl (idle0_false 0) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (idle0_false 1) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (idle0_false 2) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (idle0_false 3) (fun _ _ _ => rfl)
    (fun t => by rw [after0_3]; unfold Dat.blockOf iblk0; rw [A_eq0]; try rfl) t d).trans
    (by unfold Dat.fetched Dat.blockOf iblk0; rw [A_eq0]; try rfl)

/-- At the first point a result's staging buffer holds anything. -/
theorem before0_4_first (c : Dev nD) (t : Fin cfg0.N) (ht : t.val = 0) (d) : (dat0 V c).before 4 t d = d :=
  (dat0 V c).before_out_reset 4 rfl t (.inl ht) d
theorem before0_5_first (c : Dev nD) (t : Fin cfg0.N) (ht : t.val = 0) (d) : (dat0 V c).before 5 t d = d :=
  (dat0 V c).before_out_reset 5 rfl t (.inl ht) d
theorem before0_6_first (c : Dev nD) (t : Fin cfg0.N) (ht : t.val = 0) (d) : (dat0 V c).before 6 t d = d :=
  (dat0 V c).before_out_reset 6 rfl t (.inl ht) d

/-- At a later point a result's staging buffer holds the running extreme the body left at the point before: the
    buffer is written back only after the last point, the window is never idle and its block is whole. -/
theorem before0_4 (c : Dev nD) (t : Fin cfg0.N) (ht : t.val ≠ 0) (d) :
    (dat0 V c).before 4 t d = (acc0 V c (t.val - 1) (Nat.lt_of_le_of_lt (Nat.sub_le _ _) t.isLt)).1 := by
  have hN : t.val < 256 := lt_of_lt_of_eq t.isLt (show cfg0.N = 256 from N_0)
  rw [Dat.before_out_kept _ 4 rfl t ht (Bool.eq_false_iff.mpr fun h => by have := (flush0_4 _).mp h; dsimp only at this; omega)
    (idle0_false 4) (fun _ _ => rfl), after0_4]
theorem before0_5 (c : Dev nD) (t : Fin cfg0.N) (ht : t.val ≠ 0) (d) :
    (dat0 V c).before 5 t d = (acc0 V c (t.val - 1) (Nat.lt_of_le_of_lt (Nat.sub_le _ _) t.isLt)).2.1 := by
  have hN : t.val < 256 := lt_of_lt_of_eq t.isLt (show cfg0.N = 256 from N_0)
  rw [Dat.before_out_kept _ 5 rfl t ht (Bool.eq_false_iff.mpr fun h => by have := (flush0_5 _).mp h; dsimp only at this; omega)
    (idle0_false 5) (fun _ _ => rfl), after0_5]
theorem before0_6 (c : Dev nD) (t : Fin cfg0.N) (ht : t.val ≠ 0) (d) :
    (dat0 V c).before 6 t d = (acc0 V c (t.val - 1) (Nat.lt_of_le_of_lt (Nat.sub_le _ _) t.isLt)).2.2 := by
  have hN : t.val < 256 := lt_of_lt_of_eq t.isLt (show cfg0.N = 256 from N_0)
  rw [Dat.before_out_kept _ 6 rfl t ht (Bool.eq_false_iff.mpr fun h => by have := (flush0_6 _).mp h; dsimp only at this; omega)
    (idle0_false 6) (fun _ _ => rfl), after0_6]

end Cert.Kernel.Hand

end
-- ==== Proof.LibWholeBuffer.lean ====
/-
  Loads and stores of a WHOLE buffer.

  A kernel body that reads and writes its buffers whole — every rectangle of the buffer's full size, at offsets
  zero — leaves in each buffer exactly the payload of the last store made to it, and reads from a buffer exactly
  what it holds. The two lemmas below say so for any view, shape, element type and value family, in the forms a
  symbolic run of such a body leaves: a read of the buffer after a list of stores (newest first), and a load through
  the whole rectangle of a whole buffer given by what it reads.
-/
import Idealize.ShloMosaic.Lib.Pipeline.FrameBody
import Idealize.ShloMosaic.Lib.Pipeline.Value

/-! Whole-buffer loads and stores: the last whole store wins; a whole load of a whole buffer reads its contents. -/

namespace WholeBuffer

open Idealize.ShloMosaic

/-- The offsets of a rank-two whole rectangle, spelt as a literal vector, are the zero function. -/
theorem offsets_zero₂ : (![0, 0] : Fin 2 → Nat) = fun _ => 0 := funext fun a => by fin_cases a <;> rfl

variable {sg : RefSig} {κ : Kind} {sp : Space} {S : Shape} {e : EltTy} {Val : EltTy → Type} [∀ e, Nonempty (Val e)]

/-- After stores the LAST of which is of the whole shape, a buffer reads that store's payload, whatever the earlier
    stores and the contents before them: every index lies in the last store's rectangle. -/
theorem read_writes_cons_whole (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h]

/-- A load of the whole shape from a whole buffer that reads `X` gives `X`. -/
theorem readAt_whole_unread {m : Memref sg κ sp S e} (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero h]

end WholeBuffer
-- ==== Proof.KBody0Run.lean ====
/-
  The first region's body, run on any whole staging buffers.

  The body loads the four input blocks whole and forms the tile of similarities and the tile of distances from them.
  At the first grid position it overwrites each of the three 1 × 1 results with the tile's own extreme; at every other
  position it loads each result and overwrites it with the extreme of what it found and the tile's. Every load and
  store is of a whole buffer, so a load reads what the buffer holds and a store leaves its payload: the two runs
  below state the three results' contents with the payload functions themselves.
-/
import proofs.«136872_j61607010893834_1_alg».proof.Proof.KData0
import proofs.«136872_j61607010893834_1_alg».proof.Proof.LibWholeBuffer
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole load of an input block held at `X` reads `X` (the outputs' row / column block). -/
theorem ld0_out {m : Memref sig .tc .vmem S512x256 .f32} (hm : m.IsWhole) (X : Vec F S512x256 .f32) :
    View.readAt (Elt F) m.view (Rect.unit ![0, 0] S512x256.size inb_S512x256_S512x256_0_0).toLoadRect (hm.unread X) = X :=
  WholeBuffer.readAt_whole_unread hm WholeBuffer.offsets_zero₂ _ X

/-- The same for a labels block. -/
theorem ld0_lab {m : Memref sig .tc .vmem S512x128 .f32} (hm : m.IsWhole) (X : Vec F S512x128 .f32) :
    View.readAt (Elt F) m.view (Rect.unit ![0, 0] S512x128.size inb_S512x128_S512x128_0_0).toLoadRect (hm.unread X) = X :=
  WholeBuffer.readAt_whole_unread hm WholeBuffer.offsets_zero₂ _ X

/-- The same for a 1 × 1 result. -/
theorem ld0_res {m : Memref sig .tc .vmem S1x1 .f32} (hm : m.IsWhole) (X : Vec F S1x1 .f32) :
    View.readAt (Elt F) m.view (Rect.unit ![0, 0] S1x1.size inb_S1x1_S1x1_0_0).toLoadRect (hm.unread X) = X :=
  WholeBuffer.readAt_whole_unread hm WholeBuffer.offsets_zero₂ _ X

/-- One whole store into a 1 × 1 result leaves its payload, whatever the buffer held. -/
theorem st0_res (m : Memref sig .tc .vmem S1x1 .f32) (f : m.view.ty.Contents (Elt F)) (w : Vec F S1x1 .f32) :
    m.view.read (Elt F) (m.view.writes (Elt F) f [⟨Rect.unit ![0, 0] S1x1.size inb_S1x1_S1x1_0_0, w⟩]) = w :=
  WholeBuffer.read_writes_cons_whole m.view f WholeBuffer.offsets_zero₂ _ w []

set_option maxHeartbeats 1000000 in
/-- THE FIRST POINT. With the first branch taken and the second not, from the four input buffers at their blocks and the
    three result buffers at anything, the body runs to the inputs as they were and the results at the tile's least
    similarity, greatest similarity and greatest distance. -/
theorem sound_kernel0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : k0_cond1 i = 1#1) (hc2 : ¬k0_cond2 i = 1#1)
    (x0 x1 : Vec F S512x256 .f32) (x2 x3 : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 (k0_pay7 x2 x3))
            ∗ owns (c : Thread nD τ) arg7 fullShare (k0_pay2 (k0_pay7 x2 x3))
            ∗ owns (c : Thread nD τ) arg8 fullShare (k0_pay3 (k0_pay8 x0 x1) (k0_pay9 x0) (k0_pay10 x1))) -∗ K ⟨⟩))
      ⊢ wp frame (wpE (defs₀ (F := F)) Variants.none c none) E
          (cc0__reduce_kernel i arg2 harg2 arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro; refine (st0_res arg6 _ _).trans ?_
    dsimp only; rw [ld0_lab harg4, ld0_lab harg5]
  isplitl [H5]
  · iexists _; isplitr
    swap; · iexact H5
    ipureintro; refine (st0_res arg7 _ _).trans ?_
    dsimp only; rw [ld0_lab harg4, ld0_lab harg5]
  · iexists _; isplitr
    swap; · iexact H6
    ipureintro; refine (st0_res arg8 _ _).trans ?_
    dsimp only; rw [ld0_out harg2, ld0_out harg3]

set_option maxHeartbeats 1000000 in
/-- EVERY OTHER POINT. With the second branch taken and the first not, from the four input buffers at their blocks and the
    three result buffers at running extremes `a4`, `a5`, `a6`, the body runs to the inputs as they were and each result at
    the extreme of what it held and the tile's. -/
theorem sound_kernel0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬k0_cond1 i = 1#1) (hc2 : k0_cond2 i = 1#1)
    (x0 x1 : Vec F S512x256 .f32) (x2 x3 : Vec F S512x128 .f32) (a4 a5 a6 : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare a4 ∗ owns (c : Thread nD τ) arg7 fullShare a5
        ∗ owns (c : Thread nD τ) arg8 fullShare a6
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 (k0_pay7 x2 x3) a4)
            ∗ owns (c : Thread nD τ) arg7 fullShare (k0_pay5 (k0_pay7 x2 x3) a5)
            ∗ owns (c : Thread nD τ) arg8 fullShare (k0_pay6 (k0_pay8 x0 x1) (k0_pay9 x0) (k0_pay10 x1) a6)) -∗ K ⟨⟩))
      ⊢ wp frame (wpE (defs₀ (F := F)) Variants.none c none) E
          (cc0__reduce_kernel i arg2 harg2 arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5; obtain rfl := harg8.eq_unread hf6
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro; refine (st0_res arg6 _ _).trans ?_
    dsimp only; rw [ld0_lab harg4, ld0_lab harg5, ld0_res harg6]
  isplitl [H5]
  · iexists _; isplitr
    swap; · iexact H5
    ipureintro; refine (st0_res arg7 _ _).trans ?_
    dsimp only; rw [ld0_lab harg4, ld0_lab harg5, ld0_res harg7]
  · iexists _; isplitr
    swap; · iexact H6
    ipureintro; refine (st0_res arg8 _ _).trans ?_
    dsimp only; rw [ld0_out harg2, ld0_out harg3, ld0_res harg8]

end Cert.Kernel.Hand

end
-- ==== Proof.KBody0.lean ====
/-
  The first region's body obligation.

  At every grid point the body is handed the invariant, what the core owes, and each window's current staging buffer
  at what it then holds: an input's at its block, a result's at anything (first point) or at the running extreme the
  point before left. At the first point the first branch runs and leaves the tile's own three extremes; at every
  other point the second branch runs and leaves the extreme of the running value and the tile's. Either way the
  results' buffers end at the running triple `acc0` at this point, the inputs' buffers are as they were, and the
  invariant and what is owed pass through untouched.
-/
import proofs.«136872_j61607010893834_1_alg».proof.Proof.KBody0Pts
import proofs.«136872_j61607010893834_1_alg».proof.Proof.KBody0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running triple, point by point -/

/-- At the first point the running triple is the tile's own extremes. -/
theorem acc0_first (c : Dev nD) (t : Fin cfg0.N) (hz : t.val = 0) :
    acc0 V c t.val t.isLt = (k0_pay1 (simT0 V c t), k0_pay2 (simT0 V c t),
      k0_pay3 (crossT0 V c t) (sqiT0 V c t) (sqjT0 V c t)) := by
  obtain ⟨n, hn⟩ := t
  cases n with
  | zero => rfl
  | succ n => exact absurd hz (Nat.succ_ne_zero n)

/-- At a later point it is the extreme of the triple at the point before and the tile's. -/
theorem acc0_later (c : Dev nD) (t : Fin cfg0.N) (hz : t.val ≠ 0) :
    acc0 V c t.val t.isLt
      = (k0_pay4 (simT0 V c t) (acc0 V c (t.val - 1) (Nat.lt_of_le_of_lt (Nat.sub_le _ _) t.isLt)).1,
         k0_pay5 (simT0 V c t) (acc0 V c (t.val - 1) (Nat.lt_of_le_of_lt (Nat.sub_le _ _) t.isLt)).2.1,
         k0_pay6 (crossT0 V c t) (sqiT0 V c t) (sqjT0 V c t)
           (acc0 V c (t.val - 1) (Nat.lt_of_le_of_lt (Nat.sub_le _ _) t.isLt)).2.2) := by
  obtain ⟨n, hn⟩ := t
  cases n with
  | zero => exact absurd rfl hz
  | succ n => rfl

/-! ## The staging buffers at a point -/

/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)

/-- No window being idle anywhere, the body leaves every window's buffer at the proof data's `after`. -/
theorem leavesExact0 (c : Dev nD) (w : Fin cfg0.W) (t : Fin cfg0.N) :
    (dat0 V c).leavesExact w t
      = owns (c : Thread nD τ) ((cfg0.win w).stage (cfg0.slots t w)) fullShare ((dat0 V c).after w t) := by
  unfold Dat.leavesExact; rw [idle0_false w]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 1600000 in
/-- The body at any point: the inputs' buffers hold their blocks; the closed forms of the two conditions say which
    branch runs; at the first point the results' buffers hold anything and end at the tile's extremes, at a later
    point they hold the running triple of the point before and end at this point's; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V c t, before0_1 V c t, before0_2 V c t, before0_3 V c t]
  rw [show (dat0 V c).Φ t.succ = (dat0 V c).Φ t.castSucc from rfl,
    show (dat0 V c).owesAt () t.succ = (dat0 V c).owesAt () t.castSucc from rfl,
    leavesExact0 V c 0 t, leavesExact0 V c 1 t, leavesExact0 V c 2 t, leavesExact0 V c 3 t,
    leavesExact0 V c 4 t, leavesExact0 V c 5 t, leavesExact0 V c 6 t,
    after0_0, after0_1, after0_2, after0_3, after0_4, after0_5, after0_6]
  by_cases hz : t.val = 0
  · have hc1 : k0_cond1 (grid0.coords t) = 1#1 := (hcond0_1 t).mpr hz
    have hc2 : ¬k0_cond2 (grid0.coords t) = 1#1 := fun h => (hcond0_2 t).mp h hz
    simp only [before0_4_first V c t hz, before0_5_first V c t hz, before0_6_first V c t hz]
    rw [acc0_first V c t hz]
    dsimp only
    unfold simT0 crossT0 sqiT0 sqjT0
    iintro ⟨HΦ, Ho, ⟨%d0, H0⟩, ⟨%d1, H1⟩, ⟨%d2, H2⟩, ⟨%d3, H3⟩, H4, H5, H6⟩
    iapply (sound_kernel0_A c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) hc1 hc2
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬k0_cond1 (grid0.coords t) = 1#1 := fun h => hz ((hcond0_1 t).mp h)
    have hc2 : k0_cond2 (grid0.coords t) = 1#1 := (hcond0_2 t).mpr hz
    simp only [before0_4 V c t hz, before0_5 V c t hz, before0_6 V c t hz]
    rw [acc0_later V c t hz]
    dsimp only
    unfold simT0 crossT0 sqiT0 sqjT0
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_B c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) hc1 hc2
      (iblk0 V c 0 t) (iblk0 V c 1 t) (iblk0 V c 2 t) (iblk0 V c 3 t)
      (acc0 V c (t.val - 1) (Nat.lt_of_le_of_lt (Nat.sub_le _ _) t.isLt)).1
      (acc0 V c (t.val - 1) (Nat.lt_of_le_of_lt (Nat.sub_le _ _) t.isLt)).2.1
      (acc0 V c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1Conds.lean ====
/-
  The second region's schedule and what its body finds, for the body obligation.

  The body has two conditionals on the column block: the first resets the two running sums where the column block is
  the first, the last stores the row losses where it is the last. Their conditions are put in closed form over the grid's
  256 points; the row-loss window is idle exactly off the last column block. Every input's staging buffer holds its
  block at every point, and the row-loss buffer is found as a fresh buffer is. The entry invariant is restated with the
  two scratch buffers as whole memrefs.
-/
import proofs.«136872_j61607010893834_1_alg».proof.Proof.KData1
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The first conditional's condition (the column block is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The last conditional's condition (the column block is the last), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the row-loss window is idle -/

/-- Off the last column block the row-loss window is idle, -/
theorem idleAt1_7 : ∀ t : Fin cfg1.N, ¬cond1_1 (grid1.coords t) → cfg1.idle 7 (grid1.coords t) = true := by decide +kernel
/-- and is not written back there; -/
theorem noFlush1_7 : ∀ t : Fin cfg1.N, ¬cond1_1 (grid1.coords t) → (cfg1.win 7).flush t = false := by decide +kernel
/-- at the last column block it is live. -/
theorem liveAt1_7 : ∀ t : Fin cfg1.N, cond1_1 (grid1.coords t) → cfg1.idle 7 (grid1.coords t) = false := by decide +kernel

/-! ## The staging memrefs at a point, as the pipeline passes them -/

abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)

/-! ## What the body finds in each window's buffer -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- The row-loss window's buffer holds, at every point, what a buffer nothing has filled holds: it is fresh at a row
    block's first point (the grid's first point, or the point after a write-back) and untouched through the idle points
    that follow. -/
theorem before1_7 (c : Dev nD) (t : Fin cfg1.N) (d) : (dat1 V c).before 7 t d = d := by
  induction hn : t.val using Nat.strong_induction_on generalizing t with
  | _ n ih =>
    subst hn
    have hN : t.val < 256 := lt_of_lt_of_eq t.isLt (show cfg1.N = 256 from N_1)
    by_cases h0 : t.val % 16 = 0
    · refine (dat1 V c).before_out_reset 7 rfl t ?_ d
      by_cases hz : t.val = 0
      · exact .inl hz
      · exact .inr ⟨hz, (flush1_7 _).mpr (by show (t.val - 1) % 16 = 15; omega)⟩
    · have hz : t.val ≠ 0 := fun h => h0 (by rw [h])
      have hp : ¬ (t.val - 1) % 16 = 15 := by omega
      have hnc : ¬cond1_1 (grid1.coords ⟨t.val - 1, Nat.lt_of_le_of_lt (Nat.sub_le _ _) t.isLt⟩) := fun h => hp ((hcond1_1 _).mp h)
      rw [(dat1 V c).before_of_pos 7 t hz ((cfg1.win 7).fetch_out rfl t), noFlush1_7 _ hnc, if_neg Bool.false_ne_true]
      unfold Dat.left; rw [idleAt1_7 _ hnc]
      exact ih (t.val - 1) (by omega) ⟨t.val - 1, Nat.lt_of_le_of_lt (Nat.sub_le _ _) t.isLt⟩ rfl

/-! ## The entry invariant with the two scratch buffers as memrefs -/

/-- What the launch hands the region gives the scoped buffers the region neither stages nor carries (`rest1`), the two
    scratch buffers each owned at some contents, and the generator register at some state; -/
theorem PhiA1_open (c : Dev nD) :
    (Pipeline.ΦA spec1 c : sProp 𝕄)
      ⊢ iprop(rest1 (F := F) c ∗ (∃ d, owns (c : Thread nD τ) scM1_0 fullShare d) ∗ (∃ d, owns (c : Thread nD τ) scM1_1 fullShare d) ∗ (∃ r, prngReg c r)) := by
  unfold Pipeline.ΦA; rw [scopedRest1_eq]; unfold rest1; simp only [scM1_0, scM1_1, owns_whole]
  iintro ⟨⟨A1, A2, A3, A4, A5, A6, A7, A8, A9, A10, A11, S0, S1⟩, Hg⟩
  isplitl [A1 A2 A3 A4 A5 A6 A7 A8 A9 A10 A11]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [S0]; · iexact S0
  isplitl [S1]; · iexact S1
  iexact Hg

/-- and those give it back. -/
theorem PhiA1_close (c : Dev nD) :
    iprop(rest1 (F := F) c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA; rw [scopedRest1_eq]; unfold rest1; simp only [scM1_0, scM1_1, owns_whole]
  iintro ⟨⟨A1, A2, A3, A4, A5, A6, A7, A8, A9, A10, A11⟩, S0, S1, Hg⟩
  isplitl [A1 A2 A3 A4 A5 A6 A7 A8 A9 A10 A11 S0 S1]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    iexact S1
  iexact Hg

/-- So the two are one proposition. -/
theorem PhiA1_eq (c : Dev nD) :
    (Pipeline.ΦA spec1 c : sProp 𝕄)
      = iprop(rest1 (F := F) c ∗ (∃ d, owns (c : Thread nD τ) scM1_0 fullShare d) ∗ (∃ d, owns (c : Thread nD τ) scM1_1 fullShare d) ∗ (∃ r, prngReg c r)) :=
  BI.equiv_iff.mp ⟨PhiA1_open c, PhiA1_close c⟩

/-! ## The inputs are never idle -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
theorem liveAt1_4 (t : Fin cfg1.N) : cfg1.idle 4 (grid1.coords t) = false := rfl
theorem liveAt1_5 (t : Fin cfg1.N) : cfg1.idle 5 (grid1.coords t) = false := rfl
theorem liveAt1_6 (t : Fin cfg1.N) : cfg1.idle 6 (grid1.coords t) = false := rfl

end Cert.Kernel.Hand

end
-- ==== Proof.KBody1RunA.lean ====
/-
  The second region's body at a row block's first column block.

  There the body first overwrites the two running sums with zero, then adds the tile's row sums to them, and leaves the
  row-loss block alone. So whatever the two scratch buffers held, they end at the update of zero; every input's buffer
  and the row-loss buffer are handed back as found.
-/
import proofs.«136872_j61607010893834_1_alg».proof.Proof.KBody1Conds
import proofs.«136872_j61607010893834_1_alg».proof.Proof.LibWholeBuffer

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose column block is the first (and not the last): from the inputs' buffers at `x0 … x6`, the row-loss
    buffer at `xi7` and the two scratch buffers at anything, the body runs to the same with the scratch buffers at the
    updates of zero. -/
theorem run1_A (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : cond1_0 i) (hc1 : ¬cond1_1 i)
    (x0 x1 x2 : Vec F S1x1 .f32) (x3 x4 : Vec F S512x256 .f32) (x5 x6 : Vec F S512x128 .f32) (xi7 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
            ∗ owns (c : Thread nD τ) arg10 fullShare (k1_pay1 (k1_pay11 x3 x4 (k1_pay6 x5 x6 x0 x1) (k1_pay7 x3) x2 k1_pay4))
            ∗ owns (c : Thread nD τ) arg11 fullShare (k1_pay2 (k1_pay10 x3 x4 (k1_pay6 x5 x6 x0 x1) (k1_pay7 x3) x2) k1_pay5)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dP, %fP, -, HP⟩, ⟨%dQ, %fQ, -, HQ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  isplitl [HP]
  · iexists _; isplitr
    swap; · iexact HP
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  · iexists _; isplitr
    swap; · iexact HQ
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]

end Cert.Kernel.Hand

end
-- ==== Proof.KBody1RunB.lean ====
/-
  The second region's body at a column block that is neither the first nor the last.

  There the body only adds the tile's row sums to the two running sums: the scratch buffers at `P`, `Q` end at the
  updates of `P`, `Q`; every input's buffer and the row-loss buffer are handed back as found.
-/
import proofs.«136872_j61607010893834_1_alg».proof.Proof.KBody1Conds
import proofs.«136872_j61607010893834_1_alg».proof.Proof.LibWholeBuffer

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose column block is neither the first nor the last: from the inputs' buffers at `x0 … x6`, the
    row-loss buffer at `xi7` and the two scratch buffers at `P`, `Q`, the body runs to the same with the scratch
    buffers at the updates of `P`, `Q`. -/
theorem run1_B (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬cond1_0 i) (hc1 : ¬cond1_1 i)
    (x0 x1 x2 : Vec F S1x1 .f32) (x3 x4 : Vec F S512x256 .f32) (x5 x6 : Vec F S512x128 .f32) (xi7 P Q : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
        ∗ owns (c : Thread nD τ) arg10 fullShare P ∗ owns (c : Thread nD τ) arg11 fullShare Q
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
            ∗ owns (c : Thread nD τ) arg10 fullShare (k1_pay1 (k1_pay11 x3 x4 (k1_pay6 x5 x6 x0 x1) (k1_pay7 x3) x2 P))
            ∗ owns (c : Thread nD τ) arg11 fullShare (k1_pay2 (k1_pay10 x3 x4 (k1_pay6 x5 x6 x0 x1) (k1_pay7 x3) x2) Q)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fP, %hfP, HP⟩, ⟨%fQ, %hfQ, HQ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg10.eq_unread hfP; obtain rfl := harg11.eq_unread hfQ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  isplitl [HP]
  · iexists _; isplitr
    swap; · iexact HP
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  · iexists _; isplitr
    swap; · iexact HQ
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]

end Cert.Kernel.Hand

end
-- ==== Proof.KBody1RunC.lean ====
/-
  The second region's body at a row block's last column block.

  There the body adds the tile's row sums to the two running sums and then stores, whole, the clamped logarithms of the
  two sums it has just left into the row-loss block: the scratch buffers at `P`, `Q` end at the updates of `P`, `Q`,
  and the row-loss buffer, whatever it held, at the row losses of those two updates.
-/
import proofs.«136872_j61607010893834_1_alg».proof.Proof.KBody1Conds
import proofs.«136872_j61607010893834_1_alg».proof.Proof.LibWholeBuffer

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose column block is the last (and not the first): from the inputs' buffers at `x0 … x6`, the row-loss
    buffer at anything and the two scratch buffers at `P`, `Q`, the body runs to the inputs' as found, the scratch
    buffers at the updates of `P`, `Q` and the row-loss buffer at the row losses of the two updates. -/
theorem run1_C (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬cond1_0 i) (hc1 : cond1_1 i)
    (x0 x1 x2 : Vec F S1x1 .f32) (x3 x4 : Vec F S512x256 .f32) (x5 x6 : Vec F S512x128 .f32) (P Q : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ owns (c : Thread nD τ) arg10 fullShare P ∗ owns (c : Thread nD τ) arg11 fullShare Q
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
            ∗ owns (c : Thread nD τ) arg9 fullShare (k1_pay3 (k1_pay1 (k1_pay11 x3 x4 (k1_pay6 x5 x6 x0 x1) (k1_pay7 x3) x2 P)) (k1_pay2 (k1_pay10 x3 x4 (k1_pay6 x5 x6 x0 x1) (k1_pay7 x3) x2) Q))
            ∗ owns (c : Thread nD τ) arg10 fullShare (k1_pay1 (k1_pay11 x3 x4 (k1_pay6 x5 x6 x0 x1) (k1_pay7 x3) x2 P))
            ∗ owns (c : Thread nD τ) arg11 fullShare (k1_pay2 (k1_pay10 x3 x4 (k1_pay6 x5 x6 x0 x1) (k1_pay7 x3) x2) Q)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fP, %hfP, HP⟩, ⟨%fQ, %hfQ, HQ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg10.eq_unread hfP; obtain rfl := harg11.eq_unread hfQ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [WholeBuffer.read_writes_cons_whole _ _ WholeBuffer.offsets_zero₂]
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  isplitl [HP]
  · iexists _; isplitr
    swap; · iexact HP
    ipureintro
    sl_unfold_run_names
    rw [WholeBuffer.read_writes_cons_whole _ _ WholeBuffer.offsets_zero₂]
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  · iexists _; isplitr
    swap; · iexact HQ
    ipureintro
    sl_unfold_run_names
    rw [WholeBuffer.read_writes_cons_whole _ _ WholeBuffer.offsets_zero₂]
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]

end Cert.Kernel.Hand

end
-- ==== Proof.KBody1.lean ====
/-
  The second region's body obligation.

  At every grid point the body, handed the invariant, each input's staging buffer at its block and the row-loss buffer
  at what it held, runs to the invariant at the next point, the inputs' buffers as found and the row-loss buffer at the
  row losses where the column block is the last, untouched elsewhere. The point is in one of three cases by its column
  block (first, neither, last); in each the body's run for that case applies, and the two scratch buffers end
  at the running sums `acc1` names there: the update of zero at a first column block, the update of what the point
  before left elsewhere. At the grid's first point the scratch buffers come out of the entry invariant at anything,
  which the first column block's reset overwrites.
-/
import proofs.«136872_j61607010893834_1_alg».proof.Proof.KBody1RunA
import proofs.«136872_j61607010893834_1_alg».proof.Proof.KBody1RunB
import proofs.«136872_j61607010893834_1_alg».proof.Proof.KBody1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the body is called with at point `t`: the invariant, what the core owes, each window's buffer at what it holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point, by the point's column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 16 = 0
  · have h1 : ¬ t.val % 16 = 15 := by omega
    rw [Dat.leavesExact_idle (dat1 V c) 7 t (idleAt1_7 t (fun h => h1 ((hcond1_1 t).mp h))) (noFlush1_7 t (fun h => h1 ((hcond1_1 t).mp h)))]
    rw [show (acc1 V c t.val t.isLt).1 = posStep1 V c t k1_pay4 from congrArg Prod.fst (acc1_first V c t h0),
      show (acc1 V c t.val t.isLt).2 = negStep1 V c t k1_pay5 from congrArg Prod.snd (acc1_first V c t h0)]
    unfold posStep1 negStep1 simnT1 sqT1
    by_cases hz : t.val = 0
    ·
      rw [PhiS1_castSucc V c t, PhiS1_zero V c _ _ hz, PhiA1_eq]
      iintro ⟨⟨Hrest, ⟨%dS0, HS0⟩, ⟨%dS1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    ·
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [show (acc1 V c t.val t.isLt).1 = posStep1 V c t (acc1 V c (t.val - 1) (Nat.lt_of_le_of_lt (Nat.sub_le _ _) t.isLt)).1 from congrArg Prod.fst (acc1_next V c t h0),
        show (acc1 V c t.val t.isLt).2 = negStep1 V c t (acc1 V c (t.val - 1) (Nat.lt_of_le_of_lt (Nat.sub_le _ _) t.isLt)).2 from congrArg Prod.snd (acc1_next V c t h0)]
      unfold posStep1 negStep1 simnT1 sqT1
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      rw [show (acc1 V c t.val t.isLt).1 = posStep1 V c t (acc1 V c (t.val - 1) (Nat.lt_of_le_of_lt (Nat.sub_le _ _) t.isLt)).1 from congrArg Prod.fst (acc1_next V c t h0),
        show (acc1 V c t.val t.isLt).2 = negStep1 V c t (acc1 V c (t.val - 1) (Nat.lt_of_le_of_lt (Nat.sub_le _ _) t.isLt)).2 from congrArg Prod.snd (acc1_next V c t h0)]
      unfold posStep1 negStep1 simnT1 sqT1
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the running sums' values are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hrest, HS0, HS1, Hg⟩
  isplitl [Hrest]; · iexact Hrest
  isplitl [HS0]; · iexists _; iexact HS0
  isplitl [HS1]; · iexists _; iexact HS1
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Cert.Kernel.Hand

end
-- ==== Proof.KIData0.lean ====
/-
  The first region (the pass that reduces the 8192 × 8192 pair space to three scalars), as proof data.

  The grid has 16 × 16 points; point `t` sees row block `t / 16` and column block `t % 16` of the outputs (windows 0, 1)
  and of the labels (windows 2, 3); the two windows on one array each hold half of it. Windows 4, 5, 6 are the three
  1 × 1 results — least similarity, greatest similarity, greatest distance — whose block never moves: the body overwrites
  them at the first point with the tile's own extreme and from then on with the extreme of what it finds there and the
  tile's. `acc0` is that running triple after each point.
-/
import proofs.«136872_j61607010893834_1_alg».proof.Proof.Gen.KernelIdeal.Launch
import proofs.«136872_j61607010893834_1_alg».proof.Proof.Gen.KernelIdeal.Skeleton
import proofs.«136872_j61607010893834_1_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of similarities at point `t` (label row block against label column block). -/
def simT0 (c : Dev nD) (t : Fin cfg0.N) : FVec F S512x512 .f32 := k0_pay7 (iblk0 V c 2 t) (iblk0 V c 3 t)
/-- The tile of inner products of output rows, and the two broadcast squared norms. -/
def crossT0 (c : Dev nD) (t : Fin cfg0.N) : FVec F S512x512 .f32 := k0_pay8 (iblk0 V c 0 t) (iblk0 V c 1 t)
def sqiT0 (c : Dev nD) (t : Fin cfg0.N) : FVec F S512x512 .f32 := k0_pay9 (iblk0 V c 0 t)
def sqjT0 (c : Dev nD) (t : Fin cfg0.N) : FVec F S512x512 .f32 := k0_pay10 (iblk0 V c 1 t)

/-- The three running extremes after the body at position `n`: the tile's own at the first point, afterwards the
    extreme of the previous value and the tile's. -/
def acc0 (c : Dev nD) : (n : ℕ) → n < cfg0.N → Vec F S1x1 .f32 × Vec F S1x1 .f32 × Vec F S1x1 .f32
  | 0, h => (k0_pay1 (simT0 V c ⟨0, h⟩), k0_pay2 (simT0 V c ⟨0, h⟩),
      k0_pay3 (crossT0 V c ⟨0, h⟩) (sqiT0 V c ⟨0, h⟩) (sqjT0 V c ⟨0, h⟩))
  | n + 1, h => (k0_pay4 (simT0 V c ⟨n + 1, h⟩) (acc0 c n (Nat.lt_of_succ_lt h)).1,
      k0_pay5 (simT0 V c ⟨n + 1, h⟩) (acc0 c n (Nat.lt_of_succ_lt h)).2.1,
      k0_pay6 (crossT0 V c ⟨n + 1, h⟩) (sqiT0 V c ⟨n + 1, h⟩) (sqjT0 V c ⟨n + 1, h⟩) (acc0 c n (Nat.lt_of_succ_lt h)).2.2)

theorem acc0_zero (c : Dev nD) (h : 0 < cfg0.N) :
    acc0 V c 0 h = (k0_pay1 (simT0 V c ⟨0, h⟩), k0_pay2 (simT0 V c ⟨0, h⟩),
      k0_pay3 (crossT0 V c ⟨0, h⟩) (sqiT0 V c ⟨0, h⟩) (sqjT0 V c ⟨0, h⟩)) := rfl

theorem acc0_succ (c : Dev nD) (n : ℕ) (h : n + 1 < cfg0.N) :
    acc0 V c (n + 1) h = (k0_pay4 (simT0 V c ⟨n + 1, h⟩) (acc0 V c n (Nat.lt_of_succ_lt h)).1,
      k0_pay5 (simT0 V c ⟨n + 1, h⟩) (acc0 V c n (Nat.lt_of_succ_lt h)).2.1,
      k0_pay6 (crossT0 V c ⟨n + 1, h⟩) (sqiT0 V c ⟨n + 1, h⟩) (sqjT0 V c ⟨n + 1, h⟩) (acc0 V c n (Nat.lt_of_succ_lt h)).2.2) := rfl

/-- The proof data of the first region on core `c`: the arrays as the region finds them; after the body at point `t`
    each input's buffer at its block and the three results at the running extremes; the invariant the scoped rest and
    the generator register, untouched; nothing owed; the two windows on one array each at half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2.1
    | ⟨6, _⟩ => (acc0 V c t.val t.isLt).2.2
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (acc0 V c t.val t.isLt).1 := by dsimp only [dat0]
theorem after0_5 (c : Dev nD) (t : Fin cfg0.N) : (dat0 V c).after 5 t = (acc0 V c t.val t.isLt).2.1 := by dsimp only [dat0]
theorem after0_6 (c : Dev nD) (t : Fin cfg0.N) : (dat0 V c).after 6 t = (acc0 V c t.val t.isLt).2.2 := by dsimp only [dat0]

end Cert.KernelIdeal.Hand

end
-- ==== Proof.KIData1.lean ====
/-
  The second region (the pass that forms the per-row masked log-sum-exp terms), as proof data.

  The grid has 16 × 16 points; point `t` sees row block `t / 16` and column block `t % 16`. Windows 0, 1, 2 are the three
  scalars the first region left (least and greatest similarity, greatest distance); windows 3, 4 the outputs' row and
  column block, windows 5, 6 the labels' (the two windows on one array each hold half of it); window 7 is the 512 × 1
  block of row losses, stored only at a row block's last column block. Two 512 × 1 scratch buffers carry, along a row
  block, the running sums of the positive pairs' and of the other pairs' exponentials: reset to zero at column block 0,
  then increased by the tile's row sums. `acc1` is that pair of running sums after each point.
-/
import proofs.«136872_j61607010893834_1_alg».proof.Proof.Gen.KernelIdeal.Launch
import proofs.«136872_j61607010893834_1_alg».proof.Proof.Gen.KernelIdeal.Skeleton
import proofs.«136872_j61607010893834_1_alg».proof.Proof.Gen.KernelIdeal.Points
import Idealize.ShloMosaic.Lib.Pipeline.FrameBody
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of min-max normalised similarities at point `t`, and the squares of the row block's outputs. -/
def simnT1 (c : Dev nD) (t : Fin cfg1.N) : FVec F S512x512 .f32 :=
  k1_pay6 (iblk1 V c 5 t) (iblk1 V c 6 t) (iblk1 V c 0 t) (iblk1 V c 1 t)
def sqT1 (c : Dev nD) (t : Fin cfg1.N) : FVec F S512x256 .f32 := k1_pay7 (iblk1 V c 3 t)

/-- One point's update of the running sum of the positive pairs' exponentials, from the value `P` found. -/
def posStep1 (c : Dev nD) (t : Fin cfg1.N) (P : Vec F S512x1 .f32) : Vec F S512x1 .f32 :=
  k1_pay1 (k1_pay11 (iblk1 V c 3 t) (iblk1 V c 4 t) (simnT1 V c t) (sqT1 V c t) (iblk1 V c 2 t) P)
/-- One point's update of the running sum of the other pairs' exponentials, from the value `Q` found. -/
def negStep1 (c : Dev nD) (t : Fin cfg1.N) (Q : Vec F S512x1 .f32) : Vec F S512x1 .f32 :=
  k1_pay2 (k1_pay10 (iblk1 V c 3 t) (iblk1 V c 4 t) (simnT1 V c t) (sqT1 V c t) (iblk1 V c 2 t)) Q

/-- The two running sums after the body at position `n`: at a row block's first column block (`n % 16 = 0`) the update
    of zero, otherwise the update of what the point before left. -/
def acc1 (c : Dev nD) : (n : ℕ) → n < cfg1.N → Vec F S512x1 .f32 × Vec F S512x1 .f32
  | 0, h => (posStep1 V c ⟨0, h⟩ k1_pay4, negStep1 V c ⟨0, h⟩ k1_pay5)
  | n + 1, h =>
    if (n + 1) % 16 = 0 then (posStep1 V c ⟨n + 1, h⟩ k1_pay4, negStep1 V c ⟨n + 1, h⟩ k1_pay5)
    else (posStep1 V c ⟨n + 1, h⟩ (acc1 c n (Nat.lt_of_succ_lt h)).1, negStep1 V c ⟨n + 1, h⟩ (acc1 c n (Nat.lt_of_succ_lt h)).2)

/-- At a row block's first column block: the update of zero. -/
theorem acc1_first (c : Dev nD) (t : Fin cfg1.N) (h0 : t.val % 16 = 0) :
    acc1 V c t.val t.isLt = (posStep1 V c t k1_pay4, negStep1 V c t k1_pay5) := by
  obtain ⟨n, hn⟩ := t
  cases n with
  | zero => rfl
  | succ n => exact (if_pos h0).trans rfl

/-- At any other point: the update of what the point before left. -/
theorem acc1_next (c : Dev nD) (t : Fin cfg1.N) (h0 : ¬ t.val % 16 = 0) :
    acc1 V c t.val t.isLt = (posStep1 V c t (acc1 V c (t.val - 1) (Nat.lt_of_le_of_lt (Nat.sub_le _ _) t.isLt)).1,
      negStep1 V c t (acc1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The two scratch buffers, whole. -/
abbrev scM1_0 : Memref sig .tc .vmem S512x1 .f32 := Memref.whole cc1_scratch0
abbrev scM1_1 : Memref sig .tc .vmem S512x1 .f32 := Memref.whole cc1_scratch1

/-- The core's scoped buffers that are neither staged by this region nor its scratch, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f))

/-- The region invariant before position `n`: before the first point every scoped buffer the region does not stage at
    anything and the generator register at some state; afterwards the two scratch buffers at the running sums the point
    before left, the others at anything, the generator register at some state. -/
def PhiS1 (c : Dev nD) : (n : ℕ) → n ≤ cfg1.N → sProp 𝕄
  | 0, _ => Pipeline.ΦA spec1 c
  | n + 1, hn => iprop(rest1 (F := F) c ∗ owns (c : Thread nD τ) scM1_0 fullShare (acc1 V c n hn).1
      ∗ owns (c : Thread nD τ) scM1_1 fullShare (acc1 V c n hn).2 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 (F := F) c ∗ owns (c : Thread nD τ) scM1_0 fullShare (acc1 V c n hn).1
      ∗ owns (c : Thread nD τ) scM1_1 fullShare (acc1 V c n hn).2 ∗ (∃ r, prngReg c r)) := rfl

theorem PhiS1_pos (c : Dev nD) (n : ℕ) (h : n ≤ cfg1.N) (hz : n ≠ 0) :
    PhiS1 V c n h = iprop(rest1 (F := F) c ∗ owns (c : Thread nD τ) scM1_0 fullShare (acc1 V c (n - 1) (by omega)).1
      ∗ owns (c : Thread nD τ) scM1_1 fullShare (acc1 V c (n - 1) (by omega)).2 ∗ (∃ r, prngReg c r)) := by
  cases n with
  | zero => exact absurd rfl hz
  | succ n => rfl

/-- The proof data of the second region on core `c`: the arrays as the region finds them; after the body at point `t`
    each input's buffer at its block and the row-loss block at the clamped logarithms of the two running sums (consulted
    only where the block is stored); the invariant `PhiS1`; nothing owed; the two windows on one array each at half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (acc1 V c t.val t.isLt).1 (acc1 V c t.val t.isLt).2
  Φ t := PhiS1 V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare.left
    | ⟨6, _⟩ => fullShare.right
    | ⟨7, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = k1_pay3 (acc1 V c t.val t.isLt).1 (acc1 V c t.val t.isLt).2 := by dsimp only [dat1]

end Cert.KernelIdeal.Hand

end
-- ==== Proof.KISegA.lean ====
/-
  The two regions' arrays among the core's unscoped buffers.

  Each region reads each of the two argument arrays through two windows. The proof data hold such an array at the two
  halves of the full share, one per window, at the same contents. When a region is entered the argument's buffer, held
  whole, is split into its halves; when it is left the halves — still at the contents the region found, an input array
  never being written — are joined again. The other windows' arrays are distinct buffers held whole.
-/
import proofs.«136872_j61607010893834_1_alg».proof.Proof.KIData0
import proofs.«136872_j61607010893834_1_alg».proof.Proof.KIData1
import proofs.«136872_j61607010893834_1_alg».proof.Proof.Gen.KernelIdeal.Regions
import Idealize.ShloMosaic.Lib.Pipeline.FrameBody
import Idealize.ShloMosaic.Lib.Pipeline.Frame
import Idealize.ShloMosaic.Lib.Pipeline.Regions
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## One buffer at two half shares -/

/-- A set of a buffer's elements held at the full share is the same set held at the two halves of the full share, both
    at the same contents: split when a region is entered, joined again when it is left. -/
theorem halves {ℓ : Loc nD τ sig} (I : Finset (Idx ℓ)) (f g h : Buf (Elt F) ℓ) (hf : f = h) (hg : g = h) :
    (ℓ ↦[I]{fullShare} h : sProp 𝕄) ⊣⊢ iprop((ℓ ↦[I]{fullShare.left} f) ∗ ℓ ↦[I]{fullShare.right} g) := by
  subst hf; subst hg
  exact pointsTo_share (PosShare.mem_left_op_right fullShare)

/-! ## The first region's arrays among the unscoped buffers -/

/-- A window's array is a whole buffer: held at share `q`, it is the buffer's location held at `q`. -/
theorem win_pt0 (c : Dev nD) (w : Fin cfg0.W) (q : PosShare TreeShare) (hq : (dat0 V c).share w = q)
    (f : Buf (Elt F) ((cfg0.win w).arr.view.loc (c.tc : Thread nD τ))) :
    ((cfg0.win w).arr.view.loc (c.tc : Thread nD τ) ↦[(cfg0.win w).arr.view.set]{(dat0 V c).share w} f : sProp 𝕄)
      = (((c.tc : Thread nD τ).loc (Pipeline.arrRef spec0 w)) ↦{q} f) := by
  rw [(arr_whole0 w).set_eq_univ, hq]

/-- The first region's seven windows, one by one: the two on each argument at its halves, the three results whole. -/
theorem arrays0_eq (c : Dev nD) (G : (w : Fin cfg0.W) → Buf (Elt F) ((cfg0.win w).arr.view.loc (c.tc : Thread nD τ))) :
    ((dat0 V c).arrays G : sProp 𝕄)
      = iprop((((c.tc : Thread nD τ).loc main_arg0) ↦{fullShare.left} G 0) ∗ (((c.tc : Thread nD τ).loc main_arg0) ↦{fullShare.right} G 1)
        ∗ (((c.tc : Thread nD τ).loc main_arg1) ↦{fullShare.left} G 2) ∗ (((c.tc : Thread nD τ).loc main_arg1) ↦{fullShare.right} G 3)
        ∗ (((c.tc : Thread nD τ).loc main_v0_0) ↦{fullShare} G 4) ∗ (((c.tc : Thread nD τ).loc main_v0_1) ↦{fullShare} G 5)
        ∗ (((c.tc : Thread nD τ).loc main_v0_2) ↦{fullShare} G 6)) := by
  unfold Dat.arrays
  rw [bigSep_W0, win_pt0 V c 0 fullShare.left rfl, win_pt0 V c 1 fullShare.right rfl, win_pt0 V c 2 fullShare.left rfl,
    win_pt0 V c 3 fullShare.right rfl, win_pt0 V c 4 fullShare rfl, win_pt0 V c 5 fullShare rfl, win_pt0 V c 6 fullShare rfl]

/-- The distinct buffers behind the first region's windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
        ∗ (((c.tc : Thread nD τ).loc main_v0_0) ↦{fullShare} W main_v0_0) ∗ (((c.tc : Thread nD τ).loc main_v0_1) ↦{fullShare} W main_v0_1)
        ∗ (((c.tc : Thread nD τ).loc main_v0_2) ↦{fullShare} W main_v0_2)) := by
  unfold Pipeline.arrBufs
  exact bigSep_eq_bigSepL_of_eq [main_arg0, main_arg1, main_v0_0, main_v0_1, main_v0_2] (by decide) (by decide) _

/-- ENTRY of the first region: the core's unscoped buffers at `V c` are the region's arrays at the proof data's entry
    contents — each argument, which two windows read, split into its halves — and the unscoped rest. -/
theorem entry0 (c : Dev nD) :
    (unscopedBufs (Ix := Unit) (Name := ℕ) (U := UR sig nD τ) (Lvl := ℕ) c (V c) : sProp 𝕄)
      ⊢ iprop((dat0 V c).arrays (dat0 V c).A ∗ Pipeline.unscopedRest spec0 c (V c)) := by
  rw [Pipeline.unscopedBufs_split₀ cfgs 0 winFacts₀0.arr_unscoped c (V c)]
  refine sep_mono ?_ .rfl
  rw [show (Pipeline.arrBufs (cfgs 0).spec c (V c) : sProp 𝕄) = Pipeline.arrBufs spec0 c (V c) from rfl, arrBufs0_eq, arrays0_eq]
  iintro ⟨H0, H1, H2, H3, H4⟩
  ihave H0' := (halves (F := F) Finset.univ ((dat0 V c).A 0) ((dat0 V c).A 1) (V c main_arg0) rfl rfl).1 $$ H0
  ihave H1' := (halves (F := F) Finset.univ ((dat0 V c).A 2) ((dat0 V c).A 3) (V c main_arg1) rfl rfl).1 $$ H1
  icases H0' with ⟨Ha, Hb⟩
  icases H1' with ⟨Hc, Hd⟩
  isplitl [Ha]; · iexact Ha
  isplitl [Hb]; · iexact Hb
  isplitl [Hc]; · iexact Hc
  isplitl [Hd]; · iexact Hd
  isplitl [H2]; · iexact H2
  isplitl [H3]; · iexact H3
  iexact H4

/-- EXIT of the first region: its arrays at contents `G` — the two halves of each argument at one contents, joined
    again — and the unscoped rest at `V c` are the core's unscoped buffers at any contents `V'` that has the arrays at
    `G` and agrees with `V c` off them. -/
theorem exit0 (c : Dev nD) (V' : (b : Ref sig .tc) → Buf (Elt F) ((c : Thread nD τ).loc b))
    (G : (w : Fin cfg0.W) → Buf (Elt F) ((cfg0.win w).arr.view.loc (c.tc : Thread nD τ)))
    (h0 : G 0 = V' main_arg0) (h1 : G 1 = V' main_arg0) (h2 : G 2 = V' main_arg1) (h3 : G 3 = V' main_arg1)
    (h4 : G 4 = V' main_v0_0) (h5 : G 5 = V' main_v0_1) (h6 : G 6 = V' main_v0_2)
    (hrest : ∀ b, b ∉ Finset.univ.image (Pipeline.arrRef spec0) → V' b = V c b) :
    iprop((dat0 V c).arrays G ∗ Pipeline.unscopedRest spec0 c (V c))
      ⊢ (unscopedBufs (Ix := Unit) (Name := ℕ) (U := UR sig nD τ) (Lvl := ℕ) c V' : sProp 𝕄) := by
  rw [Pipeline.unscopedBufs_split₀ cfgs 0 winFacts₀0.arr_unscoped c V']
  refine sep_mono ?_ (Entails.of_eq ?_)
  · rw [show (Pipeline.arrBufs (cfgs 0).spec c V' : sProp 𝕄) = Pipeline.arrBufs spec0 c V' from rfl, arrBufs0_eq, arrays0_eq,
      ← h4, ← h5, ← h6]
    iintro ⟨Ha, Hb, Hc, Hd, H2, H3, H4⟩
    isplitl [Ha Hb]
    · iapply (halves (F := F) Finset.univ (G 0) (G 1) (V' main_arg0) h0 h1).2
      isplitl [Ha]; · iexact Ha
      iexact Hb
    isplitl [Hc Hd]
    · iapply (halves (F := F) Finset.univ (G 2) (G 3) (V' main_arg1) h2 h3).2
      isplitl [Hc]; · iexact Hc
      iexact Hd
    isplitl [H2]; · iexact H2
    isplitl [H3]; · iexact H3
    iexact H4
  · show Pipeline.unscopedRest spec0 c (V c) = Pipeline.unscopedRest spec0 c V'
    unfold Pipeline.unscopedRest
    exact bigSep_congr fun b hb => by rw [hrest b (Finset.mem_sdiff.mp hb).2]

/-! ## The second region's arrays among the unscoped buffers -/

/-- A window's array is a whole buffer: held at share `q`, it is the buffer's location held at `q`. -/
theorem win_pt1 (c : Dev nD) (w : Fin cfg1.W) (q : PosShare TreeShare) (hq : (dat1 V c).share w = q)
    (f : Buf (Elt F) ((cfg1.win w).arr.view.loc (c.tc : Thread nD τ))) :
    ((cfg1.win w).arr.view.loc (c.tc : Thread nD τ) ↦[(cfg1.win w).arr.view.set]{(dat1 V c).share w} f : sProp 𝕄)
      = (((c.tc : Thread nD τ).loc (Pipeline.arrRef spec1 w)) ↦{q} f) := by
  rw [(arr_whole1 w).set_eq_univ, hq]

/-- The second region's eight windows, one by one: the first region's three results whole, the two windows on each
    argument at its halves, the row losses whole. -/
theorem arrays1_eq (c : Dev nD) (G : (w : Fin cfg1.W) → Buf (Elt F) ((cfg1.win w).arr.view.loc (c.tc : Thread nD τ))) :
    ((dat1 V c).arrays G : sProp 𝕄)
      = iprop((((c.tc : Thread nD τ).loc main_v0_0) ↦{fullShare} G 0) ∗ (((c.tc : Thread nD τ).loc main_v0_1) ↦{fullShare} G 1)
        ∗ (((c.tc : Thread nD τ).loc main_v0_2) ↦{fullShare} G 2)
        ∗ (((c.tc : Thread nD τ).loc main_arg0) ↦{fullShare.left} G 3) ∗ (((c.tc : Thread nD τ).loc main_arg0) ↦{fullShare.right} G 4)
        ∗ (((c.tc : Thread nD τ).loc main_arg1) ↦{fullShare.left} G 5) ∗ (((c.tc : Thread nD τ).loc main_arg1) ↦{fullShare.right} G 6)
        ∗ (((c.tc : Thread nD τ).loc main_v1) ↦{fullShare} G 7)) := by
  unfold Dat.arrays
  rw [bigSep_W1, win_pt1 V c 0 fullShare rfl, win_pt1 V c 1 fullShare rfl, win_pt1 V c 2 fullShare rfl,
    win_pt1 V c 3 fullShare.left rfl, win_pt1 V c 4 fullShare.right rfl, win_pt1 V c 5 fullShare.left rfl,
    win_pt1 V c 6 fullShare.right rfl, win_pt1 V c 7 fullShare rfl]

/-- The distinct buffers behind the second region's windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c.tc : Thread nD τ).loc main_v0_0) ↦{fullShare} W main_v0_0) ∗ (((c.tc : Thread nD τ).loc main_v0_1) ↦{fullShare} W main_v0_1)
        ∗ (((c.tc : Thread nD τ).loc main_v0_2) ↦{fullShare} W main_v0_2)
        ∗ (((c.tc : Thread nD τ).loc main_arg0) ↦{fullShare} W main_arg0) ∗ (((c.tc : Thread nD τ).loc main_arg1) ↦{fullShare} W main_arg1)
        ∗ (((c.tc : Thread nD τ).loc main_v1) ↦{fullShare} W main_v1)) := by
  unfold Pipeline.arrBufs
  exact bigSep_eq_bigSepL_of_eq [main_v0_0, main_v0_1, main_v0_2, main_arg0, main_arg1, main_v1] (by decide) (by decide) _

/-- ENTRY of the second region: the core's unscoped buffers at `V c` are the region's arrays at the proof data's entry
    contents — each argument, which two windows read, split into its halves — and the unscoped rest. -/
theorem entry1 (c : Dev nD) :
    (unscopedBufs (Ix := Unit) (Name := ℕ) (U := UR sig nD τ) (Lvl := ℕ) c (V c) : sProp 𝕄)
      ⊢ iprop((dat1 V c).arrays (dat1 V c).A ∗ Pipeline.unscopedRest spec1 c (V c)) := by
  rw [Pipeline.unscopedBufs_split₀ cfgs 1 winFacts₀1.arr_unscoped c (V c)]
  refine sep_mono ?_ .rfl
  rw [show (Pipeline.arrBufs (cfgs 1).spec c (V c) : sProp 𝕄) = Pipeline.arrBufs spec1 c (V c) from rfl, arrBufs1_eq, arrays1_eq]
  iintro ⟨H0, H1, H2, H3, H4, H5⟩
  ihave H3' := (halves (F := F) Finset.univ ((dat1 V c).A 3) ((dat1 V c).A 4) (V c main_arg0) rfl rfl).1 $$ H3
  ihave H4' := (halves (F := F) Finset.univ ((dat1 V c).A 5) ((dat1 V c).A 6) (V c main_arg1) rfl rfl).1 $$ H4
  icases H3' with ⟨Ha, Hb⟩
  icases H4' with ⟨Hc, Hd⟩
  isplitl [H0]; · iexact H0
  isplitl [H1]; · iexact H1
  isplitl [H2]; · iexact H2
  isplitl [Ha]; · iexact Ha
  isplitl [Hb]; · iexact Hb
  isplitl [Hc]; · iexact Hc
  isplitl [Hd]; · iexact Hd
  iexact H5

/-- EXIT of the second region: its arrays at contents `G` — the two halves of each argument at one contents, joined
    again — and the unscoped rest at `V c` are the core's unscoped buffers at any contents `V'` that has the arrays at
    `G` and agrees with `V c` off them. -/
theorem exit1 (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v0_0) (h1 : G 1 = V' main_v0_1) (h2 : G 2 = V' main_v0_2)
    (h3 : G 3 = V' main_arg0) (h4 : G 4 = V' main_arg0) (h5 : G 5 = V' main_arg1) (h6 : G 6 = V' main_arg1)
    (h7 : G 7 = V' main_v1)
    (hrest : ∀ b, b ∉ Finset.univ.image (Pipeline.arrRef spec1) → V' b = V c b) :
    iprop((dat1 V c).arrays G ∗ Pipeline.unscopedRest spec1 c (V c))
      ⊢ (unscopedBufs (Ix := Unit) (Name := ℕ) (U := UR sig nD τ) (Lvl := ℕ) c V' : sProp 𝕄) := by
  rw [Pipeline.unscopedBufs_split₀ cfgs 1 winFacts₀1.arr_unscoped c V']
  refine sep_mono ?_ (Entails.of_eq ?_)
  · rw [show (Pipeline.arrBufs (cfgs 1).spec c V' : sProp 𝕄) = Pipeline.arrBufs spec1 c V' from rfl, arrBufs1_eq, arrays1_eq,
      ← h0, ← h1, ← h2, ← h7]
    iintro ⟨H0, H1, H2, Ha, Hb, Hc, Hd, H7⟩
    isplitl [H0]; · iexact H0
    isplitl [H1]; · iexact H1
    isplitl [H2]; · iexact H2
    isplitl [Ha Hb]
    · iapply (halves (F := F) Finset.univ (G 3) (G 4) (V' main_arg0) h3 h4).2
      isplitl [Ha]; · iexact Ha
      iexact Hb
    isplitl [Hc Hd]
    · iapply (halves (F := F) Finset.univ (G 5) (G 6) (V' main_arg1) h5 h6).2
      isplitl [Hc]; · iexact Hc
      iexact Hd
    iexact H7
  · show Pipeline.unscopedRest spec1 c (V c) = Pipeline.unscopedRest spec1 c V'
    unfold Pipeline.unscopedRest
    exact bigSep_congr fun b hb => by rw [hrest b (Finset.mem_sdiff.mp hb).2]

end Cert.KernelIdeal.Hand

end
-- ==== Proof.KISeg.lean ====
/-
  The two regions of the program as records over the thread state, and the program's two runs.

  Between two items of @main core `c` holds every unscoped buffer whole at a valuation — the launch memory, then what the
  first region leaves in its three results, then what the second region leaves in the row losses' buffer, then the host
  tail's four operations — beside its generator register at some state and nothing owed. A region's record splits its
  windows' arrays out of that state (an argument array, read through two windows, into the two halves of the full
  share), hands the generator register to the region's invariant, and at the exit puts everything back at the next
  valuation: an input array is never written, so both halves of an argument still hold the launch contents and join.
  The launch over the three items gives the frame (each argument array ends as launched) and the value run (the result
  buffer ends at the host tail applied to what the second region leaves).

  Taken as hypotheses: each region's body obligation at its proof data, and for the second region that the class
  invariant gives its invariant before the first point and is given back by its invariant after the last.
-/
import proofs.«136872_j61607010893834_1_alg».proof.Proof.KIData0
import proofs.«136872_j61607010893834_1_alg».proof.Proof.KIData1
import proofs.«136872_j61607010893834_1_alg».proof.Proof.Gen.KernelIdeal.Regions
import proofs.«136872_j61607010893834_1_alg».proof.Proof.KISegA
import Idealize.ShloMosaic.Lib.Pipeline.FrameBody
import Idealize.ShloMosaic.Lib.Pipeline.Frame
import Idealize.ShloMosaic.Lib.Pipeline.Regions
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents when each region is entered -/

/-- The first region's entry contents: the launch memory. -/
def Vin0 : (c : Dev nD) → (b : Ref sig .tc) → Buf (Elt F) ((c : Thread nD τ).loc b) := fun c b => m ((c : Thread nD τ).loc b)

theorem Vin0_eq (c : Dev nD) (b : Ref sig .tc) : Vin0 m c b = Gen.V0 m c b := rfl

/-- What the first region leaves in a buffer: its three results at what the write-backs of all points leave there,
    any other buffer as launched. -/
def out1 (r : Ref sig .tc) (c : Dev nD) : Buf (Elt F) ((c : Thread nD τ).loc r) :=
  if h : r = main_v0_0 then h ▸ ((dat0 (Vin0 m) c).arrAt 4 cfg0.N : Buf (Elt F) ((c : Thread nD τ).loc main_v0_0))
  else if h : r = main_v0_1 then h ▸ ((dat0 (Vin0 m) c).arrAt 5 cfg0.N : Buf (Elt F) ((c : Thread nD τ).loc main_v0_1))
  else if h : r = main_v0_2 then h ▸ ((dat0 (Vin0 m) c).arrAt 6 cfg0.N : Buf (Elt F) ((c : Thread nD τ).loc main_v0_2))
  else m ((c : Thread nD τ).loc r)

theorem out1_v0_0 (c : Dev nD) : out1 m main_v0_0 c = (dat0 (Vin0 m) c).arrAt 4 cfg0.N := dif_pos rfl
theorem out1_v0_1 (c : Dev nD) : out1 m main_v0_1 c = (dat0 (Vin0 m) c).arrAt 5 cfg0.N :=
  (dif_neg (by decide)).trans (dif_pos rfl)
theorem out1_v0_2 (c : Dev nD) : out1 m main_v0_2 c = (dat0 (Vin0 m) c).arrAt 6 cfg0.N :=
  (dif_neg (by decide)).trans ((dif_neg (by decide)).trans (dif_pos rfl))

/-- The second region's entry contents: the launch memory with the first region's three results in their buffers. -/
def Vin1 : (c : Dev nD) → (b : Ref sig .tc) → Buf (Elt F) ((c : Thread nD τ).loc b) := fun c b => Gen.V1 m (fun _ => out1 m) c b

/-- What the regions leave in the buffers they may change: the first its three results, the second the row losses at
    what the write-backs of all points leave there. -/
def outs : Gen.Outs (F := F) := fun _ r c =>
  if h : r = main_v1 then h ▸ ((dat1 (Vin1 m) c).arrAt 7 cfg1.N : Buf (Elt F) ((c : Thread nD τ).loc main_v1))
  else out1 m r c

theorem outs_of_ne (j : ℕ) (r : Ref sig .tc) (c : Dev nD) (h : r ≠ main_v1) : outs m j r c = out1 m r c := dif_neg h
theorem outs_v1 (j : ℕ) (c : Dev nD) : outs m j main_v1 c = (dat1 (Vin1 m) c).arrAt 7 cfg1.N := dif_pos rfl

/-- After the first region the buffers hold the second region's entry contents. -/
theorem V1_outs (c : Dev nD) : Gen.V1 m (outs m) c = Gen.V1 m (fun _ => out1 m) c := by
  show Function.update (Function.update (Function.update (Gen.V0 m c) main_v0_0 (outs m 1 main_v0_0 c)) main_v0_1 (outs m 1 main_v0_1 c)) main_v0_2 (outs m 1 main_v0_2 c) = _
  rw [outs_of_ne m 1 main_v0_0 c (by decide), outs_of_ne m 1 main_v0_1 c (by decide), outs_of_ne m 1 main_v0_2 c (by decide)]

theorem Vin1_eq (c : Dev nD) (b : Ref sig .tc) : Vin1 m c b = Gen.V1 m (outs m) c b := (congrFun (V1_outs m c) _).symm

theorem Vin1_v0_0 (c : Dev nD) : Vin1 m c main_v0_0 = (dat0 (Vin0 m) c).arrAt 4 cfg0.N := by
  show Function.update (Function.update (Function.update (Gen.V0 m c) main_v0_0 (out1 m main_v0_0 c)) main_v0_1 (out1 m main_v0_1 c)) main_v0_2 (out1 m main_v0_2 c) main_v0_0 = _
  rw [Function.update_of_ne (StableHlo.devRef_ne_of_ne (by decide) : (Proc.devRef .tc main_v0_0 : DevRef τ sig) ≠ Proc.devRef .tc main_v0_2),
    Function.update_of_ne (StableHlo.devRef_ne_of_ne (by decide) : (Proc.devRef .tc main_v0_0 : DevRef τ sig) ≠ Proc.devRef .tc main_v0_1),
    Function.update_self, out1_v0_0]
theorem Vin1_v0_1 (c : Dev nD) : Vin1 m c main_v0_1 = (dat0 (Vin0 m) c).arrAt 5 cfg0.N := by
  show Function.update (Function.update (Function.update (Gen.V0 m c) main_v0_0 (out1 m main_v0_0 c)) main_v0_1 (out1 m main_v0_1 c)) main_v0_2 (out1 m main_v0_2 c) main_v0_1 = _
  rw [Function.update_of_ne (StableHlo.devRef_ne_of_ne (by decide) : (Proc.devRef .tc main_v0_1 : DevRef τ sig) ≠ Proc.devRef .tc main_v0_2),
    Function.update_self, out1_v0_1]
theorem Vin1_v0_2 (c : Dev nD) : Vin1 m c main_v0_2 = (dat0 (Vin0 m) c).arrAt 6 cfg0.N := by
  show Function.update (Function.update (Function.update (Gen.V0 m c) main_v0_0 (out1 m main_v0_0 c)) main_v0_1 (out1 m main_v0_1 c)) main_v0_2 (out1 m main_v0_2 c) main_v0_2 = _
  rw [Function.update_self, out1_v0_2]
theorem Vin1_arg0 (c : Dev nD) : Vin1 m c main_arg0 = m ((c : Thread nD τ).loc main_arg0) :=
  (Gen.V1_of m (fun _ => out1 m) c main_arg0 (by decide)).trans rfl
theorem Vin1_arg1 (c : Dev nD) : Vin1 m c main_arg1 = m ((c : Thread nD τ).loc main_arg1) :=
  (Gen.V1_of m (fun _ => out1 m) c main_arg1 (by decide)).trans rfl

/-- After the second region the row losses' buffer holds what the region left. -/
theorem V2_v1 (c : Dev nD) : Gen.V2 m (outs m) c main_v1 = (dat1 (Vin1 m) c).arrAt 7 cfg1.N := by
  show Function.update (Gen.V1 m (outs m) c) main_v1 (outs m 2 main_v1 c) main_v1 = _
  rw [Function.update_self, outs_v1]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c

/-- No core owes another anything: no level is assigned. -/
abbrev Ls : GSem nD τ sig → Finset Unit := fun _ => ∅
abbrev lvs : GSem nD τ sig → Unit → ℕ := fun _ _ => 0

/-- What rides beside the buffers between the program's items: the core's generator register at some state and its
    dues, at nothing. -/
abbrev R (c : Dev nD) : sProp 𝕄 := iprop((∃ r, prngReg c r) ∗ ∃ W, owes (c : Thread nD τ) (0 : CellTallies nD τ sig Unit) W)

/-- The thread state between items: every unscoped buffer whole at a valuation, beside `R`. -/
abbrev St (W : Dev nD → Valuation τ sig (Elt F)) (c : Dev nD) : sProp 𝕄 :=
  iprop(StableHlo.held (c : Thread nD τ) (Pipeline.ucRefs τ sig) (W c) ∗ R c)

/-- Entering the first region: the unscoped buffers at the launch contents are its arrays and the unscoped rest. -/
theorem split0 (c : Dev nD) :
    (StableHlo.held (c : Thread nD τ) (Pipeline.ucRefs τ sig) (Gen.V0 m c) : sProp 𝕄)
      ⊢ iprop((dat0 (Vin0 m) c).arrays (dat0 (Vin0 m) c).A ∗ Pipeline.unscopedRest spec0 c (Vin0 m c)) := by
  rw [← Pipeline.unscopedBufs_held (Ix := Unit) (Name := ℕ) (U := UR sig nD τ) (Lvl := ℕ) c (Gen.V0 m c)]
  exact entry0 (Vin0 m) c

/-- Leaving the first region: its arrays after all write-backs and the unscoped rest are the unscoped buffers at the
    contents after the first item. -/
theorem join0 (c : Dev nD) :
    iprop((dat0 (Vin0 m) c).arrays ((dat0 (Vin0 m) c).arrAt · cfg0.N) ∗ Pipeline.unscopedRest spec0 c (Vin0 m c))
      ⊢ (StableHlo.held (c : Thread nD τ) (Pipeline.ucRefs τ sig) (Gen.V1 m (outs m) c) : sProp 𝕄) := by
  rw [← Pipeline.unscopedBufs_held (Ix := Unit) (Name := ℕ) (U := UR sig nD τ) (Lvl := ℕ) c (Gen.V1 m (outs m) c)]
  refine exit0 (Vin0 m) c _ _ ?_ ?_ ?_ ?_ ?_ ?_ ?_ ?_
  · exact ((dat0 (Vin0 m) c).arrAt_in 0 rfl _).trans ((A_eq0 (Vin0 m) c 0).trans (Gen.V1_of m (outs m) c main_arg0 (by decide)).symm)
  · exact ((dat0 (Vin0 m) c).arrAt_in 1 rfl _).trans ((A_eq0 (Vin0 m) c 1).trans (Gen.V1_of m (outs m) c main_arg0 (by decide)).symm)
  · exact ((dat0 (Vin0 m) c).arrAt_in 2 rfl _).trans ((A_eq0 (Vin0 m) c 2).trans (Gen.V1_of m (outs m) c main_arg1 (by decide)).symm)
  · exact ((dat0 (Vin0 m) c).arrAt_in 3 rfl _).trans ((A_eq0 (Vin0 m) c 3).trans (Gen.V1_of m (outs m) c main_arg1 (by decide)).symm)
  · exact ((Vin1_eq m c main_v0_0).symm.trans (Vin1_v0_0 m c)).symm
  · exact ((Vin1_eq m c main_v0_1).symm.trans (Vin1_v0_1 m c)).symm
  · exact ((Vin1_eq m c main_v0_2).symm.trans (Vin1_v0_2 m c)).symm
  · intro b hb
    refine Gen.V1_of m (outs m) c b fun hmem => hb ?_
    rcases List.mem_cons.mp hmem with rfl | hmem
    · exact Finset.mem_image.mpr ⟨4, Finset.mem_univ _, rfl⟩
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    exact absurd hmem List.not_mem_nil

/-- Entering the second region: the unscoped buffers at the contents after the first item are its arrays and the
    unscoped rest. -/
theorem split1 (c : Dev nD) :
    (StableHlo.held (c : Thread nD τ) (Pipeline.ucRefs τ sig) (Gen.V1 m (outs m) c) : sProp 𝕄)
      ⊢ iprop((dat1 (Vin1 m) c).arrays (dat1 (Vin1 m) c).A ∗ Pipeline.unscopedRest spec1 c (Vin1 m c)) := by
  rw [V1_outs, ← Pipeline.unscopedBufs_held (Ix := Unit) (Name := ℕ) (U := UR sig nD τ) (Lvl := ℕ) c (Gen.V1 m (fun _ => out1 m) c)]
  exact entry1 (Vin1 m) c

/-- Leaving the second region: its arrays after all write-backs and the unscoped rest are the unscoped buffers at the
    contents after the second item. -/
theorem join1 (c : Dev nD) :
    iprop((dat1 (Vin1 m) c).arrays ((dat1 (Vin1 m) c).arrAt · cfg1.N) ∗ Pipeline.unscopedRest spec1 c (Vin1 m c))
      ⊢ (StableHlo.held (c : Thread nD τ) (Pipeline.ucRefs τ sig) (Gen.V2 m (outs m) c) : sProp 𝕄) := by
  rw [← Pipeline.unscopedBufs_held (Ix := Unit) (Name := ℕ) (U := UR sig nD τ) (Lvl := ℕ) c (Gen.V2 m (outs m) c)]
  refine exit1 (Vin1 m) c _ _ ?_ ?_ ?_ ?_ ?_ ?_ ?_ ?_ ?_
  · exact ((dat1 (Vin1 m) c).arrAt_in 0 rfl _).trans ((A_eq1 (Vin1 m) c 0).trans ((Gen.V2_of m (outs m) c main_v0_0 (by decide)).trans (Vin1_eq m c main_v0_0).symm).symm)
  · exact ((dat1 (Vin1 m) c).arrAt_in 1 rfl _).trans ((A_eq1 (Vin1 m) c 1).trans ((Gen.V2_of m (outs m) c main_v0_1 (by decide)).trans (Vin1_eq m c main_v0_1).symm).symm)
  · exact ((dat1 (Vin1 m) c).arrAt_in 2 rfl _).trans ((A_eq1 (Vin1 m) c 2).trans ((Gen.V2_of m (outs m) c main_v0_2 (by decide)).trans (Vin1_eq m c main_v0_2).symm).symm)
  · exact ((dat1 (Vin1 m) c).arrAt_in 3 rfl _).trans ((A_eq1 (Vin1 m) c 3).trans ((Gen.V2_of m (outs m) c main_arg0 (by decide)).trans (Vin1_eq m c main_arg0).symm).symm)
  · exact ((dat1 (Vin1 m) c).arrAt_in 4 rfl _).trans ((A_eq1 (Vin1 m) c 4).trans ((Gen.V2_of m (outs m) c main_arg0 (by decide)).trans (Vin1_eq m c main_arg0).symm).symm)
  · exact ((dat1 (Vin1 m) c).arrAt_in 5 rfl _).trans ((A_eq1 (Vin1 m) c 5).trans ((Gen.V2_of m (outs m) c main_arg1 (by decide)).trans (Vin1_eq m c main_arg1).symm).symm)
  · exact ((dat1 (Vin1 m) c).arrAt_in 6 rfl _).trans ((A_eq1 (Vin1 m) c 6).trans ((Gen.V2_of m (outs m) c main_arg1 (by decide)).trans (Vin1_eq m c main_arg1).symm).symm)
  · exact (V2_v1 m c).symm
  · intro b hb
    refine (Gen.V2_of m (outs m) c b fun hmem => hb ?_).trans (Vin1_eq m c b).symm
    rcases List.mem_cons.mp hmem with rfl | hmem
    · exact Finset.mem_image.mpr ⟨7, Finset.mem_univ _, rfl⟩
    exact absurd hmem List.not_mem_nil

-- unification against `pin pcs a p` here unfolds plain definitions in a metavariable's type
set_option backward.isDefEq.respectTransparency.types false in
/-- REGION 0 over the thread state: entered from every unscoped buffer at the contents before it, left at the contents
    after it. Its arrays are split out of the unscoped buffers (each argument into its halves) and put back; the generator
    register goes into the invariant and comes out of it; nothing is owed; the kernel has no semaphore of its own. -/
def reg0
    (hb0 : ∀ (V : (c : Dev nD) → (b : Ref sig .tc) → Buf (Elt F) ((c : Thread nD τ).loc b)) (c : Dev nD),
      Pipeline.BodyObligation (dat0 (F := F) V c) (defs₀ (F := F)) Variants.none () Set.univ) :
    Pipeline.RegionSeg (pcfgs (F := F)) adm (pdats m) () defs₀ Variants.none Ls lvs 0 where
  win := winFacts₀0
  block_pos := block_pos0
  stage_whole := stage_whole0
  K := PEmpty
  osem k := k.elim
  ho := Pipeline.OwnSemFacts.none _
  hbody c := (hb0 (Vin0 m) c).loose
  hwaits := Pipeline.hwaits_of_owed_zero _ _ _ _ Ls lvs 0 fun _ _ => rfl
  pre c := St (Gen.V0 m ) c
  post c := St (Gen.V1 m (outs m)) c
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    iintro ⟨⟨Hub, Hp, HO⟩, -, -⟩
    ihave H := split0 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply join0 m c; isplitl [Ha]
      · iexact Ha
      iexact Hrest
    isplitl [HY]; · iexact HY
    unfold Pipeline.Dat.owesAt Pipeline.owesWithin
    icases HO with ⟨%W, -, HO⟩; iexists W; iexact HO

-- unification against `pin pcs a p` here unfolds plain definitions in a metavariable's type
set_option backward.isDefEq.respectTransparency.types false in
/-- REGION 1 over the thread state: entered from every unscoped buffer at the contents before it, left at the contents
    after it. Its arrays are split out of the unscoped buffers (each argument into its halves) and put back; the generator
    register goes into the invariant and comes out of it; nothing is owed; the kernel has no semaphore of its own. -/
def reg1
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄)) :
    Pipeline.RegionSeg (pcfgs (F := F)) adm (pdats m) () defs₀ Variants.none Ls lvs 1 where
  win := winFacts₀1
  block_pos := block_pos1
  stage_whole := stage_whole1
  K := PEmpty
  osem k := k.elim
  ho := Pipeline.OwnSemFacts.none _
  hbody c := (hb1 (Vin1 m) c).loose
  hwaits := Pipeline.hwaits_of_owed_zero _ _ _ _ Ls lvs 1 fun _ _ => rfl
  pre c := St (Gen.V1 m (outs m)) c
  post c := St (Gen.V2 m (outs m)) c
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    iintro ⟨⟨Hub, Hp, HO⟩, -, -⟩
    ihave H := split1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    refine BIBase.Entails.trans (hout1 (Vin1 m) c) ?_
    rw [Pipeline.ownSems0_none]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply join1 m c; isplitl [Ha]
      · iexact Ha
      iexact Hrest
    isplitl [HY]; · iexact HY
    unfold Pipeline.Dat.owesAt Pipeline.owesWithin
    icases HO with ⟨%W, -, HO⟩; iexists W; iexact HO

/-! ## The program's two runs -/

/-- The launch element: the pipeline library's at every pipeline's staging cells; no ghost resource per core. -/
theorem launch_elt :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes `R` on every core: the generator register as launched, nothing owed. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Ls lvs)
      ⊢ (|={Set.univ}=> bigSep Finset.univ (fun c : Dev nD => R (F := F) c) : sProp 𝕄) := by
  refine Pipeline.initEach Ls lvs fun c => ?_
  iintro ⟨⟨-, HO, -, Hp, -⟩, -⟩
  imodintro
  isplitl [Hp]; · iexists _; iexact Hp
  iexists ∅; iexact HO

-- unification against `pin pcs a p` here unfolds plain definitions in a metavariable's type
set_option backward.isDefEq.respectTransparency.types false in
/-- THE FRAME: from any memory with zero counters, every weakly fair execution of @main terminates and every final memory
    holds each argument array as launched. -/
theorem frame
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () Variants.none Ls lvs (fun _ _ => rfl) ρ (outs m) (pdats m) 0 (fun _ => iprop(emp))
    (initOf (Pipeline.cells cfgs cellOf_inj) (Pipeline.launchToks cfgs cellOf_inj)) launch_elt
    (fun _ c => R c) (launch_rest ρ) (fun c => by iintro ⟨-, H⟩; iexact H)
    (reg0 m hb0) (fun _ => .rfl) (fun _ => .rfl) (reg1 m hb1 hin1 hout1) (fun _ => .rfl) (fun _ => .rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- unification against `pin pcs a p` here unfolds plain definitions in a metavariable's type
set_option backward.isDefEq.respectTransparency.types false in
/-- THE RUN, every buffer read: from any memory with zero counters, every weakly fair execution of @main terminates and
    every final memory holds each unscoped buffer at the contents after the last item — the launch over the three items
    (the two regions' records, the host tail), the last thread state read against the final state. -/
theorem run_all
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄))
    {Q : PUnit × MemSt nD τ sig (Elt F) → Prop}
    (hQ : ∀ s : MemSt nD τ sig (Elt F), (∀ c : Dev nD, ∀ b ∈ Pipeline.ucRefs τ sig,
      s.mem ((c : Thread nD τ).1, b) = Gen.V3 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ Variants.none Ls lvs m ρ main
    (Gen.segs m (outs m) Variants.none Ls lvs (fun _ c => R c) () (pdats m) (reg0 m hb0) (reg1 m hb1 hin1 hout1))
    (fun c Q => by
      rewrite [main_chain c, Pipeline.Seg.run_eq_chain,
        show (Gen.segs m (outs m) Variants.none Ls lvs (fun _ c => R c) () (pdats m) (reg0 m hb0) (reg1 m hb1 hin1 hout1) c).map Pipeline.Seg.prog = [
          Prog.lift (.customCall (Pipeline.entry 0) ()),
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) launch_elt
    (T₀ := St (Gen.V0 m))
    (Tₙ := fun c => StableHlo.held (c : Thread nD τ) (Pipeline.ucRefs τ sig) (Gen.V3 m (outs m) c))
    (hch := fun c => ⟨.rfl, .rfl, .rfl, sep_mono .rfl (by iintro ⟨-, H⟩; iexact H)⟩)
    (hinit := ?_)
    (QY := fun c s => ∀ b ∈ Pipeline.ucRefs τ sig, s.mem ((c : Thread nD τ).1, b) = Gen.V3 m (outs m) c b)
    (hfin := fun c s' => ?_) (hQ := hQ)
  · -- the launch: the unscoped buffers are held at the launch contents; the rest makes `R` on every core
    refine Pipeline.initEach Ls lvs fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V3 m (outs m) c) s')
    isplitl [Hh]
    · iexact Hh
    iexact HSI

/-- The program's result: the host tail's two operations — the sum of all rows, then the division by the row count —
    applied to what the second region leaves in the row losses' buffer. -/
theorem V3_v3 (c : Dev nD) : Gen.V3 m (outs m) c main_v3
    = Host.divf (Host.reduceAdd ((dat1 (Vin1 m) c).arrAt 7 cfg1.N) (constant S_ .f32 0x00000000#32) reducesTo_S8192x1_S_d0_1 h_S_)
        (constant S_ .f32 0x46000000#32) := by
  show StableHlo.after hostOps2 (Gen.V2 m (outs m) c) (Proc.devRef .tc main_v3) = _
  after_results
  rw [V2_v1]

/-- THE VALUE RUN: every weakly fair execution of @main terminates, and every final memory holds in the result buffer
    the host tail's two operations applied to what the second region leaves in the row losses' buffer, and each argument
    array as launched. -/
theorem run_value
    (hb0 : ∀ (V : (c : Dev nD) → (b : Ref sig .tc) → Buf (Elt F) ((c : Thread nD τ).loc b)) (c : Dev nD),
      Pipeline.BodyObligation (dat0 (F := F) V c) (defs₀ (F := F)) Variants.none () Set.univ)
    (hb1 : ∀ (V : (c : Dev nD) → (b : Ref sig .tc) → Buf (Elt F) ((c : Thread nD τ).loc b)) (c : Dev nD),
      Pipeline.BodyObligation (dat1 (F := F) V c) (defs₀ (F := F)) Variants.none () Set.univ)
    (hin1 : ∀ (V : (c : Dev nD) → (b : Ref sig .tc) → Buf (Elt F) ((c : Thread nD τ).loc b)) (c : Dev nD),
      (Pipeline.ΦA spec1 c : sProp 𝕄) ⊢ (dat1 V c).Φ 0)
    (hout1 : ∀ (V : (c : Dev nD) → (b : Ref sig .tc) → Buf (Elt F) ((c : Thread nD τ).loc b)) (c : Dev nD),
      (dat1 V c).Φ (Fin.last cfg1.N) ⊢ (Pipeline.ΦA spec1 c : sProp 𝕄)) :
    θ_run defs (onTc (τ := τ) (main (F := F))) ⟨m, fun _ => 0, ρ⟩ (fun r => ∀ c : Dev nD,
      r.2.mem ((c.tc : Thread nD τ).loc main_v3)
        = Host.divf (Host.reduceAdd ((dat1 (Vin1 m) c).arrAt 7 cfg1.N) (constant S_ .f32 0x00000000#32) reducesTo_S8192x1_S_d0_1 h_S_)
            (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_all m ρ hb0 hb1 hin1 hout1 fun s h c =>
    ⟨(h c _ (mem_uc main_v3 (by decide))).trans (V3_v3 m c),
      (h c _ (mem_uc main_arg0 (by decide))).trans (Gen.V3_main_arg0 m (outs m) c),
      (h c _ (mem_uc main_arg1 (by decide))).trans (Gen.V3_main_arg1 m (outs m) c)⟩

end Cert.KernelIdeal.Hand

end
-- ==== Proof.KIBody0Pts.lean ====
/-
  The first region's control and what its staging buffers hold when the body is entered.

  The body has two branches on the grid position: the first is taken exactly at the first point, the second exactly at
  every other point (the second condition is the negation of the first), so no result window is ever idle. An input's
  staging buffer holds its block at every point. A result's staging buffer holds anything at the first point and, from
  then on, what the body left there at the point before: the three results' blocks never move and are written back only
  after the last point.
-/
import proofs.«136872_j61607010893834_1_alg».proof.Proof.KIData0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions, in closed form -/

/-- The first branch is taken exactly at the first point. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)

/-- The second branch is taken exactly at every other point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two conditions holds at every grid position: both test one bit, the second its negation. -/
theorem cond0_or (i : grid0.Coords) : (!(k0_cond1 i == 1#1) && !(k0_cond2 i == 1#1)) = false := by
  unfold k0_cond1 k0_cond2
  dsimp only
  generalize Scalar.andi _ _ = b
  rcases BitVec.eq_zero_or_eq_one b with h | h <;> subst h <;> decide

/-- No window is idle anywhere: the inputs by the table, the results because one branch always stores into them. -/
theorem idle0_false : ∀ (w : Fin 7) (i : grid0.Coords), cfg0.idle w i = false := by
  intro w i
  fin_cases w
  · rfl
  · rfl
  · rfl
  · rfl
  · exact cond0_or i
  · exact cond0_or i
  · exact cond0_or i

/-! ## What the staging buffers hold when the body is entered -/

/-- An input's current staging buffer holds its block at every point, fetched there or not. -/
theorem before0_0 (c : Dev nD) (t : Fin cfg0.N) (d) : (dat0 V c).before 0 t d = iblk0 V c 0 t :=
  ((dat0 V c).before_in_eq_fetched 0 rfl (idle0_false 0) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (idle0_false 1) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (idle0_false 2) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (idle0_false 3) (fun _ _ _ => rfl)
    (fun t => by rw [after0_3]; unfold Dat.blockOf iblk0; rw [A_eq0]; try rfl) t d).trans
    (by unfold Dat.fetched Dat.blockOf iblk0; rw [A_eq0]; try rfl)

/-- At the first point a result's staging buffer holds anything. -/
theorem before0_4_first (c : Dev nD) (t : Fin cfg0.N) (ht : t.val = 0) (d) : (dat0 V c).before 4 t d = d :=
  (dat0 V c).before_out_reset 4 rfl t (.inl ht) d
theorem before0_5_first (c : Dev nD) (t : Fin cfg0.N) (ht : t.val = 0) (d) : (dat0 V c).before 5 t d = d :=
  (dat0 V c).before_out_reset 5 rfl t (.inl ht) d
theorem before0_6_first (c : Dev nD) (t : Fin cfg0.N) (ht : t.val = 0) (d) : (dat0 V c).before 6 t d = d :=
  (dat0 V c).before_out_reset 6 rfl t (.inl ht) d

/-- At a later point a result's staging buffer holds the running extreme the body left at the point before: the
    buffer is written back only after the last point, the window is never idle and its block is whole. -/
theorem before0_4 (c : Dev nD) (t : Fin cfg0.N) (ht : t.val ≠ 0) (d) :
    (dat0 V c).before 4 t d = (acc0 V c (t.val - 1) (Nat.lt_of_le_of_lt (Nat.sub_le _ _) t.isLt)).1 := by
  have hN : t.val < 256 := lt_of_lt_of_eq t.isLt (show cfg0.N = 256 from N_0)
  rw [Dat.before_out_kept _ 4 rfl t ht (Bool.eq_false_iff.mpr fun h => by have := (flush0_4 _).mp h; dsimp only at this; omega)
    (idle0_false 4) (fun _ _ => rfl), after0_4]
theorem before0_5 (c : Dev nD) (t : Fin cfg0.N) (ht : t.val ≠ 0) (d) :
    (dat0 V c).before 5 t d = (acc0 V c (t.val - 1) (Nat.lt_of_le_of_lt (Nat.sub_le _ _) t.isLt)).2.1 := by
  have hN : t.val < 256 := lt_of_lt_of_eq t.isLt (show cfg0.N = 256 from N_0)
  rw [Dat.before_out_kept _ 5 rfl t ht (Bool.eq_false_iff.mpr fun h => by have := (flush0_5 _).mp h; dsimp only at this; omega)
    (idle0_false 5) (fun _ _ => rfl), after0_5]
theorem before0_6 (c : Dev nD) (t : Fin cfg0.N) (ht : t.val ≠ 0) (d) :
    (dat0 V c).before 6 t d = (acc0 V c (t.val - 1) (Nat.lt_of_le_of_lt (Nat.sub_le _ _) t.isLt)).2.2 := by
  have hN : t.val < 256 := lt_of_lt_of_eq t.isLt (show cfg0.N = 256 from N_0)
  rw [Dat.before_out_kept _ 6 rfl t ht (Bool.eq_false_iff.mpr fun h => by have := (flush0_6 _).mp h; dsimp only at this; omega)
    (idle0_false 6) (fun _ _ => rfl), after0_6]

end Cert.KernelIdeal.Hand

end
-- ==== Proof.KIBody0Run.lean ====
/-
  The first region's body, run on any whole staging buffers.

  The body loads the four input blocks whole and forms the tile of similarities and the tile of distances from them.
  At the first grid position it overwrites each of the three 1 × 1 results with the tile's own extreme; at every other
  position it loads each result and overwrites it with the extreme of what it found and the tile's. Every load and
  store is of a whole buffer, so a load reads what the buffer holds and a store leaves its payload: the two runs
  below state the three results' contents with the payload functions themselves.
-/
import proofs.«136872_j61607010893834_1_alg».proof.Proof.KIData0
import proofs.«136872_j61607010893834_1_alg».proof.Proof.LibWholeBuffer
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole load of an input block held at `X` reads `X` (the outputs' row / column block). -/
theorem ld0_out {m : Memref sig .tc .vmem S512x256 .f32} (hm : m.IsWhole) (X : Vec F S512x256 .f32) :
    View.readAt (Elt F) m.view (Rect.unit ![0, 0] S512x256.size inb_S512x256_S512x256_0_0).toLoadRect (hm.unread X) = X :=
  WholeBuffer.readAt_whole_unread hm WholeBuffer.offsets_zero₂ _ X

/-- The same for a labels block. -/
theorem ld0_lab {m : Memref sig .tc .vmem S512x128 .f32} (hm : m.IsWhole) (X : Vec F S512x128 .f32) :
    View.readAt (Elt F) m.view (Rect.unit ![0, 0] S512x128.size inb_S512x128_S512x128_0_0).toLoadRect (hm.unread X) = X :=
  WholeBuffer.readAt_whole_unread hm WholeBuffer.offsets_zero₂ _ X

/-- The same for a 1 × 1 result. -/
theorem ld0_res {m : Memref sig .tc .vmem S1x1 .f32} (hm : m.IsWhole) (X : Vec F S1x1 .f32) :
    View.readAt (Elt F) m.view (Rect.unit ![0, 0] S1x1.size inb_S1x1_S1x1_0_0).toLoadRect (hm.unread X) = X :=
  WholeBuffer.readAt_whole_unread hm WholeBuffer.offsets_zero₂ _ X

/-- One whole store into a 1 × 1 result leaves its payload, whatever the buffer held. -/
theorem st0_res (m : Memref sig .tc .vmem S1x1 .f32) (f : m.view.ty.Contents (Elt F)) (w : Vec F S1x1 .f32) :
    m.view.read (Elt F) (m.view.writes (Elt F) f [⟨Rect.unit ![0, 0] S1x1.size inb_S1x1_S1x1_0_0, w⟩]) = w :=
  WholeBuffer.read_writes_cons_whole m.view f WholeBuffer.offsets_zero₂ _ w []

set_option maxHeartbeats 1000000 in
/-- THE FIRST POINT. With the first branch taken and the second not, from the four input buffers at their blocks and the
    three result buffers at anything, the body runs to the inputs as they were and the results at the tile's least
    similarity, greatest similarity and greatest distance. -/
theorem sound_kernel0_A (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : k0_cond1 i = 1#1) (hc2 : ¬k0_cond2 i = 1#1)
    (x0 x1 : Vec F S512x256 .f32) (x2 x3 : Vec F S512x128 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 (k0_pay7 x2 x3))
            ∗ owns (c : Thread nD τ) arg7 fullShare (k0_pay2 (k0_pay7 x2 x3))
            ∗ owns (c : Thread nD τ) arg8 fullShare (k0_pay3 (k0_pay8 x0 x1) (k0_pay9 x0) (k0_pay10 x1))) -∗ K ⟨⟩))
      ⊢ wp frame (wpE (defs₀ (F := F)) Variants.none c none) E
          (cc0__reduce_kernel i arg2 harg2 arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro; refine (st0_res arg6 _ _).trans ?_
    dsimp only; rw [ld0_lab harg4, ld0_lab harg5]
  isplitl [H5]
  · iexists _; isplitr
    swap; · iexact H5
    ipureintro; refine (st0_res arg7 _ _).trans ?_
    dsimp only; rw [ld0_lab harg4, ld0_lab harg5]
  · iexists _; isplitr
    swap; · iexact H6
    ipureintro; refine (st0_res arg8 _ _).trans ?_
    dsimp only; rw [ld0_out harg2, ld0_out harg3]

set_option maxHeartbeats 1000000 in
/-- EVERY OTHER POINT. With the second branch taken and the first not, from the four input buffers at their blocks and the
    three result buffers at running extremes `a4`, `a5`, `a6`, the body runs to the inputs as they were and each result at
    the extreme of what it held and the tile's. -/
theorem sound_kernel0_B (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
    (hc1 : ¬k0_cond1 i = 1#1) (hc2 : k0_cond2 i = 1#1)
    (x0 x1 : Vec F S512x256 .f32) (x2 x3 : Vec F S512x128 .f32) (a4 a5 a6 : Vec F S1x1 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare a4 ∗ owns (c : Thread nD τ) arg7 fullShare a5
        ∗ owns (c : Thread nD τ) arg8 fullShare a6
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 (k0_pay7 x2 x3) a4)
            ∗ owns (c : Thread nD τ) arg7 fullShare (k0_pay5 (k0_pay7 x2 x3) a5)
            ∗ owns (c : Thread nD τ) arg8 fullShare (k0_pay6 (k0_pay8 x0 x1) (k0_pay9 x0) (k0_pay10 x1) a6)) -∗ K ⟨⟩))
      ⊢ wp frame (wpE (defs₀ (F := F)) Variants.none c none) E
          (cc0__reduce_kernel i arg2 harg2 arg3 harg3 arg4 harg4 arg5 harg5 arg6 harg6 arg7 harg7 arg8 harg8) K := by
  simp only [cc0__reduce_kernel_eq_skeleton]; unfold cc0__reduce_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1
  obtain rfl := harg4.eq_unread hf2; obtain rfl := harg5.eq_unread hf3
  obtain rfl := harg6.eq_unread hf4; obtain rfl := harg7.eq_unread hf5; obtain rfl := harg8.eq_unread hf6
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro; refine (st0_res arg6 _ _).trans ?_
    dsimp only; rw [ld0_lab harg4, ld0_lab harg5, ld0_res harg6]
  isplitl [H5]
  · iexists _; isplitr
    swap; · iexact H5
    ipureintro; refine (st0_res arg7 _ _).trans ?_
    dsimp only; rw [ld0_lab harg4, ld0_lab harg5, ld0_res harg7]
  · iexists _; isplitr
    swap; · iexact H6
    ipureintro; refine (st0_res arg8 _ _).trans ?_
    dsimp only; rw [ld0_out harg2, ld0_out harg3, ld0_res harg8]

end Cert.KernelIdeal.Hand

end
-- ==== Proof.KIBody0.lean ====
/-
  The first region's body obligation.

  At every grid point the body is handed the invariant, what the core owes, and each window's current staging buffer
  at what it then holds: an input's at its block, a result's at anything (first point) or at the running extreme the
  point before left. At the first point the first branch runs and leaves the tile's own three extremes; at every
  other point the second branch runs and leaves the extreme of the running value and the tile's. Either way the
  results' buffers end at the running triple `acc0` at this point, the inputs' buffers are as they were, and the
  invariant and what is owed pass through untouched.
-/
import proofs.«136872_j61607010893834_1_alg».proof.Proof.KIBody0Pts
import proofs.«136872_j61607010893834_1_alg».proof.Proof.KIBody0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running triple, point by point -/

/-- At the first point the running triple is the tile's own extremes. -/
theorem acc0_first (c : Dev nD) (t : Fin cfg0.N) (hz : t.val = 0) :
    acc0 V c t.val t.isLt = (k0_pay1 (simT0 V c t), k0_pay2 (simT0 V c t),
      k0_pay3 (crossT0 V c t) (sqiT0 V c t) (sqjT0 V c t)) := by
  obtain ⟨n, hn⟩ := t
  cases n with
  | zero => rfl
  | succ n => exact absurd hz (Nat.succ_ne_zero n)

/-- At a later point it is the extreme of the triple at the point before and the tile's. -/
theorem acc0_later (c : Dev nD) (t : Fin cfg0.N) (hz : t.val ≠ 0) :
    acc0 V c t.val t.isLt
      = (k0_pay4 (simT0 V c t) (acc0 V c (t.val - 1) (Nat.lt_of_le_of_lt (Nat.sub_le _ _) t.isLt)).1,
         k0_pay5 (simT0 V c t) (acc0 V c (t.val - 1) (Nat.lt_of_le_of_lt (Nat.sub_le _ _) t.isLt)).2.1,
         k0_pay6 (crossT0 V c t) (sqiT0 V c t) (sqjT0 V c t)
           (acc0 V c (t.val - 1) (Nat.lt_of_le_of_lt (Nat.sub_le _ _) t.isLt)).2.2) := by
  obtain ⟨n, hn⟩ := t
  cases n with
  | zero => exact absurd rfl hz
  | succ n => rfl

/-! ## The staging buffers at a point -/

/-- Each window's current staging memref at point `t`, and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)

/-- No window being idle anywhere, the body leaves every window's buffer at the proof data's `after`. -/
theorem leavesExact0 (c : Dev nD) (w : Fin cfg0.W) (t : Fin cfg0.N) :
    (dat0 V c).leavesExact w t
      = owns (c : Thread nD τ) ((cfg0.win w).stage (cfg0.slots t w)) fullShare ((dat0 V c).after w t) := by
  unfold Dat.leavesExact; rw [idle0_false w]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 1600000 in
/-- The body at any point: the inputs' buffers hold their blocks; the closed forms of the two conditions say which
    branch runs; at the first point the results' buffers hold anything and end at the tile's extremes, at a later
    point they hold the running triple of the point before and end at this point's; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0 V c t, before0_1 V c t, before0_2 V c t, before0_3 V c t]
  rw [show (dat0 V c).Φ t.succ = (dat0 V c).Φ t.castSucc from rfl,
    show (dat0 V c).owesAt () t.succ = (dat0 V c).owesAt () t.castSucc from rfl,
    leavesExact0 V c 0 t, leavesExact0 V c 1 t, leavesExact0 V c 2 t, leavesExact0 V c 3 t,
    leavesExact0 V c 4 t, leavesExact0 V c 5 t, leavesExact0 V c 6 t,
    after0_0, after0_1, after0_2, after0_3, after0_4, after0_5, after0_6]
  by_cases hz : t.val = 0
  · have hc1 : k0_cond1 (grid0.coords t) = 1#1 := (hcond0_1 t).mpr hz
    have hc2 : ¬k0_cond2 (grid0.coords t) = 1#1 := fun h => (hcond0_2 t).mp h hz
    simp only [before0_4_first V c t hz, before0_5_first V c t hz, before0_6_first V c t hz]
    rw [acc0_first V c t hz]
    dsimp only
    unfold simT0 crossT0 sqiT0 sqjT0
    iintro ⟨HΦ, Ho, ⟨%d0, H0⟩, ⟨%d1, H1⟩, ⟨%d2, H2⟩, ⟨%d3, H3⟩, H4, H5, H6⟩
    iapply (sound_kernel0_A c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) hc1 hc2
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc1 : ¬k0_cond1 (grid0.coords t) = 1#1 := fun h => hz ((hcond0_1 t).mp h)
    have hc2 : k0_cond2 (grid0.coords t) = 1#1 := (hcond0_2 t).mpr hz
    simp only [before0_4 V c t hz, before0_5 V c t hz, before0_6 V c t hz]
    rw [acc0_later V c t hz]
    dsimp only
    unfold simT0 crossT0 sqiT0 sqjT0
    iintro ⟨HΦ, Ho, ⟨%d0, H0⟩, ⟨%d1, H1⟩, ⟨%d2, H2⟩, ⟨%d3, H3⟩, ⟨%d4, H4⟩, ⟨%d5, H5⟩, ⟨%d6, H6⟩⟩
    iapply (sound_kernel0_B c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) hc1 hc2
      (iblk0 V c 0 t) (iblk0 V c 1 t) (iblk0 V c 2 t) (iblk0 V c 3 t)
      (acc0 V c (t.val - 1) (Nat.lt_of_le_of_lt (Nat.sub_le _ _) t.isLt)).1
      (acc0 V c (t.val - 1) (Nat.lt_of_le_of_lt (Nat.sub_le _ _) t.isLt)).2.1
      (acc0 V c (t.val - 1) (Nat.lt_of_le_of_lt (Nat.sub_le _ _) t.isLt)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation for the first region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1Conds.lean ====
/-
  The second region's schedule and what its body finds, for the body obligation.

  The body has two conditionals on the column block: the first resets the two running sums where the column block is
  the first, the last stores the row losses where it is the last. Their conditions are put in closed form over the grid's
  256 points; the row-loss window is idle exactly off the last column block. Every input's staging buffer holds its
  block at every point, and the row-loss buffer is found as a fresh buffer is. The entry invariant is restated with the
  two scratch buffers as whole memrefs.
-/
import proofs.«136872_j61607010893834_1_alg».proof.Proof.KIData1
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two conditions, in closed form over the grid -/

/-- The first conditional's condition (the column block is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The last conditional's condition (the column block is the last), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the row-loss window is idle -/

/-- Off the last column block the row-loss window is idle, -/
theorem idleAt1_7 : ∀ t : Fin cfg1.N, ¬cond1_1 (grid1.coords t) → cfg1.idle 7 (grid1.coords t) = true := by decide +kernel
/-- and is not written back there; -/
theorem noFlush1_7 : ∀ t : Fin cfg1.N, ¬cond1_1 (grid1.coords t) → (cfg1.win 7).flush t = false := by decide +kernel
/-- at the last column block it is live. -/
theorem liveAt1_7 : ∀ t : Fin cfg1.N, cond1_1 (grid1.coords t) → cfg1.idle 7 (grid1.coords t) = false := by decide +kernel

/-! ## The staging memrefs at a point, as the pipeline passes them -/

abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)

/-! ## What the body finds in each window's buffer -/

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- The row-loss window's buffer holds, at every point, what a buffer nothing has filled holds: it is fresh at a row
    block's first point (the grid's first point, or the point after a write-back) and untouched through the idle points
    that follow. -/
theorem before1_7 (c : Dev nD) (t : Fin cfg1.N) (d) : (dat1 V c).before 7 t d = d := by
  induction hn : t.val using Nat.strong_induction_on generalizing t with
  | _ n ih =>
    subst hn
    have hN : t.val < 256 := lt_of_lt_of_eq t.isLt (show cfg1.N = 256 from N_1)
    by_cases h0 : t.val % 16 = 0
    · refine (dat1 V c).before_out_reset 7 rfl t ?_ d
      by_cases hz : t.val = 0
      · exact .inl hz
      · exact .inr ⟨hz, (flush1_7 _).mpr (by show (t.val - 1) % 16 = 15; omega)⟩
    · have hz : t.val ≠ 0 := fun h => h0 (by rw [h])
      have hp : ¬ (t.val - 1) % 16 = 15 := by omega
      have hnc : ¬cond1_1 (grid1.coords ⟨t.val - 1, Nat.lt_of_le_of_lt (Nat.sub_le _ _) t.isLt⟩) := fun h => hp ((hcond1_1 _).mp h)
      rw [(dat1 V c).before_of_pos 7 t hz ((cfg1.win 7).fetch_out rfl t), noFlush1_7 _ hnc, if_neg Bool.false_ne_true]
      unfold Dat.left; rw [idleAt1_7 _ hnc]
      exact ih (t.val - 1) (by omega) ⟨t.val - 1, Nat.lt_of_le_of_lt (Nat.sub_le _ _) t.isLt⟩ rfl

/-! ## The entry invariant with the two scratch buffers as memrefs -/

/-- What the launch hands the region gives the scoped buffers the region neither stages nor carries (`rest1`), the two
    scratch buffers each owned at some contents, and the generator register at some state; -/
theorem PhiA1_open (c : Dev nD) :
    (Pipeline.ΦA spec1 c : sProp 𝕄)
      ⊢ iprop(rest1 (F := F) c ∗ (∃ d, owns (c : Thread nD τ) scM1_0 fullShare d) ∗ (∃ d, owns (c : Thread nD τ) scM1_1 fullShare d) ∗ (∃ r, prngReg c r)) := by
  unfold Pipeline.ΦA; rw [scopedRest1_eq]; unfold rest1; simp only [scM1_0, scM1_1, owns_whole]
  iintro ⟨⟨A1, A2, A3, A4, A5, A6, A7, A8, A9, A10, A11, S0, S1⟩, Hg⟩
  isplitl [A1 A2 A3 A4 A5 A6 A7 A8 A9 A10 A11]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [S0]; · iexact S0
  isplitl [S1]; · iexact S1
  iexact Hg

/-- and those give it back. -/
theorem PhiA1_close (c : Dev nD) :
    iprop(rest1 (F := F) c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA; rw [scopedRest1_eq]; unfold rest1; simp only [scM1_0, scM1_1, owns_whole]
  iintro ⟨⟨A1, A2, A3, A4, A5, A6, A7, A8, A9, A10, A11⟩, S0, S1, Hg⟩
  isplitl [A1 A2 A3 A4 A5 A6 A7 A8 A9 A10 A11 S0 S1]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    iexact S1
  iexact Hg

/-- So the two are one proposition. -/
theorem PhiA1_eq (c : Dev nD) :
    (Pipeline.ΦA spec1 c : sProp 𝕄)
      = iprop(rest1 (F := F) c ∗ (∃ d, owns (c : Thread nD τ) scM1_0 fullShare d) ∗ (∃ d, owns (c : Thread nD τ) scM1_1 fullShare d) ∗ (∃ r, prngReg c r)) :=
  BI.equiv_iff.mp ⟨PhiA1_open c, PhiA1_close c⟩

/-! ## The inputs are never idle -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl
theorem liveAt1_4 (t : Fin cfg1.N) : cfg1.idle 4 (grid1.coords t) = false := rfl
theorem liveAt1_5 (t : Fin cfg1.N) : cfg1.idle 5 (grid1.coords t) = false := rfl
theorem liveAt1_6 (t : Fin cfg1.N) : cfg1.idle 6 (grid1.coords t) = false := rfl

end Cert.KernelIdeal.Hand

end
-- ==== Proof.KIBody1RunA.lean ====
/-
  The second region's body at a row block's first column block.

  There the body first overwrites the two running sums with zero, then adds the tile's row sums to them, and leaves the
  row-loss block alone. So whatever the two scratch buffers held, they end at the update of zero; every input's buffer
  and the row-loss buffer are handed back as found.
-/
import proofs.«136872_j61607010893834_1_alg».proof.Proof.KIBody1Conds
import proofs.«136872_j61607010893834_1_alg».proof.Proof.LibWholeBuffer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose column block is the first (and not the last): from the inputs' buffers at `x0 … x6`, the row-loss
    buffer at `xi7` and the two scratch buffers at anything, the body runs to the same with the scratch buffers at the
    updates of zero. -/
theorem run1_A (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : cond1_0 i) (hc1 : ¬cond1_1 i)
    (x0 x1 x2 : Vec F S1x1 .f32) (x3 x4 : Vec F S512x256 .f32) (x5 x6 : Vec F S512x128 .f32) (xi7 : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
            ∗ owns (c : Thread nD τ) arg10 fullShare (k1_pay1 (k1_pay11 x3 x4 (k1_pay6 x5 x6 x0 x1) (k1_pay7 x3) x2 k1_pay4))
            ∗ owns (c : Thread nD τ) arg11 fullShare (k1_pay2 (k1_pay10 x3 x4 (k1_pay6 x5 x6 x0 x1) (k1_pay7 x3) x2) k1_pay5)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%dP, %fP, -, HP⟩, ⟨%dQ, %fQ, -, HQ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  isplitl [HP]
  · iexists _; isplitr
    swap; · iexact HP
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  · iexists _; isplitr
    swap; · iexact HQ
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]

end Cert.KernelIdeal.Hand

end
-- ==== Proof.KIBody1RunB.lean ====
/-
  The second region's body at a column block that is neither the first nor the last.

  There the body only adds the tile's row sums to the two running sums: the scratch buffers at `P`, `Q` end at the
  updates of `P`, `Q`; every input's buffer and the row-loss buffer are handed back as found.
-/
import proofs.«136872_j61607010893834_1_alg».proof.Proof.KIBody1Conds
import proofs.«136872_j61607010893834_1_alg».proof.Proof.LibWholeBuffer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose column block is neither the first nor the last: from the inputs' buffers at `x0 … x6`, the
    row-loss buffer at `xi7` and the two scratch buffers at `P`, `Q`, the body runs to the same with the scratch
    buffers at the updates of `P`, `Q`. -/
theorem run1_B (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬cond1_0 i) (hc1 : ¬cond1_1 i)
    (x0 x1 x2 : Vec F S1x1 .f32) (x3 x4 : Vec F S512x256 .f32) (x5 x6 : Vec F S512x128 .f32) (xi7 P Q : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
        ∗ owns (c : Thread nD τ) arg10 fullShare P ∗ owns (c : Thread nD τ) arg11 fullShare Q
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare xi7
            ∗ owns (c : Thread nD τ) arg10 fullShare (k1_pay1 (k1_pay11 x3 x4 (k1_pay6 x5 x6 x0 x1) (k1_pay7 x3) x2 P))
            ∗ owns (c : Thread nD τ) arg11 fullShare (k1_pay2 (k1_pay10 x3 x4 (k1_pay6 x5 x6 x0 x1) (k1_pay7 x3) x2) Q)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fP, %hfP, HP⟩, ⟨%fQ, %hfQ, HQ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg10.eq_unread hfP; obtain rfl := harg11.eq_unread hfQ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact hf7
    iexact H7
  isplitl [HP]
  · iexists _; isplitr
    swap; · iexact HP
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  · iexists _; isplitr
    swap; · iexact HQ
    ipureintro
    rw [WholeBuffer.read_writes_cons_whole _ _ WholeBuffer.offsets_zero₂]
    sl_unfold_run_names
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]

end Cert.KernelIdeal.Hand

end
-- ==== Proof.KIBody1RunC.lean ====
/-
  The second region's body at a row block's last column block.

  There the body adds the tile's row sums to the two running sums and then stores, whole, the clamped logarithms of the
  two sums it has just left into the row-loss block: the scratch buffers at `P`, `Q` end at the updates of `P`, `Q`,
  and the row-loss buffer, whatever it held, at the row losses of those two updates.
-/
import proofs.«136872_j61607010893834_1_alg».proof.Proof.KIBody1Conds
import proofs.«136872_j61607010893834_1_alg».proof.Proof.LibWholeBuffer

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point whose column block is the last (and not the first): from the inputs' buffers at `x0 … x6`, the row-loss
    buffer at anything and the two scratch buffers at `P`, `Q`, the body runs to the inputs' as found, the scratch
    buffers at the updates of `P`, `Q` and the row-loss buffer at the row losses of the two updates. -/
theorem run1_C (c : Dev nD) (i : grid1.Coords) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬cond1_0 i) (hc1 : cond1_1 i)
    (x0 x1 x2 : Vec F S1x1 .f32) (x3 x4 : Vec F S512x256 .f32) (x5 x6 : Vec F S512x128 .f32) (P Q : Vec F S512x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ owns (c : Thread nD τ) arg10 fullShare P ∗ owns (c : Thread nD τ) arg11 fullShare Q
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6
            ∗ owns (c : Thread nD τ) arg9 fullShare (k1_pay3 (k1_pay1 (k1_pay11 x3 x4 (k1_pay6 x5 x6 x0 x1) (k1_pay7 x3) x2 P)) (k1_pay2 (k1_pay10 x3 x4 (k1_pay6 x5 x6 x0 x1) (k1_pay7 x3) x2) Q))
            ∗ owns (c : Thread nD τ) arg10 fullShare (k1_pay1 (k1_pay11 x3 x4 (k1_pay6 x5 x6 x0 x1) (k1_pay7 x3) x2 P))
            ∗ owns (c : Thread nD τ) arg11 fullShare (k1_pay2 (k1_pay10 x3 x4 (k1_pay6 x5 x6 x0 x1) (k1_pay7 x3) x2) Q)) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fP, %hfP, HP⟩, ⟨%fQ, %hfQ, HQ⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg10.eq_unread hfP; obtain rfl := harg11.eq_unread hfQ
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_run_names
    rw [WholeBuffer.read_writes_cons_whole _ _ WholeBuffer.offsets_zero₂]
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  isplitl [HP]
  · iexists _; isplitr
    swap; · iexact HP
    ipureintro
    sl_unfold_run_names
    rw [WholeBuffer.read_writes_cons_whole _ _ WholeBuffer.offsets_zero₂]
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]
  · iexists _; isplitr
    swap; · iexact HQ
    ipureintro
    sl_unfold_run_names
    rw [WholeBuffer.read_writes_cons_whole _ _ WholeBuffer.offsets_zero₂]
    simp only [View.readCov_cons_toLoadRect, WholeBuffer.readAt_whole_unread harg2 WholeBuffer.offsets_zero₂, WholeBuffer.readAt_whole_unread harg3 WholeBuffer.offsets_zero₂, WholeBuffer.readAt_whole_unread harg4 WholeBuffer.offsets_zero₂, WholeBuffer.readAt_whole_unread harg5 WholeBuffer.offsets_zero₂, WholeBuffer.readAt_whole_unread harg6 WholeBuffer.offsets_zero₂, WholeBuffer.readAt_whole_unread harg7 WholeBuffer.offsets_zero₂, WholeBuffer.readAt_whole_unread harg8 WholeBuffer.offsets_zero₂, WholeBuffer.readAt_whole_unread harg10 WholeBuffer.offsets_zero₂, WholeBuffer.readAt_whole_unread harg11 WholeBuffer.offsets_zero₂]

end Cert.KernelIdeal.Hand

end
-- ==== Proof.KIBody1.lean ====
/-
  The second region's body obligation.

  At every grid point the body, handed the invariant, each input's staging buffer at its block and the row-loss buffer
  at what it held, runs to the invariant at the next point, the inputs' buffers as found and the row-loss buffer at the
  row losses where the column block is the last, untouched elsewhere. The point is in one of three cases by its column
  block (first, neither, last); in each the body's run for that case applies, and the two scratch buffers end
  at the running sums `acc1` names there: the update of zero at a first column block, the update of what the point
  before left elsewhere. At the grid's first point the scratch buffers come out of the entry invariant at anything,
  which the first column block's reset overwrites.
-/
import proofs.«136872_j61607010893834_1_alg».proof.Proof.KIBody1RunA
import proofs.«136872_j61607010893834_1_alg».proof.Proof.KIBody1RunB
import proofs.«136872_j61607010893834_1_alg».proof.Proof.KIBody1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- What the body is called with at point `t`: the invariant, what the core owes, each window's buffer at what it holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point, by the point's column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 16 = 0
  · have h1 : ¬ t.val % 16 = 15 := by omega
    rw [Dat.leavesExact_idle (dat1 V c) 7 t (idleAt1_7 t (fun h => h1 ((hcond1_1 t).mp h))) (noFlush1_7 t (fun h => h1 ((hcond1_1 t).mp h)))]
    rw [show (acc1 V c t.val t.isLt).1 = posStep1 V c t k1_pay4 from congrArg Prod.fst (acc1_first V c t h0),
      show (acc1 V c t.val t.isLt).2 = negStep1 V c t k1_pay5 from congrArg Prod.snd (acc1_first V c t h0)]
    unfold posStep1 negStep1 simnT1 sqT1
    by_cases hz : t.val = 0
    ·
      rw [PhiS1_castSucc V c t, PhiS1_zero V c _ _ hz, PhiA1_eq]
      iintro ⟨⟨Hrest, ⟨%dS0, HS0⟩, ⟨%dS1, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    ·
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [show (acc1 V c t.val t.isLt).1 = posStep1 V c t (acc1 V c (t.val - 1) (Nat.lt_of_le_of_lt (Nat.sub_le _ _) t.isLt)).1 from congrArg Prod.fst (acc1_next V c t h0),
        show (acc1 V c t.val t.isLt).2 = negStep1 V c t (acc1 V c (t.val - 1) (Nat.lt_of_le_of_lt (Nat.sub_le _ _) t.isLt)).2 from congrArg Prod.snd (acc1_next V c t h0)]
      unfold posStep1 negStep1 simnT1 sqT1
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idleAt1_7 t (fun h => h1 ((hcond1_1 t).mp h))) (noFlush1_7 t (fun h => h1 ((hcond1_1 t).mp h)))]
      rw [show (acc1 V c t.val t.isLt).1 = posStep1 V c t (acc1 V c (t.val - 1) (Nat.lt_of_le_of_lt (Nat.sub_le _ _) t.isLt)).1 from congrArg Prod.fst (acc1_next V c t h0),
        show (acc1 V c t.val t.isLt).2 = negStep1 V c t (acc1 V c (t.val - 1) (Nat.lt_of_le_of_lt (Nat.sub_le _ _) t.isLt)).2 from congrArg Prod.snd (acc1_next V c t h0)]
      unfold posStep1 negStep1 simnT1 sqT1
      rw [PhiS1_castSucc V c t, PhiS1_pos V c _ _ hz]
      iintro ⟨⟨Hrest, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [Hrest HS0 HS1 Hg]
      · isplitl [Hrest]; · iexact Hrest
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the running sums' values are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hrest, HS0, HS1, Hg⟩
  isplitl [Hrest]; · iexact Hrest
  isplitl [HS0]; · iexists _; iexact HS0
  isplitl [HS1]; · iexists _; iexact HS1
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 256 := N_1; omega)

end Cert.KernelIdeal.Hand

end
-- ==== Proof.Spec.lean ====
/-
  The loss both programs compute, as one function of the two argument arrays on the extended reals.

  For outputs `o : 8192 × 256` and labels `l : 8192 × 128`:
  * each label row is divided by (its Euclidean norm + ε), ε the binary32 word of 1e-12; `sim i j` is the inner
    product of normalised rows `i` and `j`; `smin` / `smax` its least and greatest entry over all pairs;
  * `d2 i j = max (|o_i|² + |o_j|² − 2 ⟨o_i, o_j⟩) 0`, `eud i j = √(d2 if d2 > 0 else 1) · [d2 > 0]`, `emax` its
    greatest entry;
  * `dist = eud / emax + (sim − smin) / (smax − smin)`; a pair is positive when the normalised similarity exceeds 1/2;
  * per row the positive pairs' `exp dist` and the other pairs' `exp (1 − dist)` are summed, the logarithms of the two
    sums are clamped below at 0 and added; the result is the mean of the rows' losses.
  Every operation is the exact one on `EReal` (`Ideal.div`, `Ideal.sqrt`, `Ideal.exp`, `Ideal.log`), every literal the
  value of its binary32 word.
-/
import Idealize.ShloMosaic.PureOps.Ideal

noncomputable section

namespace Cert.Spec

open Idealize.ShloMosaic

/-- The binary32 literals of the two programs, by their words. -/
def eps : EReal := Ideal.ofBits .f32 0x2B8CBCCC#32
def two : EReal := Ideal.ofBits .f32 0x40000000#32
def one : EReal := Ideal.ofBits .f32 0x3F800000#32
def zero : EReal := Ideal.ofBits .f32 0x00000000#32
def half : EReal := Ideal.ofBits .f32 0x3F000000#32
def cnt : EReal := Ideal.ofBits .f32 0x46000000#32

variable (o : Fin 8192 → Fin 256 → EReal) (l : Fin 8192 → Fin 128 → EReal)

/-- A label row's Euclidean norm plus ε. -/
def nrm (i : Fin 8192) : EReal := Ideal.sqrt (∑ c : Fin 128, l i c * l i c) + eps
/-- The normalised label rows. -/
def ln (i : Fin 8192) (c : Fin 128) : EReal := Ideal.div (l i c) (nrm l i)
/-- The cosine-similarity matrix. -/
def sim (i j : Fin 8192) : EReal := ∑ c : Fin 128, ln l i c * ln l j c
/-- A row's squared norm, and two rows' inner product. -/
def sq (i : Fin 8192) : EReal := ∑ d : Fin 256, o i d * o i d
def cross (i j : Fin 8192) : EReal := ∑ d : Fin 256, o i d * o j d
/-- The clamped squared distance (Gram form) and the safe square root of it. -/
def d2 (i j : Fin 8192) : EReal := max (sq o i + sq o j - two * cross o i j) zero
def eud (i j : Fin 8192) : EReal :=
  Ideal.sqrt (if zero < d2 o i j then d2 o i j else one) * (if zero < d2 o i j then (1 : EReal) else 0)
/-- The three global extremes. -/
def smin : EReal := ⨅ i : Fin 8192, ⨅ j : Fin 8192, sim l i j
def smax : EReal := ⨆ i : Fin 8192, ⨆ j : Fin 8192, sim l i j
def emax : EReal := ⨆ i : Fin 8192, ⨆ j : Fin 8192, eud o i j
/-- Min-max normalised similarity, the distance, and the two masked exponentials. -/
def simn (i j : Fin 8192) : EReal := Ideal.div (sim l i j - smin l) (smax l - smin l)
def dist (i j : Fin 8192) : EReal := Ideal.div (eud o i j) (emax o) + simn l i j
def ep (i j : Fin 8192) : EReal := if half < simn l i j then Ideal.exp (dist o l i j) else zero
def en (i j : Fin 8192) : EReal := if half < simn l i j then zero else Ideal.exp (one - dist o l i j)
/-- A row's loss and the mean over the rows. -/
def loss (i : Fin 8192) : EReal :=
  max (Ideal.log (∑ j : Fin 8192, ep o l i j)) zero + max (Ideal.log (∑ j : Fin 8192, en o l i j)) zero
def result : EReal := Ideal.div (∑ i : Fin 8192, loss o l i) cnt

end Cert.Spec

end
-- ==== Proof.KIIdx.lean ====
/-
  The vocabulary of the value proofs: the two argument arrays as functions of their coordinates, and the rows and
  columns of the pair space a grid point's tile covers — point `n` of the 16 × 16 grid has row block `n / 16` and column
  block `n % 16`, each of 512 consecutive rows.
-/
import proofs.«136872_j61607010893834_1_alg».proof.Proof.KIData0
import proofs.«136872_j61607010893834_1_alg».proof.Proof.KIData1
import proofs.«136872_j61607010893834_1_alg».proof.Proof.Spec
import Idealize.ShloMosaic.Lib.ValueIdx

noncomputable section

namespace Cert.KernelIdeal.Val

open Cert.KernelIdeal Idealize.ShloMosaic Idealize.ShloMosaic.TcCoe Idealize.ShloMosaic.ValueIdx

/-- The outputs array of a valuation, entry `(a, d)`. -/
def oOf (V : (c : Dev nD) → (b : Ref sig .tc) → Buf (Elt Ideal) ((c : Thread nD τ).loc b)) (c : Dev nD) :
    Fin 8192 → Fin 256 → EReal := fun a d => (V c main_arg0 : S8192x256.Idx → EReal) (ix2 a d)
/-- The labels array of a valuation, entry `(a, k)`. -/
def lOf (V : (c : Dev nD) → (b : Ref sig .tc) → Buf (Elt Ideal) ((c : Thread nD τ).loc b)) (c : Dev nD) :
    Fin 8192 → Fin 128 → EReal := fun a k => (V c main_arg1 : S8192x128.Idx → EReal) (ix2 a k)

/-- Row `r` of grid point `n`'s tile, as a row of the pair space. -/
def row (n : ℕ) (hn : n < 256) (r : Fin 512) : Fin 8192 := ⟨512 * (n / 16) + r.val, by omega⟩
/-- Column `s` of grid point `n`'s tile, as a column of the pair space. -/
def col (n : ℕ) (hn : n < 256) (s : Fin 512) : Fin 8192 := ⟨512 * (n % 16) + s.val, by omega⟩

theorem row_val (n : ℕ) (hn : n < 256) (r : Fin 512) : (row n hn r).val = 512 * (n / 16) + r.val := rfl
theorem col_val (n : ℕ) (hn : n < 256) (s : Fin 512) : (col n hn s).val = 512 * (n % 16) + s.val := rfl

/-- A grid point's position is below 256. -/
theorem lt0 (t : Fin cfg0.N) : t.val < 256 := lt_of_lt_of_eq t.isLt (by decide)
theorem lt1 (t : Fin cfg1.N) : t.val < 256 := lt_of_lt_of_eq t.isLt (by decide)

end Cert.KernelIdeal.Val

end
-- ==== Proof.KIVal0TileBlk.lean ====
/-
  The blocks a grid point of the first region sees, read off the two argument arrays: point `t` has row block
  `t / 16` and column block `t % 16`; element `(r, k)` of the row (column) block of an array is the array's entry
  at row `512 · (t / 16) + r` (`512 · (t % 16) + r`), column `k`.
-/
import proofs.«136872_j61607010893834_1_alg».proof.Proof.KIIdx

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

/-- The printed index maps of the four input windows, decided over the grid. -/
theorem idx_in0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0 :=
  (by decide +kernel : ∀ t : Fin grid0.N, _)

/-- The labels' row block. -/
theorem blk2 (c : Dev nD) (t : Fin cfg0.N) (r : Fin 512) (k : Fin 128) :
    iblk0 V c 2 t (ix2 r k) = lOf V c (row t.val (lt0 t) r) k := by
  obtain ⟨-, -, -, -, e0, e1, -, -⟩ := idx_in0 t
  show V c main_arg1 (((cfg0.win 2).blk t).view.emb (ix2 r k)) = V c main_arg1 (ix2 (row t.val (lt0 t) r) k)
  refine congrArg _ (funext fun a => Fin.ext ?_)
  match a with
  | ⟨0, _⟩ => show win0_2.index t (0 : Fin 2) * 512 + 1 * r.val = 512 * (t.val / 16) + r.val; omega
  | ⟨1, _⟩ => show win0_2.index t (1 : Fin 2) * 128 + 1 * k.val = k.val; omega

/-- The labels' column block. -/
theorem blk3 (c : Dev nD) (t : Fin cfg0.N) (s : Fin 512) (k : Fin 128) :
    iblk0 V c 3 t (ix2 s k) = lOf V c (col t.val (lt0 t) s) k := by
  obtain ⟨-, -, -, -, -, -, e0, e1⟩ := idx_in0 t
  show V c main_arg1 (((cfg0.win 3).blk t).view.emb (ix2 s k)) = V c main_arg1 (ix2 (col t.val (lt0 t) s) k)
  refine congrArg _ (funext fun a => Fin.ext ?_)
  match a with
  | ⟨0, _⟩ => show win0_3.index t (0 : Fin 2) * 512 + 1 * s.val = 512 * (t.val % 16) + s.val; omega
  | ⟨1, _⟩ => show win0_3.index t (1 : Fin 2) * 128 + 1 * k.val = k.val; omega

/-- The outputs' row block. -/
theorem blk0 (c : Dev nD) (t : Fin cfg0.N) (r : Fin 512) (d : Fin 256) :
    iblk0 V c 0 t (ix2 r d) = oOf V c (row t.val (lt0 t) r) d := by
  obtain ⟨e0, e1, -, -, -, -, -, -⟩ := idx_in0 t
  show V c main_arg0 (((cfg0.win 0).blk t).view.emb (ix2 r d)) = V c main_arg0 (ix2 (row t.val (lt0 t) r) d)
  refine congrArg _ (funext fun a => Fin.ext ?_)
  match a with
  | ⟨0, _⟩ => show win0_0.index t (0 : Fin 2) * 512 + 1 * r.val = 512 * (t.val / 16) + r.val; omega
  | ⟨1, _⟩ => show win0_0.index t (1 : Fin 2) * 256 + 1 * d.val = d.val; omega

/-- The outputs' column block. -/
theorem blk1 (c : Dev nD) (t : Fin cfg0.N) (s : Fin 512) (d : Fin 256) :
    iblk0 V c 1 t (ix2 s d) = oOf V c (col t.val (lt0 t) s) d := by
  obtain ⟨-, -, e0, e1, -, -, -, -⟩ := idx_in0 t
  show V c main_arg0 (((cfg0.win 1).blk t).view.emb (ix2 s d)) = V c main_arg0 (ix2 (col t.val (lt0 t) s) d)
  refine congrArg _ (funext fun a => Fin.ext ?_)
  match a with
  | ⟨0, _⟩ => show win0_1.index t (0 : Fin 2) * 512 + 1 * s.val = 512 * (t.val % 16) + s.val; omega
  | ⟨1, _⟩ => show win0_1.index t (1 : Fin 2) * 256 + 1 * d.val = d.val; omega

end Cert.KernelIdeal.Val

end
-- ==== Proof.LibRank3.lean ====
/-
  Layout operations and one-axis reductions of rank-3 arrays read at an index written by coordinates.

  A reduction of `[a, b, c]` over its middle or its last axis with kept dimensions comes back over the reduced
  axis through a cast to `[a, 1, c]` (or `[a, b, 1]`) and a broadcast to `[a, b, c]`; the same two steps carry a
  matrix `[a, b]` along a new last axis (`[a, b] → [a, b, 1] → [a, b, c]`) or along a new middle axis
  (`[a, c] → [a, 1, c] → [a, b, c]`). Each is read here at `(i, j, k)`. The reductions: at the ideal values a sum
  over one axis is the `Fin`-indexed sum over that axis's coordinates, and a maximum over the last axis of a matrix
  is the fold of `max` over them. General lemmas: any extents.
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix carried along a new last axis: `[a, b] → [a, b, 1] → [a, b, c]` at `(i, j, k)` is the matrix at `(i, j)`. -/
theorem keepLast_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x h) h' (ix3 i j k) = x (ix2 i j) :=
  (broadcastTo_ab1_abc_apply _ h' i j k).trans (shapeCast_ab_ab1_apply x h i j 0)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A matrix carried along a new middle axis: `[a, c] → [a, 1, c] → [a, b, c]` at `(i, j, k)` is the matrix at `(i, k)`. -/
theorem keepMid_apply {a b c : ℕ} (x : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x h) h' (ix3 i j k) = x (ix2 i k) :=
  (broadcastTo_a1c_abc_apply _ h' i j k).trans (shapeCast_ac_a1c_apply x h i 0 k)

/-! ## One-axis reductions at the ideal values, at coordinates -/

variable {φ : FTy}

/-- The sum of an `[a, b]` matrix over its last axis, at row `i`. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ j : Fin b, src (ix2 i j) :=
  (Ideal.multiReduction_add_single src acc h hφ hacc (ix1 i)).trans
    (Finset.sum_congr rfl fun j _ => congrArg src (funext fun d => Fin.ext (by
      match d with | ⟨0, _⟩ => rfl | ⟨1, _⟩ => rfl)))

/-- The maximum of an `[a, b]` matrix over its last axis, at row `i`: the fold of `max` from the accumulator's value. -/
theorem max_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun j => src (ix2 i j)) :=
  (Ideal.multiReduction_maximumf_single src acc h hφ hacc (ix1 i)).trans
    (congrArg (Finset.fold max (Ideal.ofBits φ acc) · (Finset.univ : Finset (Fin b)))
      (funext fun j => congrArg src (funext fun d => Fin.ext (by
        match d with | ⟨0, _⟩ => rfl | ⟨1, _⟩ => rfl))))

/-- The sum of an `[a, b, c]` array over its middle axis, at `(i, k)`. -/
theorem sum_mid3 {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (funext fun d => Fin.ext (by
      match d with | ⟨0, _⟩ => rfl | ⟨1, _⟩ => rfl | ⟨2, _⟩ => rfl)))

/-- The sum of an `[a, b, c]` array over its last axis, at `(i, j)`. -/
theorem sum_last3 {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun d => Fin.ext (by
      match d with | ⟨0, _⟩ => rfl | ⟨1, _⟩ => rfl | ⟨2, _⟩ => rfl)))

end Cert.LibRank3
-- ==== Proof.LibMinReduce.lean ====
import Idealize.ShloMosaic.PureOps.Ideal.Laws

/-!
A minimum reduction over one axis, read at an index, at the exact instance: the fold of `min` from the
accumulator's value over that axis's coordinates. General: any rank, axis, extents and float type.
-/

namespace Cert.LibMinReduce

open Idealize.ShloMosaic

variable {φ : FTy}

/-- A float `vector.multi_reduction <minimumf>` over one axis at the exact instance: the fold of `min` from the
    accumulator's value over that axis's coordinates (the result index with the coordinate inserted on the
    reduced axis). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

end Cert.LibMinReduce
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KIVal0TileExt.lean ====
/-
  The two-step extreme of a 512 × 512 tile: the minimum (maximum) along each row, the column of row extremes, and the
  minimum (maximum) of that column — the least (greatest) entry of the tile, as an infimum (supremum) over rows and
  columns. A fold of `min` from `⊤` (of `max` from `⊥`) over all of `Fin n` is the infimum (supremum).
-/
import proofs.«136872_j61607010893834_1_alg».proof.Proof.Gen.KernelIdeal.Skeleton
import proofs.«136872_j61607010893834_1_alg».proof.Proof.LibRank3
import proofs.«136872_j61607010893834_1_alg».proof.Proof.LibMinReduce
import proofs.«136872_j61607010893834_1_alg».proof.Proof.LibKeepdims
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx

/-- A fold of `max` from `⊥` over all of `Fin n` is the supremum. -/
theorem fold_max_bot {n : ℕ} (f : Fin n → EReal) : (Finset.univ : Finset (Fin n)).fold max ⊥ f = ⨆ i, f i :=
  le_antisymm ((Finset.fold_max_le _).2 ⟨bot_le, fun x _ => le_iSup f x⟩)
    (iSup_le fun i => (Finset.le_fold_max _).2 (Or.inr ⟨i, Finset.mem_univ i, le_rfl⟩))

/-- A fold of `min` from `⊤` over all of `Fin n` is the infimum. -/
theorem fold_min_top {n : ℕ} (f : Fin n → EReal) : (Finset.univ : Finset (Fin n)).fold min ⊤ f = ⨅ i, f i :=
  le_antisymm (le_iInf fun i => (Finset.fold_min_le _).2 (Or.inr ⟨i, Finset.mem_univ i, le_rfl⟩))
    ((Finset.le_fold_min _).2 ⟨le_top, fun x _ => iInf_le f x⟩)

/-- The two infinite words. -/
theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

/-- The maximum over the last axis of a matrix, from `−∞`, at row `i`. -/
theorem max_last2_iSup {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i) = ⨆ j : Fin b, src (ix2 i j) := by
  refine (Cert.LibRank3.max_last2 src _ h hφ hacc i).trans ?_
  rw [ofBits_negInf]
  exact fold_max_bot _

/-- The minimum over the last axis of a matrix, from `+∞`, at row `i`. -/
theorem min_last2_iInf {a b : ℕ} (src : FVec Ideal ⟨2, ![a, b]⟩ .f32)
    (h : (⟨2, ![a, b]⟩ : Shape).Reduces [1] ⟨1, ![a]⟩) (hφ : FKind.Formats .f32)
    (hacc : (0x7F800000#32 : BitVec 32) = FKind.minimumf.neutral .f32 hφ) (i : Fin a) :
    multiReduction .minimumf [1] ⟨1, ![a]⟩ src 0x7F800000#32 h hφ hacc (ix1 i) = ⨅ j : Fin b, src (ix2 i j) := by
  refine (Cert.LibMinReduce.multiReduction_minimumf_single src _ h hφ hacc (ix1 i)).trans ?_
  show (Finset.univ : Finset (Fin b)).fold min (Ideal.ofBits .f32 0x7F800000#32) (src ∘ h.lift (ix1 i)) = _
  rw [ofBits_posInf]
  refine (fold_min_top _).trans ?_
  exact iInf_congr fun j => congrArg src (funext fun d => Fin.ext (by
    match d with | ⟨0, _⟩ => rfl | ⟨1, _⟩ => rfl))

/-- The maximum over the first axis of a matrix, from `−∞`, at column `j`. -/
theorem max_first2_iSup {a b : ℕ} (src : FVec Ideal ⟨2, ![a, b]⟩ .f32)
    (h : (⟨2, ![a, b]⟩ : Shape).Reduces [0] ⟨1, ![b]⟩) (hφ : FKind.Formats .f32)
    (hacc : (0xFF800000#32 : BitVec 32) = FKind.maximumf.neutral .f32 hφ) (j : Fin b) :
    multiReduction .maximumf [0] ⟨1, ![b]⟩ src 0xFF800000#32 h hφ hacc (ix1 j) = ⨆ i : Fin a, src (ix2 i j) := by
  refine (Ideal.multiReduction_maximumf_single src _ h hφ hacc (ix1 j)).trans ?_
  show (Finset.univ : Finset (Fin a)).fold max (Ideal.ofBits .f32 0xFF800000#32) (src ∘ h.lift (ix1 j)) = _
  rw [ofBits_negInf]
  refine (fold_max_bot _).trans ?_
  exact iSup_congr fun i => congrArg src (funext fun d => Fin.ext (by
    match d with | ⟨0, _⟩ => rfl | ⟨1, _⟩ => rfl))

/-- The minimum over the first axis of a matrix, from `+∞`, at column `j`. -/
theorem min_first2_iInf {a b : ℕ} (src : FVec Ideal ⟨2, ![a, b]⟩ .f32)
    (h : (⟨2, ![a, b]⟩ : Shape).Reduces [0] ⟨1, ![b]⟩) (hφ : FKind.Formats .f32)
    (hacc : (0x7F800000#32 : BitVec 32) = FKind.minimumf.neutral .f32 hφ) (j : Fin b) :
    multiReduction .minimumf [0] ⟨1, ![b]⟩ src 0x7F800000#32 h hφ hacc (ix1 j) = ⨅ i : Fin a, src (ix2 i j) := by
  refine (Cert.LibMinReduce.multiReduction_minimumf_single src _ h hφ hacc (ix1 j)).trans ?_
  show (Finset.univ : Finset (Fin a)).fold min (Ideal.ofBits .f32 0x7F800000#32) (src ∘ h.lift (ix1 j)) = _
  rw [ofBits_posInf]
  refine (fold_min_top _).trans ?_
  exact iInf_congr fun i => congrArg src (funext fun d => Fin.ext (by
    match d with | ⟨0, _⟩ => rfl | ⟨1, _⟩ => rfl))

/-- The least entry of a tile, by the two-step minimum. -/
theorem pay1_eq (T : FVec Ideal S512x512 .f32) :
    k0_pay1 (F := Ideal) T = fun _ => ⨅ r : Fin 512, ⨅ s : Fin 512, T (ix2 r s) := by
  funext j
  obtain ⟨p, q, rfl⟩ : ∃ (p : Fin 1) (q : Fin 1), j = ix2 p q := ⟨j 0, j 1, eq_ix2 j⟩
  unfold k0_pay1
  refine (Cert.LibKeepdims.shapeCast_a_a1_apply _ _ p q).trans ?_
  refine (min_first2_iInf _ _ _ _ p).trans ?_
  refine iInf_congr fun r => ?_
  refine (Cert.LibKeepdims.shapeCast_a_a1_apply _ _ r p).trans ?_
  exact min_last2_iInf T _ _ _ r

/-- The greatest entry of a tile, by the two-step maximum. -/
theorem pay2_eq (T : FVec Ideal S512x512 .f32) :
    k0_pay2 (F := Ideal) T = fun _ => ⨆ r : Fin 512, ⨆ s : Fin 512, T (ix2 r s) := by
  funext j
  obtain ⟨p, q, rfl⟩ : ∃ (p : Fin 1) (q : Fin 1), j = ix2 p q := ⟨j 0, j 1, eq_ix2 j⟩
  unfold k0_pay2
  refine (Cert.LibKeepdims.shapeCast_a_a1_apply _ _ p q).trans ?_
  refine (max_first2_iSup _ _ _ _ p).trans ?_
  refine iSup_congr fun r => ?_
  refine (Cert.LibKeepdims.shapeCast_a_a1_apply _ _ r p).trans ?_
  exact max_last2_iSup T _ _ _ r

end Cert.KernelIdeal.Val

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.KIVal0TileSim.lean ====
/-
  The tile of similarities of two label blocks, entry by entry: each block's rows are divided by (their Euclidean
  norm + ε), and entry `(r, s)` is the inner product of normalised row `r` of the first block with normalised row
  `s` of the second.
-/
import proofs.«136872_j61607010893834_1_alg».proof.Proof.Gen.KernelIdeal.Skeleton
import proofs.«136872_j61607010893834_1_alg».proof.Proof.Spec
import proofs.«136872_j61607010893834_1_alg».proof.Proof.LibRank3
import proofs.«136872_j61607010893834_1_alg».proof.Proof.LibKeepdims
import proofs.«136872_j61607010893834_1_alg».proof.Proof.LibPlainDot
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.ValueIdx

/-- Row `r` of a label block, normalised: each entry over (the row's Euclidean norm + ε). -/
def lnB (A : S512x128.Idx → EReal) (r : Fin 512) (k : Fin 128) : EReal :=
  Ideal.div (A (ix2 r k)) (Ideal.sqrt (∑ q : Fin 128, A (ix2 r q) * A (ix2 r q)) + Cert.Spec.eps)

/-- The body's row normalisation of a block, at an entry. -/
theorem rownorm_apply (A : FVec Ideal S512x128 .f32) (h1 : S512x128.Reduces [1] S512) (hφ : FKind.Formats .f32)
    (hacc : (0x00000000#32 : BitVec 32) = FKind.add.neutral .f32 hφ) (h2 : S512.ShapeCasts S512x1)
    (h3 : S512x1.Broadcasts S512x128) (r : Fin 512) (k : Fin 128) :
    divf A (broadcastTo S512x128 (addf (sqrt (shapeCast S512x1 (multiReduction .add [1] S512 (mulf A A) 0x00000000#32 h1 hφ hacc) h2))
      (broadcast S512x1 (Scalar.ofBits .f32 0x2B8CBCCC#32))) h3) (ix2 r k) = lnB A r k := by
  show Ideal.div (A (ix2 r k)) (broadcastTo S512x128 _ h3 (ix2 r k)) = _
  refine congrArg (Ideal.div (A (ix2 r k))) ?_
  refine (Cert.LibKeepdims.broadcastTo_a1_ab_apply _ h3 r k).trans ?_
  show Ideal.sqrt (shapeCast S512x1 _ h2 (ix2 r (0 : Fin 1))) + Cert.Spec.eps = _
  refine congrArg (fun x => Ideal.sqrt x + Cert.Spec.eps) ?_
  refine (Cert.LibKeepdims.shapeCast_a_a1_apply _ h2 r 0).trans ?_
  exact Cert.LibRank3.sum_last2 (mulf A A) _ h1 hφ hacc r

/-- The similarity tile at entry `(r, s)`. -/
theorem pay7_apply (A B : FVec Ideal S512x128 .f32) (r s : Fin 512) :
    k0_pay7 (F := Ideal) A B (ix2 r s) = ∑ k : Fin 128, lnB A r k * lnB B s k := by
  unfold k0_pay7
  refine (Cert.PlainDot.matmul_zero_ix2 _ rfl none _ _ r s).trans ?_
  refine Finset.sum_congr rfl fun k _ => ?_
  refine congrArg₂ (· * ·) ?_ ?_
  · exact rownorm_apply A _ _ _ _ _ r k
  · refine (transpose_ix2_apply _ _ k s).trans ?_
    exact rownorm_apply B _ _ _ _ _ s k

end Cert.KernelIdeal.Val

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.KIVal0TileOut.lean ====
/-
  The three tiles the distance is formed from, entry by entry, for two blocks of output rows: the inner products of
  rows of the first block with rows of the second, the squared norms of the first block's rows carried along each
  row of the tile, and the squared norms of the second block's rows carried down each column.
-/
import proofs.«136872_j61607010893834_1_alg».proof.Proof.Gen.KernelIdeal.Skeleton
import proofs.«136872_j61607010893834_1_alg».proof.Proof.LibRank3
import proofs.«136872_j61607010893834_1_alg».proof.Proof.LibKeepdims
import proofs.«136872_j61607010893834_1_alg».proof.Proof.LibRowBroadcast
import proofs.«136872_j61607010893834_1_alg».proof.Proof.LibPlainDot
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen
open Idealize.ShloMosaic Idealize.ShloMosaic.ValueIdx

/-- The tile of inner products at entry `(r, s)`. -/
theorem pay8_apply (A B : FVec Ideal S512x256 .f32) (r s : Fin 512) :
    k0_pay8 (F := Ideal) A B (ix2 r s) = ∑ d : Fin 256, A (ix2 r d) * B (ix2 s d) := by
  unfold k0_pay8
  refine (Cert.PlainDot.matmul_zero_ix2 _ rfl none _ _ r s).trans ?_
  refine Finset.sum_congr rfl fun d _ => ?_
  refine congrArg₂ (· * ·) rfl ?_
  exact (transpose_ix2_apply _ _ d s).trans rfl

/-- The first block's squared row norms, at entry `(r, s)`. -/
theorem pay9_apply (A : FVec Ideal S512x256 .f32) (r s : Fin 512) :
    k0_pay9 (F := Ideal) A (ix2 r s) = ∑ d : Fin 256, A (ix2 r d) * A (ix2 r d) := by
  unfold k0_pay9
  refine (Cert.LibKeepdims.broadcastTo_a1_ab_apply _ _ r s).trans ?_
  refine (Cert.LibKeepdims.shapeCast_a_a1_apply _ _ r 0).trans ?_
  exact Cert.LibRank3.sum_last2 (mulf A A) _ _ _ _ r

/-- The second block's squared row norms, at entry `(r, s)`. -/
theorem pay10_apply (B : FVec Ideal S512x256 .f32) (r s : Fin 512) :
    k0_pay10 (F := Ideal) B (ix2 r s) = ∑ d : Fin 256, B (ix2 s d) * B (ix2 s d) := by
  unfold k0_pay10
  refine (Cert.LibRowBroadcast.broadcastTo_1b_ab_apply _ _ r s).trans ?_
  refine (transpose_ix2_apply _ _ (0 : Fin 1) s).trans ?_
  refine (Cert.LibKeepdims.shapeCast_a_a1_apply _ _ s 0).trans ?_
  exact Cert.LibRank3.sum_last2 (mulf B B) _ _ _ _ s

end Cert.KernelIdeal.Val

end
-- ==== Proof.KIVal0TileEud.lean ====
/-
  The greatest distance of a tile. From the tile of inner products `x` and the two tiles of squared norms `y`, `z`
  the body forms, entry by entry, the clamped squared distance `max (y + z − 2 x) 0`, its safe square root — the
  root of the squared distance where that is positive, of one elsewhere — times the indicator of positivity, and
  then the two-step maximum of these entries.
-/
import proofs.«136872_j61607010893834_1_alg».proof.Proof.KIVal0TileExt
import proofs.«136872_j61607010893834_1_alg».proof.Proof.Spec

noncomputable section

namespace Cert.KernelIdeal.Val

open Cert.KernelIdeal Cert.KernelIdeal.Gen
open Idealize.ShloMosaic Idealize.ShloMosaic.ValueIdx

/-- The clamped squared distance from an inner product `x` and two squared norms `y`, `z`. -/
def d2B (x y z : EReal) : EReal := max (y + z - Cert.Spec.two * x) Cert.Spec.zero
/-- The safe square root of it, zero where the squared distance is not positive. -/
def eudB (x y z : EReal) : EReal :=
  Ideal.sqrt (if Cert.Spec.zero < d2B x y z then d2B x y z else Cert.Spec.one)
    * (if Cert.Spec.zero < d2B x y z then (1 : EReal) else 0)

/-- The tile of distances the body forms before reducing it. -/
def eudT (v37 v38 v39 : FVec Ideal S512x512 .f32) : FVec Ideal S512x512 .f32 :=
  have v40 : FVec Ideal S512x512 .f32 := addf v38 v39
  have cst_15 : Ideal .f32 := Scalar.ofBits .f32 0x40000000#32
  have v41 : FVec Ideal S512x512 .f32 := broadcast S512x512 cst_15
  have v42 : FVec Ideal S512x512 .f32 := mulf v41 v37
  have v43 : FVec Ideal S512x512 .f32 := subf v40 v42
  have cst_16 : Ideal .f32 := Scalar.ofBits .f32 0x00000000#32
  have v44 : FVec Ideal S512x512 .f32 := broadcast S512x512 cst_16
  have v45 : FVec Ideal S512x512 .f32 := maximumf v43 v44
  have cst_17 : Ideal .f32 := Scalar.ofBits .f32 0x00000000#32
  have v46 : FVec Ideal S512x512 .f32 := broadcast S512x512 cst_17
  have v47 : IVec S512x512 1 := cmpf .ogt v45 v46
  have cst_18 : Ideal .f32 := Scalar.ofBits .f32 0x3F800000#32
  have v48 : FVec Ideal S512x512 .f32 := broadcast S512x512 cst_18
  have v49 : FVec Ideal S512x512 .f32 := select v47 v45 v48
  have v50 : FVec Ideal S512x512 .f32 := sqrt v49
  have v51 : IVec S512x512 32 := extui 32 v47 natLt_1_32
  have v52 : FVec Ideal S512x512 .f32 := sitofp .f32 v51
  mulf v50 v52

/-- The body's greatest distance is the two-step maximum of that tile. -/
theorem pay3_eq_pay2 (v37 v38 v39 : FVec Ideal S512x512 .f32) :
    k0_pay3 (F := Ideal) v37 v38 v39 = k0_pay2 (F := Ideal) (eudT v37 v38 v39) := rfl

/-- The select, root and indicator on one entry. -/
theorem eud_scalar (d z o : EReal) :
    Ideal.sqrt (Scalar.select (Ideal.cmp .ogt d z) d o) * ((((Ideal.cmp .ogt d z).setWidth 32).toInt : ℝ) : EReal)
      = Ideal.sqrt (if z < d then d else o) * (if z < d then (1 : EReal) else 0) := by
  by_cases h : z < d
  · have hc : Ideal.cmp .ogt d z = 1#1 := by simp [Ideal.cmp, h]
    have h1 : ((1#1 : BitVec 1).setWidth 32).toInt = 1 := by decide
    rw [hc, if_pos h, if_pos h, select_one, h1]
    simp
  · have hc : Ideal.cmp .ogt d z = 0#1 := by simp [Ideal.cmp, h]
    have h0 : ((0#1 : BitVec 1).setWidth 32).toInt = 0 := by decide
    rw [hc, if_neg h, if_neg h, select_zero, h0]
    simp

/-- The tile of distances at an entry. -/
theorem eudT_apply (v37 v38 v39 : FVec Ideal S512x512 .f32) (i : S512x512.Idx) :
    eudT v37 v38 v39 i = eudB (v37 i) (v38 i) (v39 i) :=
  eud_scalar (d2B (v37 i) (v38 i) (v39 i)) Cert.Spec.zero Cert.Spec.one

/-- The body's greatest distance over a tile. -/
theorem pay3_eq (v37 v38 v39 : FVec Ideal S512x512 .f32) :
    k0_pay3 (F := Ideal) v37 v38 v39 = fun _ => ⨆ r : Fin 512, ⨆ s : Fin 512,
      eudB (v37 (ix2 r s)) (v38 (ix2 r s)) (v39 (ix2 r s)) := by
  rw [pay3_eq_pay2, pay2_eq]
  funext _
  exact iSup_congr fun r => iSup_congr fun s => eudT_apply v37 v38 v39 (ix2 r s)

end Cert.KernelIdeal.Val

end
-- ==== Proof.KIVal0Tile.lean ====
/-
  One grid point of the first region, at the exact instance: the three extremes the body forms of its tile are the
  least and greatest similarity and the greatest distance over the tile's 512 × 512 pairs, and a later point's update
  of a running extreme is the minimum (maximum) of the value found and the tile's own.
-/
import proofs.«136872_j61607010893834_1_alg».proof.Proof.KIIdx
import proofs.«136872_j61607010893834_1_alg».proof.Proof.KIVal0TileBlk
import proofs.«136872_j61607010893834_1_alg».proof.Proof.KIVal0TileExt
import proofs.«136872_j61607010893834_1_alg».proof.Proof.KIVal0TileSim
import proofs.«136872_j61607010893834_1_alg».proof.Proof.KIVal0TileOut
import proofs.«136872_j61607010893834_1_alg».proof.Proof.KIVal0TileEud

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

/-- The similarity tile at entry `(r, s)`: the similarity of the tile's row `r` and column `s`. -/
theorem simT0_apply (c : Dev nD) (t : Fin cfg0.N) (r s : Fin 512) :
    simT0 V c t (ix2 r s) = Cert.Spec.sim (lOf V c) (row t.val (lt0 t) r) (col t.val (lt0 t) s) := by
  refine (pay7_apply (iblk0 V c 2 t) (iblk0 V c 3 t) r s).trans ?_
  unfold Cert.Spec.sim Cert.Spec.ln Cert.Spec.nrm lnB
  simp only [blk2, blk3]

/-- The tile of inner products at entry `(r, s)`. -/
theorem crossT0_apply (c : Dev nD) (t : Fin cfg0.N) (r s : Fin 512) :
    crossT0 V c t (ix2 r s) = Cert.Spec.cross (oOf V c) (row t.val (lt0 t) r) (col t.val (lt0 t) s) := by
  refine (pay8_apply (iblk0 V c 0 t) (iblk0 V c 1 t) r s).trans ?_
  unfold Cert.Spec.cross
  simp only [blk0, blk1]

/-- The rows' squared norms at entry `(r, s)`. -/
theorem sqiT0_apply (c : Dev nD) (t : Fin cfg0.N) (r s : Fin 512) :
    sqiT0 V c t (ix2 r s) = Cert.Spec.sq (oOf V c) (row t.val (lt0 t) r) := by
  refine (pay9_apply (iblk0 V c 0 t) r s).trans ?_
  unfold Cert.Spec.sq
  simp only [blk0]

/-- The columns' squared norms at entry `(r, s)`. -/
theorem sqjT0_apply (c : Dev nD) (t : Fin cfg0.N) (r s : Fin 512) :
    sqjT0 V c t (ix2 r s) = Cert.Spec.sq (oOf V c) (col t.val (lt0 t) s) := by
  refine (pay10_apply (iblk0 V c 1 t) r s).trans ?_
  unfold Cert.Spec.sq
  simp only [blk1]

/-- The tile's least similarity. -/
theorem tileMin0 (c : Dev nD) (t : Fin cfg0.N) :
    k0_pay1 (F := Ideal) (simT0 V c t) = fun _ => ⨅ r : Fin 512, ⨅ s : Fin 512,
      Cert.Spec.sim (lOf V c) (row t.val (lt0 t) r) (col t.val (lt0 t) s) := by
  rw [pay1_eq]
  funext _
  exact iInf_congr fun r => iInf_congr fun s => simT0_apply V c t r s

/-- The tile's greatest similarity. -/
theorem tileMax0 (c : Dev nD) (t : Fin cfg0.N) :
    k0_pay2 (F := Ideal) (simT0 V c t) = fun _ => ⨆ r : Fin 512, ⨆ s : Fin 512,
      Cert.Spec.sim (lOf V c) (row t.val (lt0 t) r) (col t.val (lt0 t) s) := by
  rw [pay2_eq]
  funext _
  exact iSup_congr fun r => iSup_congr fun s => simT0_apply V c t r s

/-- The tile's greatest distance. -/
theorem tileEud0 (c : Dev nD) (t : Fin cfg0.N) :
    k0_pay3 (F := Ideal) (crossT0 V c t) (sqiT0 V c t) (sqjT0 V c t) = fun _ => ⨆ r : Fin 512, ⨆ s : Fin 512,
      Cert.Spec.eud (oOf V c) (row t.val (lt0 t) r) (col t.val (lt0 t) s) := by
  rw [pay3_eq]
  funext _
  refine iSup_congr fun r => iSup_congr fun s => ?_
  rw [crossT0_apply, sqiT0_apply, sqjT0_apply]
  rfl

/-- A later point's update of the running least similarity. -/
theorem stepMin0 (T : FVec Ideal S512x512 .f32) (v : Vec Ideal S1x1 .f32) :
    k0_pay4 (F := Ideal) T v = fun _ => min (v (ix2 0 0)) (k0_pay1 (F := Ideal) T (ix2 0 0)) := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay4
  show min (shapeCast S1x1 v _ (ix2 0 0)) (k0_pay1 (F := Ideal) T (ix2 0 0)) = _
  rw [shapeCast_self]

/-- A later point's update of the running greatest similarity. -/
theorem stepMax0 (T : FVec Ideal S512x512 .f32) (v : Vec Ideal S1x1 .f32) :
    k0_pay5 (F := Ideal) T v = fun _ => max (v (ix2 0 0)) (k0_pay2 (F := Ideal) T (ix2 0 0)) := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay5
  show max (shapeCast S1x1 v _ (ix2 0 0)) (k0_pay2 (F := Ideal) T (ix2 0 0)) = _
  rw [shapeCast_self]

/-- A later point's update of the running greatest distance. -/
theorem stepEud0 (T37 T38 T39 : FVec Ideal S512x512 .f32) (v : Vec Ideal S1x1 .f32) :
    k0_pay6 (F := Ideal) T37 T38 T39 v = fun _ => max (v (ix2 0 0)) (k0_pay3 (F := Ideal) T37 T38 T39 (ix2 0 0)) := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay6
  show max (shapeCast S1x1 v _ (ix2 0 0)) (k0_pay3 (F := Ideal) T37 T38 T39 (ix2 0 0)) = _
  rw [shapeCast_self]

end Cert.KernelIdeal.Val

end
-- ==== Proof.KIVal0Regroup.lean ====
/-
  Regrouping the pair space: the 256 tiles of 512 × 512 pairs, taken in the grid's order, are all of the
  8192 × 8192 pairs, so the least (greatest) of a function over the tiles' own least (greatest) values is its least
  (greatest) over all pairs.
-/
import proofs.«136872_j61607010893834_1_alg».proof.Proof.KIIdx

noncomputable section

namespace Cert.KernelIdeal.Val

variable (f : Fin 8192 → Fin 8192 → EReal)

/-- The least of `f` over the tile of grid point `k` (the top element beyond the grid). -/
def tileInf (k : ℕ) : EReal :=
  if h : k < 256 then ⨅ r : Fin 512, ⨅ s : Fin 512, f (row k h r) (col k h s) else ⊤

/-- The greatest of `f` over the tile of grid point `k` (the bottom element beyond the grid). -/
def tileSup (k : ℕ) : EReal :=
  if h : k < 256 then ⨆ r : Fin 512, ⨆ s : Fin 512, f (row k h r) (col k h s) else ⊥

theorem tileInf_of_lt (k : ℕ) (h : k < 256) :
    tileInf f k = ⨅ r : Fin 512, ⨅ s : Fin 512, f (row k h r) (col k h s) := dif_pos h

theorem tileSup_of_lt (k : ℕ) (h : k < 256) :
    tileSup f k = ⨆ r : Fin 512, ⨆ s : Fin 512, f (row k h r) (col k h s) := dif_pos h

/-- Pair `(i, j)` lies in the tile of point `16 (i / 512) + j / 512`, at row `i % 512` and column `j % 512`. -/
theorem pair_in_tile (i j : Fin 8192) :
    ∃ (k : ℕ) (h : k < 256) (r s : Fin 512), row k h r = i ∧ col k h s = j := by
  have hi : i.val < 8192 := i.isLt
  have hj : j.val < 8192 := j.isLt
  refine ⟨16 * (i.val / 512) + j.val / 512, by omega, ⟨i.val % 512, by omega⟩, ⟨j.val % 512, by omega⟩, ?_, ?_⟩
  · apply Fin.ext
    rw [row_val]
    show 512 * ((16 * (i.val / 512) + j.val / 512) / 16) + i.val % 512 = i.val
    omega
  · apply Fin.ext
    rw [col_val]
    show 512 * ((16 * (i.val / 512) + j.val / 512) % 16) + j.val % 512 = j.val
    omega

/-- The least over the 256 tiles' least values is the least over all pairs. -/
theorem inf_tiles : (Finset.range 256).inf (tileInf f) = ⨅ i : Fin 8192, ⨅ j : Fin 8192, f i j := by
  apply le_antisymm
  · refine le_iInf fun i => le_iInf fun j => ?_
    obtain ⟨k, h, r, s, rfl, rfl⟩ := pair_in_tile i j
    refine (Finset.inf_le (Finset.mem_range.mpr h)).trans ?_
    rw [tileInf_of_lt f k h]
    exact (iInf_le _ r).trans (iInf_le _ s)
  · refine Finset.le_inf fun k hk => ?_
    rw [tileInf_of_lt f k (Finset.mem_range.mp hk)]
    exact le_iInf fun r => le_iInf fun s => (iInf_le _ _).trans (iInf_le _ _)

/-- The greatest over the 256 tiles' greatest values is the greatest over all pairs. -/
theorem sup_tiles : (Finset.range 256).sup (tileSup f) = ⨆ i : Fin 8192, ⨆ j : Fin 8192, f i j := by
  apply le_antisymm
  · refine Finset.sup_le fun k hk => ?_
    rw [tileSup_of_lt f k (Finset.mem_range.mp hk)]
    exact iSup_le fun r => iSup_le fun s => (le_iSup (fun j => f (row k _ r) j) _).trans (le_iSup (fun i => ⨆ j, f i j) _)
  · refine iSup_le fun i => iSup_le fun j => ?_
    obtain ⟨k, h, r, s, rfl, rfl⟩ := pair_in_tile i j
    refine le_trans ?_ (Finset.le_sup (Finset.mem_range.mpr h))
    rw [tileSup_of_lt f k h]
    exact (le_iSup (fun s => f (row k h r) (col k h s)) s).trans (le_iSup (fun r => ⨆ s, f (row k h r) (col k h s)) r)

end Cert.KernelIdeal.Val

end
-- ==== Proof.KIVal0Run.lean ====
/-
  The first region's three running values in closed form: after the body at grid position `n` they are the least
  similarity, the greatest similarity and the greatest distance over the tiles of the points `0, …, n`.
-/
import proofs.«136872_j61607010893834_1_alg».proof.Proof.KIVal0Tile
import proofs.«136872_j61607010893834_1_alg».proof.Proof.KIVal0Regroup

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

/-- The running least similarity after position `n`: the least over the tiles of the points up to `n`. -/
theorem acc0_min (c : Dev nD) : ∀ (n : ℕ) (h : n < cfg0.N),
    (acc0 (F := Ideal) V c n h).1 = fun _ => (Finset.range (n + 1)).inf (tileInf (Cert.Spec.sim (lOf V c)))
  | 0, h => by
    rw [acc0_zero]
    show k0_pay1 (F := Ideal) (simT0 V c ⟨0, h⟩) = _
    rw [tileMin0 V c ⟨0, h⟩]
    funext _
    rw [Finset.range_one, Finset.inf_singleton, tileInf_of_lt _ 0 (by decide)]
  | n + 1, h => by
    have hN : cfg0.N = 256 := N_0
    rw [acc0_succ]
    show k0_pay4 (F := Ideal) (simT0 V c ⟨n + 1, h⟩) (acc0 (F := Ideal) V c n _).1 = _
    rw [stepMin0, acc0_min c n, tileMin0 V c ⟨n + 1, h⟩]
    funext _
    dsimp only
    rw [Finset.range_add_one (n := n + 1), Finset.inf_insert, tileInf_of_lt _ (n + 1) (by omega)]
    exact inf_comm _ _

/-- The running greatest similarity after position `n`. -/
theorem acc0_max (c : Dev nD) : ∀ (n : ℕ) (h : n < cfg0.N),
    (acc0 (F := Ideal) V c n h).2.1 = fun _ => (Finset.range (n + 1)).sup (tileSup (Cert.Spec.sim (lOf V c)))
  | 0, h => by
    rw [acc0_zero]
    show k0_pay2 (F := Ideal) (simT0 V c ⟨0, h⟩) = _
    rw [tileMax0 V c ⟨0, h⟩]
    funext _
    rw [Finset.range_one, Finset.sup_singleton, tileSup_of_lt _ 0 (by decide)]
  | n + 1, h => by
    have hN : cfg0.N = 256 := N_0
    rw [acc0_succ]
    show k0_pay5 (F := Ideal) (simT0 V c ⟨n + 1, h⟩) (acc0 (F := Ideal) V c n _).2.1 = _
    rw [stepMax0, acc0_max c n, tileMax0 V c ⟨n + 1, h⟩]
    funext _
    dsimp only
    rw [Finset.range_add_one (n := n + 1), Finset.sup_insert, tileSup_of_lt _ (n + 1) (by omega)]
    exact sup_comm _ _

/-- The running greatest distance after position `n`. -/
theorem acc0_eud (c : Dev nD) : ∀ (n : ℕ) (h : n < cfg0.N),
    (acc0 (F := Ideal) V c n h).2.2 = fun _ => (Finset.range (n + 1)).sup (tileSup (Cert.Spec.eud (oOf V c)))
  | 0, h => by
    rw [acc0_zero]
    show k0_pay3 (F := Ideal) (crossT0 V c ⟨0, h⟩) (sqiT0 V c ⟨0, h⟩) (sqjT0 V c ⟨0, h⟩) = _
    rw [tileEud0 V c ⟨0, h⟩]
    funext _
    rw [Finset.range_one, Finset.sup_singleton, tileSup_of_lt _ 0 (by decide)]
  | n + 1, h => by
    have hN : cfg0.N = 256 := N_0
    rw [acc0_succ]
    show k0_pay6 (F := Ideal) (crossT0 V c ⟨n + 1, h⟩) (sqiT0 V c ⟨n + 1, h⟩) (sqjT0 V c ⟨n + 1, h⟩)
      (acc0 (F := Ideal) V c n _).2.2 = _
    rw [stepEud0, acc0_eud c n, tileEud0 V c ⟨n + 1, h⟩]
    funext _
    dsimp only
    rw [Finset.range_add_one (n := n + 1), Finset.sup_insert, tileSup_of_lt _ (n + 1) (by omega)]
    exact sup_comm _ _

end Cert.KernelIdeal.Val

end
-- ==== Proof.KIVal0Flush.lean ====
/-
  The write-back of the first region's three results. Each of the three 1 × 1 arrays is one block, at block index
  (0, 0), written back at the last grid point only; so after the region each holds the running value the body left
  at position 255.
-/
import proofs.«136872_j61607010893834_1_alg».proof.Proof.KIIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The last grid position. -/
theorem last0 : 255 < cfg0.N := lt_of_lt_of_eq (by decide) N_0.symm

/-- The three running values after the last point, as contents of the three result arrays. -/
abbrev res0_4 (c : Dev nD) : Buf (Elt Ideal) ((c : Thread nD τ).loc main_v0_0) := (acc0 (F := Ideal) V c 255 last0).1
abbrev res0_5 (c : Dev nD) : Buf (Elt Ideal) ((c : Thread nD τ).loc main_v0_1) := (acc0 (F := Ideal) V c 255 last0).2.1
abbrev res0_6 (c : Dev nD) : Buf (Elt Ideal) ((c : Thread nD τ).loc main_v0_2) := (acc0 (F := Ideal) V c 255 last0).2.2

/-- The one write-back of the least similarity, at point 255, writes the running value: block (0, 0) of the 1 × 1
    array read through zero offsets is the array. -/
theorem flushed0_4 (c : Dev nD) (t : Fin cfg0.N) (hf : (cfg0.win 4).flush t = true) :
    (dat0 (F := Ideal) V c).flushed 4 t = ((cfg0.win 4).blk t).view.read (Elt Ideal) (res0_4 V c) := by
  have hN : cfg0.N = 256 := N_0
  have h3 : t.val = 255 := by have := (flush0_4 t).mp hf; have := t.isLt; omega
  obtain rfl : t = ⟨255, last0⟩ := Fin.ext h3
  show (cfg0.win 4).cut (grid0.coords ⟨255, last0⟩) ((dat0 (F := Ideal) V c).after 4 ⟨255, last0⟩) = _
  rw [after0_4]
  have hz' : (fun a => win0_4.index ⟨255, last0⟩ a * main_v0_0.ty.shape.size a) = fun _ => 0 :=
    funext fun a => by fin_cases a <;> rfl
  exact (Memref.read_access_unit_zero (Elt Ideal) main_v0_0 hz' (fun a => by rw [congrFun hz' a]; simp) (res0_4 V c)).symm

/-- So the array ends holding that running value: the block of point 255 is the whole array. -/
theorem final0_4 (c : Dev nD) : (dat0 (F := Ideal) V c).arrAt 4 cfg0.N = res0_4 V c :=
  (dat0 (F := Ideal) V c).arrAt_eq_of_cover 4 (res0_4 V c) (flushed0_4 V c) fun i =>
    ⟨⟨255, last0⟩, (flush0_4 ⟨255, last0⟩).mpr rfl, by
      show i ∈ ((View.whole main_v0_0).slice (win0_4.rect ⟨255, last0⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index ⟨255, last0⟩ 0 * win0_4.size 0 ≤ (i 0 : Nat)
          ∧ (i 0 : Nat) < win0_4.index ⟨255, last0⟩ 0 * win0_4.size 0 + win0_4.xsize (grid0.coords ⟨255, last0⟩) 0
        rw [show win0_4.index ⟨255, last0⟩ 0 * win0_4.size 0 = 0 from rfl,
          show win0_4.xsize (grid0.coords ⟨255, last0⟩) 0 = 1 from by decide +kernel]
        omega
      | ⟨1, _⟩ =>
        show win0_4.index ⟨255, last0⟩ 1 * win0_4.size 1 ≤ (i 1 : Nat)
          ∧ (i 1 : Nat) < win0_4.index ⟨255, last0⟩ 1 * win0_4.size 1 + win0_4.xsize (grid0.coords ⟨255, last0⟩) 1
        rw [show win0_4.index ⟨255, last0⟩ 1 * win0_4.size 1 = 0 from rfl,
          show win0_4.xsize (grid0.coords ⟨255, last0⟩) 1 = 1 from by decide +kernel]
        omega⟩

/-- The one write-back of the greatest similarity, at point 255, writes the running value: block (0, 0) of the 1 × 1
    array read through zero offsets is the array. -/
theorem flushed0_5 (c : Dev nD) (t : Fin cfg0.N) (hf : (cfg0.win 5).flush t = true) :
    (dat0 (F := Ideal) V c).flushed 5 t = ((cfg0.win 5).blk t).view.read (Elt Ideal) (res0_5 V c) := by
  have hN : cfg0.N = 256 := N_0
  have h3 : t.val = 255 := by have := (flush0_5 t).mp hf; have := t.isLt; omega
  obtain rfl : t = ⟨255, last0⟩ := Fin.ext h3
  show (cfg0.win 5).cut (grid0.coords ⟨255, last0⟩) ((dat0 (F := Ideal) V c).after 5 ⟨255, last0⟩) = _
  rw [after0_5]
  have hz' : (fun a => win0_5.index ⟨255, last0⟩ a * main_v0_1.ty.shape.size a) = fun _ => 0 :=
    funext fun a => by fin_cases a <;> rfl
  exact (Memref.read_access_unit_zero (Elt Ideal) main_v0_1 hz' (fun a => by rw [congrFun hz' a]; simp) (res0_5 V c)).symm

/-- So the array ends holding that running value: the block of point 255 is the whole array. -/
theorem final0_5 (c : Dev nD) : (dat0 (F := Ideal) V c).arrAt 5 cfg0.N = res0_5 V c :=
  (dat0 (F := Ideal) V c).arrAt_eq_of_cover 5 (res0_5 V c) (flushed0_5 V c) fun i =>
    ⟨⟨255, last0⟩, (flush0_5 ⟨255, last0⟩).mpr rfl, by
      show i ∈ ((View.whole main_v0_1).slice (win0_5.rect ⟨255, last0⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index ⟨255, last0⟩ 0 * win0_5.size 0 ≤ (i 0 : Nat)
          ∧ (i 0 : Nat) < win0_5.index ⟨255, last0⟩ 0 * win0_5.size 0 + win0_5.xsize (grid0.coords ⟨255, last0⟩) 0
        rw [show win0_5.index ⟨255, last0⟩ 0 * win0_5.size 0 = 0 from rfl,
          show win0_5.xsize (grid0.coords ⟨255, last0⟩) 0 = 1 from by decide +kernel]
        omega
      | ⟨1, _⟩ =>
        show win0_5.index ⟨255, last0⟩ 1 * win0_5.size 1 ≤ (i 1 : Nat)
          ∧ (i 1 : Nat) < win0_5.index ⟨255, last0⟩ 1 * win0_5.size 1 + win0_5.xsize (grid0.coords ⟨255, last0⟩) 1
        rw [show win0_5.index ⟨255, last0⟩ 1 * win0_5.size 1 = 0 from rfl,
          show win0_5.xsize (grid0.coords ⟨255, last0⟩) 1 = 1 from by decide +kernel]
        omega⟩

/-- The one write-back of the greatest distance, at point 255, writes the running value: block (0, 0) of the 1 × 1
    array read through zero offsets is the array. -/
theorem flushed0_6 (c : Dev nD) (t : Fin cfg0.N) (hf : (cfg0.win 6).flush t = true) :
    (dat0 (F := Ideal) V c).flushed 6 t = ((cfg0.win 6).blk t).view.read (Elt Ideal) (res0_6 V c) := by
  have hN : cfg0.N = 256 := N_0
  have h3 : t.val = 255 := by have := (flush0_6 t).mp hf; have := t.isLt; omega
  obtain rfl : t = ⟨255, last0⟩ := Fin.ext h3
  show (cfg0.win 6).cut (grid0.coords ⟨255, last0⟩) ((dat0 (F := Ideal) V c).after 6 ⟨255, last0⟩) = _
  rw [after0_6]
  have hz' : (fun a => win0_6.index ⟨255, last0⟩ a * main_v0_2.ty.shape.size a) = fun _ => 0 :=
    funext fun a => by fin_cases a <;> rfl
  exact (Memref.read_access_unit_zero (Elt Ideal) main_v0_2 hz' (fun a => by rw [congrFun hz' a]; simp) (res0_6 V c)).symm

/-- So the array ends holding that running value: the block of point 255 is the whole array. -/
theorem final0_6 (c : Dev nD) : (dat0 (F := Ideal) V c).arrAt 6 cfg0.N = res0_6 V c :=
  (dat0 (F := Ideal) V c).arrAt_eq_of_cover 6 (res0_6 V c) (flushed0_6 V c) fun i =>
    ⟨⟨255, last0⟩, (flush0_6 ⟨255, last0⟩).mpr rfl, by
      show i ∈ ((View.whole main_v0_2).slice (win0_6.rect ⟨255, last0⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index ⟨255, last0⟩ 0 * win0_6.size 0 ≤ (i 0 : Nat)
          ∧ (i 0 : Nat) < win0_6.index ⟨255, last0⟩ 0 * win0_6.size 0 + win0_6.xsize (grid0.coords ⟨255, last0⟩) 0
        rw [show win0_6.index ⟨255, last0⟩ 0 * win0_6.size 0 = 0 from rfl,
          show win0_6.xsize (grid0.coords ⟨255, last0⟩) 0 = 1 from by decide +kernel]
        omega
      | ⟨1, _⟩ =>
        show win0_6.index ⟨255, last0⟩ 1 * win0_6.size 1 ≤ (i 1 : Nat)
          ∧ (i 1 : Nat) < win0_6.index ⟨255, last0⟩ 1 * win0_6.size 1 + win0_6.xsize (grid0.coords ⟨255, last0⟩) 1
        rw [show win0_6.index ⟨255, last0⟩ 1 * win0_6.size 1 = 0 from rfl,
          show win0_6.xsize (grid0.coords ⟨255, last0⟩) 1 = 1 from by decide +kernel]
        omega⟩

end Cert.KernelIdeal.Val

end
-- ==== Proof.KIVal0.lean ====
/-
  What the first region leaves in its three 1 × 1 result arrays: the least and the greatest similarity and the
  greatest distance over all 8192 × 8192 pairs — the running values after the last grid point, whose tiles are the
  whole pair space.
-/
import proofs.«136872_j61607010893834_1_alg».proof.Proof.KIVal0Run
import proofs.«136872_j61607010893834_1_alg».proof.Proof.KIVal0Flush

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

/-- The first result array ends at the least similarity over all pairs. -/
theorem arrAt0_4 (c : Dev nD) :
    ((dat0 (F := Ideal) V c).arrAt 4 cfg0.N : S1x1.Idx → EReal) = fun _ => Cert.Spec.smin (lOf V c) := by
  refine (final0_4 V c).trans ?_
  refine (acc0_min V c 255 last0).trans ?_
  funext _
  exact inf_tiles (Cert.Spec.sim (lOf V c))

/-- The second result array ends at the greatest similarity over all pairs. -/
theorem arrAt0_5 (c : Dev nD) :
    ((dat0 (F := Ideal) V c).arrAt 5 cfg0.N : S1x1.Idx → EReal) = fun _ => Cert.Spec.smax (lOf V c) := by
  refine (final0_5 V c).trans ?_
  refine (acc0_max V c 255 last0).trans ?_
  funext _
  exact sup_tiles (Cert.Spec.sim (lOf V c))

/-- The third result array ends at the greatest distance over all pairs. -/
theorem arrAt0_6 (c : Dev nD) :
    ((dat0 (F := Ideal) V c).arrAt 6 cfg0.N : S1x1.Idx → EReal) = fun _ => Cert.Spec.emax (oOf V c) := by
  refine (final0_6 V c).trans ?_
  refine (acc0_eud V c 255 last0).trans ?_
  funext _
  exact sup_tiles (Cert.Spec.eud (oOf V c))

end Cert.KernelIdeal.Val

end
-- ==== Proof.KIVal1TileBlk.lean ====
/-
  The blocks a grid point of the second region reads: the three one-entry arrays whole, and of each argument array the
  512 rows of the point's row block and of its column block.
-/
import proofs.«136872_j61607010893834_1_alg».proof.Proof.KIIdx

noncomputable section

namespace Cert.KernelIdeal.Val.Tile1

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

/-- The printed block indices over the grid: the row windows follow the point's row block, the column windows its column
    block, and the one-entry windows stay at the origin. -/
theorem index_facts1 : ∀ t : Fin cfg1.N,
    win1_3.index t (0 : Fin 2) = t.val / 16 ∧ win1_3.index t (1 : Fin 2) = 0
    ∧ win1_4.index t (0 : Fin 2) = t.val % 16 ∧ win1_4.index t (1 : Fin 2) = 0
    ∧ win1_5.index t (0 : Fin 2) = t.val / 16 ∧ win1_5.index t (1 : Fin 2) = 0
    ∧ win1_6.index t (0 : Fin 2) = t.val % 16 ∧ win1_6.index t (1 : Fin 2) = 0 :=
  (by decide +kernel : ∀ t : Fin grid1.N, _)

/-- The outputs' row block at an entry. -/
theorem blk3_apply (c : Dev nD) (t : Fin cfg1.N) (r : Fin 512) (d : Fin 256) :
    iblk1 V c 3 t (ix2 r d) = oOf V c (row t.val (lt1 t) r) d := by
  obtain ⟨e0, e1, -⟩ := index_facts1 t
  show (V c main_arg0 : S8192x256.Idx → EReal) (((cfg1.win 3).blk t).view.emb (ix2 r d))
    = (V c main_arg0 : S8192x256.Idx → EReal) (ix2 (row t.val (lt1 t) r) d)
  refine congrArg _ (funext fun a => Fin.ext ?_)
  match a with
  | ⟨0, _⟩ => show win1_3.index t (0 : Fin 2) * 512 + 1 * r.val = 512 * (t.val / 16) + r.val; rw [e0]; omega
  | ⟨1, _⟩ => show win1_3.index t (1 : Fin 2) * 256 + 1 * d.val = d.val; rw [e1]; omega

/-- The outputs' column block at an entry. -/
theorem blk4_apply (c : Dev nD) (t : Fin cfg1.N) (s : Fin 512) (d : Fin 256) :
    iblk1 V c 4 t (ix2 s d) = oOf V c (col t.val (lt1 t) s) d := by
  obtain ⟨-, -, e0, e1, -⟩ := index_facts1 t
  show (V c main_arg0 : S8192x256.Idx → EReal) (((cfg1.win 4).blk t).view.emb (ix2 s d))
    = (V c main_arg0 : S8192x256.Idx → EReal) (ix2 (col t.val (lt1 t) s) d)
  refine congrArg _ (funext fun a => Fin.ext ?_)
  match a with
  | ⟨0, _⟩ => show win1_4.index t (0 : Fin 2) * 512 + 1 * s.val = 512 * (t.val % 16) + s.val; rw [e0]; omega
  | ⟨1, _⟩ => show win1_4.index t (1 : Fin 2) * 256 + 1 * d.val = d.val; rw [e1]; omega

/-- The labels' row block at an entry. -/
theorem blk5_apply (c : Dev nD) (t : Fin cfg1.N) (r : Fin 512) (k : Fin 128) :
    iblk1 V c 5 t (ix2 r k) = lOf V c (row t.val (lt1 t) r) k := by
  obtain ⟨-, -, -, -, e0, e1, -⟩ := index_facts1 t
  show (V c main_arg1 : S8192x128.Idx → EReal) (((cfg1.win 5).blk t).view.emb (ix2 r k))
    = (V c main_arg1 : S8192x128.Idx → EReal) (ix2 (row t.val (lt1 t) r) k)
  refine congrArg _ (funext fun a => Fin.ext ?_)
  match a with
  | ⟨0, _⟩ => show win1_5.index t (0 : Fin 2) * 512 + 1 * r.val = 512 * (t.val / 16) + r.val; rw [e0]; omega
  | ⟨1, _⟩ => show win1_5.index t (1 : Fin 2) * 128 + 1 * k.val = k.val; rw [e1]; omega

/-- The labels' column block at an entry. -/
theorem blk6_apply (c : Dev nD) (t : Fin cfg1.N) (s : Fin 512) (k : Fin 128) :
    iblk1 V c 6 t (ix2 s k) = lOf V c (col t.val (lt1 t) s) k := by
  obtain ⟨-, -, -, -, -, -, e0, e1⟩ := index_facts1 t
  show (V c main_arg1 : S8192x128.Idx → EReal) (((cfg1.win 6).blk t).view.emb (ix2 s k))
    = (V c main_arg1 : S8192x128.Idx → EReal) (ix2 (col t.val (lt1 t) s) k)
  refine congrArg _ (funext fun a => Fin.ext ?_)
  match a with
  | ⟨0, _⟩ => show win1_6.index t (0 : Fin 2) * 512 + 1 * s.val = 512 * (t.val % 16) + s.val; rw [e0]; omega
  | ⟨1, _⟩ => show win1_6.index t (1 : Fin 2) * 128 + 1 * k.val = k.val; rw [e1]; omega

/-- A one-entry window whose array is constant reads that constant. -/
theorem blk0_apply (c : Dev nD) (t : Fin cfg1.N) (x : EReal)
    (h : (V c main_v0_0 : S1x1.Idx → EReal) = fun _ => x) (j : S1x1.Idx) : iblk1 V c 0 t j = x := by
  show (V c main_v0_0 : S1x1.Idx → EReal) (((cfg1.win 0).blk t).view.emb j) = x
  rw [h]
theorem blk1_apply (c : Dev nD) (t : Fin cfg1.N) (x : EReal)
    (h : (V c main_v0_1 : S1x1.Idx → EReal) = fun _ => x) (j : S1x1.Idx) : iblk1 V c 1 t j = x := by
  show (V c main_v0_1 : S1x1.Idx → EReal) (((cfg1.win 1).blk t).view.emb j) = x
  rw [h]
theorem blk2_apply (c : Dev nD) (t : Fin cfg1.N) (x : EReal)
    (h : (V c main_v0_2 : S1x1.Idx → EReal) = fun _ => x) (j : S1x1.Idx) : iblk1 V c 2 t j = x := by
  show (V c main_v0_2 : S1x1.Idx → EReal) (((cfg1.win 2).blk t).view.emb j) = x
  rw [h]

end Cert.KernelIdeal.Val.Tile1

end
-- ==== Proof.KIVal1TileSim.lean ====
/-
  The tile of min-max normalised similarities at an entry: the inner product of two label rows, each divided by its
  Euclidean norm plus ε, minus the least similarity, over the spread of the similarities.
-/
import proofs.«136872_j61607010893834_1_alg».proof.Proof.KIIdx
import proofs.«136872_j61607010893834_1_alg».proof.Proof.LibKeepdims
import proofs.«136872_j61607010893834_1_alg».proof.Proof.LibRank3
import proofs.«136872_j61607010893834_1_alg».proof.Proof.LibPlainDot

noncomputable section

namespace Cert.KernelIdeal.Val.Tile1

open Cert.KernelIdeal Cert.KernelIdeal.Gen Cert.KernelIdeal.Hand
open Idealize.ShloMosaic Idealize.ShloMosaic.TcCoe Idealize.ShloMosaic.ValueIdx

/-- A row of a label block divided by its Euclidean norm plus ε, at an entry. -/
theorem rownorm_apply (L : Vec Ideal S512x128 .f32) (r : Fin 512) (q : Fin 128) :
    divf L (broadcastTo S512x128 (addf (sqrt (shapeCast S512x1
        (multiReduction (F := Ideal) .add [1] S512 (mulf L L) 0x00000000#32 reduces_S512x128_S512 (.inl rfl) rfl) shapeCasts_S512_S512x1))
      (broadcast S512x1 (Scalar.ofBits (F := Ideal) .f32 0x2B8CBCCC#32))) broadcasts_S512x1_S512x128) (ix2 r q)
      = Ideal.div (L (ix2 r q)) (Ideal.sqrt (∑ k : Fin 128, L (ix2 r k) * L (ix2 r k)) + Cert.Spec.eps) := by
  refine congrArg (Ideal.div (L (ix2 r q))) ?_
  refine (Cert.LibKeepdims.broadcastTo_a1_ab_apply _ broadcasts_S512x1_S512x128 r q).trans ?_
  refine congrArg (fun x => Ideal.sqrt x + Cert.Spec.eps) ?_
  refine (Cert.LibKeepdims.shapeCast_a_a1_apply _ shapeCasts_S512_S512x1 r 0).trans ?_
  exact Cert.LibRank3.sum_last2 (mulf L L) 0x00000000#32 reduces_S512x128_S512 (.inl rfl) rfl r

/-- A one-entry array broadcast to a matrix reads its entry everywhere. -/
theorem broadcastTo_11_ab_apply {α : Type} {a b : ℕ} (v : (⟨2, ![1, 1]⟩ : Shape).Idx → α)
    (h : (⟨2, ![1, 1]⟩ : Shape).Broadcasts ⟨2, ![a, b]⟩) (i : Fin a) (j : Fin b) :
    broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-- The similarity tile at an entry. -/
theorem pay6_apply (A B : Vec Ideal S512x128 .f32) (s0 s1 : Vec Ideal S1x1 .f32) (r s : Fin 512) :
    k1_pay6 (F := Ideal) A B s0 s1 (ix2 r s)
      = Ideal.div ((∑ q : Fin 128,
            Ideal.div (A (ix2 r q)) (Ideal.sqrt (∑ k : Fin 128, A (ix2 r k) * A (ix2 r k)) + Cert.Spec.eps)
            * Ideal.div (B (ix2 s q)) (Ideal.sqrt (∑ k : Fin 128, B (ix2 s k) * B (ix2 s k)) + Cert.Spec.eps))
          - s0 (ix2 0 0)) (s1 (ix2 0 0) - s0 (ix2 0 0)) := by
  unfold k1_pay6
  refine congrArg₂ Ideal.div (congrArg₂ (fun x y : EReal => x - y) ?_ ?_) ?_
  · refine (Cert.PlainDot.matmul_zero_ix2 _ rfl none _ _ r s).trans (Finset.sum_congr rfl fun q _ => congrArg₂ (fun x y : EReal => x * y) ?_ ?_)
    · exact rownorm_apply A r q
    · refine (transpose_apply [1, 0] _ transposes_S512x128_p1_0_S128x512 (ix2 q s) (ix2 s q) fun b => ?_).trans (rownorm_apply B s q)
      match b with
      | ⟨0, _⟩ => rfl
      | ⟨1, _⟩ => rfl
  · refine (broadcastTo_11_ab_apply _ broadcasts_S1x1_S512x512 r s).trans ?_
    rw [shapeCast_self]
  · refine (broadcastTo_11_ab_apply _ broadcasts_S1x1_S512x512 r s).trans ?_
    rw [shapeCast_self, shapeCast_self]
    rfl

end Cert.KernelIdeal.Val.Tile1

end
-- ==== Proof.KIVal1TileDist.lean ====
/-
  The distance tile at an entry: the clamped squared distance in Gram form, its safe square root, divided by the
  greatest distance, plus the normalised similarity; and the two masked exponentials of it.
-/
import proofs.«136872_j61607010893834_1_alg».proof.Proof.KIIdx
import proofs.«136872_j61607010893834_1_alg».proof.Proof.LibKeepdims
import proofs.«136872_j61607010893834_1_alg».proof.Proof.LibRowBroadcast
import proofs.«136872_j61607010893834_1_alg».proof.Proof.LibRank3
import proofs.«136872_j61607010893834_1_alg».proof.Proof.LibPlainDot
import proofs.«136872_j61607010893834_1_alg».proof.Proof.KIVal1TileSim

noncomputable section

namespace Cert.KernelIdeal.Val.Tile1

open Cert.KernelIdeal Cert.KernelIdeal.Gen Cert.KernelIdeal.Hand
open Idealize.ShloMosaic Idealize.ShloMosaic.TcCoe Idealize.ShloMosaic.ValueIdx

/-- A select on "x exceeds y" is the `if` on the order. -/
theorem select_ogt {α : Type} (x y : EReal) (a b : α) :
    Scalar.select (Ideal.cmp .ogt x y) a b = if y < x then a else b := by
  by_cases h : y < x
  · have e : Ideal.cmp .ogt x y = 1#1 := by simp [Ideal.cmp, h]
    rw [e, select_one, if_pos h]
  · have e : Ideal.cmp .ogt x y = 0#1 := by simp [Ideal.cmp, h]
    rw [e, select_zero, if_neg h]

/-- The bit "x exceeds y", widened and converted, is the indicator of the order. -/
theorem sitofp_ogt (x y : EReal) :
    FloatOps.sitofp (F := Ideal) .f32 ((Ideal.cmp .ogt x y).setWidth 32) = if y < x then (1 : EReal) else 0 := by
  by_cases h : y < x
  · have e : Ideal.cmp .ogt x y = 1#1 := by simp [Ideal.cmp, h]
    rw [e, if_pos h]
    show (((BitVec.setWidth 32 1#1).toInt : ℝ) : EReal) = 1
    rw [show (BitVec.setWidth 32 1#1).toInt = 1 from by decide]
    simp
  · have e : Ideal.cmp .ogt x y = 0#1 := by simp [Ideal.cmp, h]
    rw [e, if_neg h]
    show (((BitVec.setWidth 32 0#1).toInt : ℝ) : EReal) = 0
    rw [show (BitVec.setWidth 32 0#1).toInt = 0 from by decide]
    simp

/-- The safe square root of a tile times the indicator of its positive entries, at an index. -/
theorem eudT_apply (X : FVec Ideal S512x512 .f32) (i : S512x512.Idx) :
    mulf (sqrt (select (cmpf .ogt X (broadcast S512x512 (Scalar.ofBits (F := Ideal) .f32 0x00000000#32))) X
        (broadcast S512x512 (Scalar.ofBits (F := Ideal) .f32 0x3F800000#32))))
      (sitofp .f32 (extui 32 (cmpf .ogt X (broadcast S512x512 (Scalar.ofBits (F := Ideal) .f32 0x00000000#32))) natLt_1_32)) i
      = Ideal.sqrt (if Cert.Spec.zero < X i then X i else Cert.Spec.one) * (if Cert.Spec.zero < X i then (1 : EReal) else 0) :=
  congrArg₂ (fun x y : EReal => Ideal.sqrt x * y) (select_ogt (X i) Cert.Spec.zero (X i) Cert.Spec.one) (sitofp_ogt (X i) Cert.Spec.zero)

/-- The clamped squared distance of row `r` of the first block to row `s` of the second, from the first block's squares. -/
def d2T (O3 O4 : Vec Ideal S512x256 .f32) (SQ : FVec Ideal S512x256 .f32) (r s : Fin 512) : EReal :=
  max ((∑ d : Fin 256, SQ (ix2 r d)) + (∑ d : Fin 256, O4 (ix2 s d) * O4 (ix2 s d))
    - Cert.Spec.two * (∑ d : Fin 256, O3 (ix2 r d) * O4 (ix2 s d))) Cert.Spec.zero

/-- The distance tile at an entry. -/
theorem pay8_apply (O3 O4 : Vec Ideal S512x256 .f32) (T : FVec Ideal S512x512 .f32) (SQ : FVec Ideal S512x256 .f32)
    (e : Vec Ideal S1x1 .f32) (r s : Fin 512) :
    k1_pay8 (F := Ideal) O3 O4 T SQ e (ix2 r s)
      = Ideal.div (Ideal.sqrt (if Cert.Spec.zero < d2T O3 O4 SQ r s then d2T O3 O4 SQ r s else Cert.Spec.one)
          * (if Cert.Spec.zero < d2T O3 O4 SQ r s then (1 : EReal) else 0)) (e (ix2 0 0)) + T (ix2 r s) := by
  unfold k1_pay8
  refine congrArg₂ (fun x y : EReal => x + y) (congrArg₂ Ideal.div ((eudT_apply _ (ix2 r s)).trans
    (congrArg (fun x : EReal => Ideal.sqrt (if Cert.Spec.zero < x then x else Cert.Spec.one) * (if Cert.Spec.zero < x then (1 : EReal) else 0)) ?_)) ?_) rfl
  · unfold d2T
    refine congrArg₂ max (congrArg₂ (fun x y : EReal => x - y) (congrArg₂ (fun x y : EReal => x + y) ?_ ?_)
      (congrArg₂ (fun x y : EReal => x * y) rfl ?_)) rfl
    · exact (Cert.LibKeepdims.broadcastTo_a1_ab_apply _ broadcasts_S512x1_S512x512 r s).trans
        ((Cert.LibKeepdims.shapeCast_a_a1_apply _ shapeCasts_S512_S512x1 r 0).trans
          (Cert.LibRank3.sum_last2 SQ 0x00000000#32 reduces_S512x256_S512 (.inl rfl) rfl r))
    · refine (Cert.LibRowBroadcast.broadcastTo_1b_ab_apply _ broadcasts_S1x512_S512x512 r s).trans ?_
      refine (transpose_apply [1, 0] _ transposes_S512x1_p1_0_S1x512 (ix2 (0 : Fin 1) s) (ix2 s (0 : Fin 1)) fun b => ?_).trans ?_
      · match b with
        | ⟨0, _⟩ => rfl
        | ⟨1, _⟩ => rfl
      · exact (Cert.LibKeepdims.shapeCast_a_a1_apply _ shapeCasts_S512_S512x1 s 0).trans
          (Cert.LibRank3.sum_last2 (mulf O4 O4) 0x00000000#32 reduces_S512x256_S512 (.inl rfl) rfl s)
    · refine (Cert.PlainDot.matmul_zero_ix2 _ rfl none _ _ r s).trans (Finset.sum_congr rfl fun d _ => congrArg₂ (fun x y : EReal => x * y) rfl ?_)
      refine transpose_apply [1, 0] _ transposes_S512x256_p1_0_S256x512 (ix2 d s) (ix2 s d) fun b => ?_
      match b with
      | ⟨0, _⟩ => rfl
      | ⟨1, _⟩ => rfl
  · refine (broadcastTo_11_ab_apply _ broadcasts_S1x1_S512x512 r s).trans ?_
    rw [shapeCast_self]

end Cert.KernelIdeal.Val.Tile1

end
-- ==== Proof.KIVal1TileExp.lean ====
/-
  The two masked exponentials of the distance tile, their sums along a row added to the running sums, the zero the
  running sums start from, and the block of row losses.
-/
import proofs.«136872_j61607010893834_1_alg».proof.Proof.KIIdx
import proofs.«136872_j61607010893834_1_alg».proof.Proof.LibKeepdims
import proofs.«136872_j61607010893834_1_alg».proof.Proof.LibRank3
import proofs.«136872_j61607010893834_1_alg».proof.Proof.KIVal1TileDist

noncomputable section

namespace Cert.KernelIdeal.Val.Tile1

open Cert.KernelIdeal Cert.KernelIdeal.Gen Cert.KernelIdeal.Hand
open Idealize.ShloMosaic Idealize.ShloMosaic.TcCoe Idealize.ShloMosaic.ValueIdx

/-- The running sum of the positive pairs' exponentials after one point, at a row. -/
theorem pay11_apply (O3 O4 : Vec Ideal S512x256 .f32) (T : FVec Ideal S512x512 .f32) (SQ : FVec Ideal S512x256 .f32)
    (e : Vec Ideal S1x1 .f32) (P : Vec Ideal S512x1 .f32) (r : Fin 512) :
    k1_pay11 (F := Ideal) O3 O4 T SQ e P (ix2 r 0)
      = P (ix2 r 0) + ∑ s : Fin 512, (if Cert.Spec.half < T (ix2 r s)
          then Ideal.exp (k1_pay8 (F := Ideal) O3 O4 T SQ e (ix2 r s)) else Cert.Spec.zero) := by
  unfold k1_pay11
  refine congrArg (fun x : EReal => P (ix2 r 0) + x) ?_
  refine (Cert.LibKeepdims.shapeCast_a_a1_apply _ shapeCasts_S512_S512x1 r 0).trans ?_
  refine (Cert.LibRank3.sum_last2 _ 0x00000000#32 reduces_S512x512_S512 (.inl rfl) rfl r).trans
    (Finset.sum_congr rfl fun s _ => ?_)
  exact select_ogt (T (ix2 r s)) Cert.Spec.half _ _

/-- The other pairs' exponentials at an entry. -/
theorem pay10_apply (O3 O4 : Vec Ideal S512x256 .f32) (T : FVec Ideal S512x512 .f32) (SQ : FVec Ideal S512x256 .f32)
    (e : Vec Ideal S1x1 .f32) (r s : Fin 512) :
    k1_pay10 (F := Ideal) O3 O4 T SQ e (ix2 r s)
      = if Cert.Spec.half < T (ix2 r s) then Cert.Spec.zero
        else Ideal.exp (Cert.Spec.one - k1_pay8 (F := Ideal) O3 O4 T SQ e (ix2 r s)) := by
  unfold k1_pay10
  exact select_ogt (T (ix2 r s)) Cert.Spec.half _ _

/-- A tile's row sums added to a running sum, at a row. -/
theorem pay2_apply (X : FVec Ideal S512x512 .f32) (Q : Vec Ideal S512x1 .f32) (r : Fin 512) :
    k1_pay2 (F := Ideal) X Q (ix2 r 0) = Q (ix2 r 0) + ∑ s : Fin 512, X (ix2 r s) := by
  unfold k1_pay2
  refine (congrFun (shapeCast_self _ shapeCasts_S512x1_S512x1) (ix2 r 0)).trans ?_
  refine congrArg (fun x : EReal => Q (ix2 r 0) + x) ?_
  refine (Cert.LibKeepdims.shapeCast_a_a1_apply _ shapeCasts_S512_S512x1 r 0).trans ?_
  exact Cert.LibRank3.sum_last2 X 0x00000000#32 reduces_S512x512_S512 (.inl rfl) rfl r

/-- A column cast to its own shape is itself. -/
theorem pay1_eq (X : FVec Ideal S512x1 .f32) : k1_pay1 (F := Ideal) X = X := by
  unfold k1_pay1
  exact shapeCast_self _ shapeCasts_S512x1_S512x1

end Cert.KernelIdeal.Val.Tile1

end
-- ==== Proof.KIVal1Tile.lean ====
/-
  One grid point of the second region, at the exact instance, when the three scalar windows hold the global extremes:
  the point adds to each row's running sums the tile's positive pairs' exponentials and the other pairs', and the
  block of row losses is the sum of the two clamped logarithms.
-/
import proofs.«136872_j61607010893834_1_alg».proof.Proof.KIIdx
import proofs.«136872_j61607010893834_1_alg».proof.Proof.KIVal1TileBlk
import proofs.«136872_j61607010893834_1_alg».proof.Proof.KIVal1TileExp

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

/-- The running sums start from zero. -/
theorem pay4_zero : k1_pay4 (F := Ideal) = fun _ => (0 : EReal) := by
  unfold k1_pay4
  refine (shapeCast_self _ shapeCasts_S512x1_S512x1).trans (funext fun i => ?_)
  exact Ideal.ofBits_zero_f32
theorem pay5_zero : k1_pay5 (F := Ideal) = fun _ => (0 : EReal) := by
  unfold k1_pay5
  refine (shapeCast_self _ shapeCasts_S512x1_S512x1).trans (funext fun i => ?_)
  exact Ideal.ofBits_zero_f32

/-- The point's tile of normalised similarities at an entry: the specification's, at the tile's row and column. -/
theorem Tile1.simnT1_apply (c : Dev nD) (t : Fin cfg1.N)
    (h0 : (V c main_v0_0 : S1x1.Idx → EReal) = fun _ => Cert.Spec.smin (lOf V c))
    (h1 : (V c main_v0_1 : S1x1.Idx → EReal) = fun _ => Cert.Spec.smax (lOf V c)) (r s : Fin 512) :
    simnT1 (F := Ideal) V c t (ix2 r s)
      = Cert.Spec.simn (lOf V c) (row t.val (lt1 t) r) (col t.val (lt1 t) s) := by
  refine (Tile1.pay6_apply (iblk1 V c 5 t) (iblk1 V c 6 t) (iblk1 V c 0 t) (iblk1 V c 1 t) r s).trans ?_
  simp only [Tile1.blk5_apply V c t, Tile1.blk6_apply V c t, Tile1.blk0_apply V c t _ h0, Tile1.blk1_apply V c t _ h1]
  rfl

/-- The squares of the row block's outputs at an entry. -/
theorem Tile1.sqT1_apply (c : Dev nD) (t : Fin cfg1.N) (r : Fin 512) (d : Fin 256) :
    sqT1 (F := Ideal) V c t (ix2 r d) = oOf V c (row t.val (lt1 t) r) d * oOf V c (row t.val (lt1 t) r) d := by
  show (fun x y : EReal => x * y) (iblk1 V c 3 t (ix2 r d)) (iblk1 V c 3 t (ix2 r d)) = _
  rw [Tile1.blk3_apply]

/-- The point's distance tile at an entry: the specification's distance, at the tile's row and column. -/
theorem Tile1.dist1_apply (c : Dev nD) (t : Fin cfg1.N)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c)) (r s : Fin 512) :
    k1_pay8 (F := Ideal) (iblk1 V c 3 t) (iblk1 V c 4 t) (simnT1 V c t) (sqT1 V c t) (iblk1 V c 2 t) (ix2 r s)
      = Cert.Spec.dist (oOf V c) (lOf V c) (row t.val (lt1 t) r) (col t.val (lt1 t) s) := by
  refine (Tile1.pay8_apply (iblk1 V c 3 t) (iblk1 V c 4 t) (simnT1 V c t) (sqT1 V c t) (iblk1 V c 2 t) r s).trans ?_
  unfold Tile1.d2T
  simp only [Tile1.simnT1_apply V c t h0 h1, Tile1.sqT1_apply V c t, Tile1.blk3_apply V c t, Tile1.blk4_apply V c t,
    Tile1.blk2_apply V c t _ h2]
  rfl

/-- One point's update of a row's running sum of the positive pairs' exponentials. -/
theorem posStep1_apply (c : Dev nD) (t : Fin cfg1.N)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c))
    (P : Vec Ideal S512x1 .f32) (r : Fin 512) :
    posStep1 (F := Ideal) V c t P (ix2 r 0) = P (ix2 r 0) + ∑ s : Fin 512,
      Cert.Spec.ep (oOf V c) (lOf V c) (row t.val (lt1 t) r) (col t.val (lt1 t) s) := by
  unfold posStep1
  rw [Tile1.pay1_eq]
  refine (Tile1.pay11_apply (iblk1 V c 3 t) (iblk1 V c 4 t) (simnT1 V c t) (sqT1 V c t) (iblk1 V c 2 t) P r).trans ?_
  refine congrArg (fun x : EReal => P (ix2 r 0) + x) (Finset.sum_congr rfl fun s _ => ?_)
  rw [Tile1.dist1_apply V c t h0 h1 h2 r s, Tile1.simnT1_apply V c t h0 h1 r s]
  rfl

/-- One point's update of a row's running sum of the other pairs' exponentials. -/
theorem negStep1_apply (c : Dev nD) (t : Fin cfg1.N)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c))
    (Q : Vec Ideal S512x1 .f32) (r : Fin 512) :
    negStep1 (F := Ideal) V c t Q (ix2 r 0) = Q (ix2 r 0) + ∑ s : Fin 512,
      Cert.Spec.en (oOf V c) (lOf V c) (row t.val (lt1 t) r) (col t.val (lt1 t) s) := by
  unfold negStep1
  refine (Tile1.pay2_apply _ Q r).trans ?_
  refine congrArg (fun x : EReal => Q (ix2 r 0) + x) (Finset.sum_congr rfl fun s _ => ?_)
  refine (Tile1.pay10_apply (iblk1 V c 3 t) (iblk1 V c 4 t) (simnT1 V c t) (sqT1 V c t) (iblk1 V c 2 t) r s).trans ?_
  rw [Tile1.dist1_apply V c t h0 h1 h2 r s, Tile1.simnT1_apply V c t h0 h1 r s]
  rfl

/-- The block of row losses from the two running sums. -/
theorem pay3_apply (P Q : Vec Ideal S512x1 .f32) (r : Fin 512) :
    k1_pay3 (F := Ideal) P Q (ix2 r 0)
      = max (Ideal.log (P (ix2 r 0))) Cert.Spec.zero + max (Ideal.log (Q (ix2 r 0))) Cert.Spec.zero := rfl

end Cert.KernelIdeal.Val

end
-- ==== Proof.KIVal1Acc.lean ====
/-
  The two running sums of the second region in closed form along a row block: after the point at column block `b` of
  row block `a`, each row's running sum is the sum, over the column blocks `0 … b` and the 512 columns of each, of the
  pairs' masked exponentials.
-/
import proofs.«136872_j61607010893834_1_alg».proof.Proof.KIVal1Tile

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

/-- Row `r` of row block `a` and column `s` of column block `b` of the pair space, as total functions of the block
    number (reduced modulo 8192, which changes nothing for a block number below 16). -/
def rowB (a : ℕ) (r : Fin 512) : Fin 8192 := ⟨(512 * a + r.val) % 8192, Nat.mod_lt _ (by decide)⟩
def colB (b : ℕ) (s : Fin 512) : Fin 8192 := ⟨(512 * b + s.val) % 8192, Nat.mod_lt _ (by decide)⟩

theorem row_eq_rowB (n : ℕ) (hn : n < 256) (r : Fin 512) : row n hn r = rowB (n / 16) r :=
  Fin.ext (by show 512 * (n / 16) + r.val = (512 * (n / 16) + r.val) % 8192; have := r.isLt; omega)
theorem col_eq_colB (n : ℕ) (hn : n < 256) (s : Fin 512) : col n hn s = colB (n % 16) s :=
  Fin.ext (by show 512 * (n % 16) + s.val = (512 * (n % 16) + s.val) % 8192; have := s.isLt; omega)

/-- One point's updates, with the tile's rows and columns named by the point's row and column block. -/
theorem posStep1_blk (c : Dev nD) (t : Fin cfg1.N)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c))
    (P : Vec Ideal S512x1 .f32) (r : Fin 512) :
    posStep1 (F := Ideal) V c t P (ix2 r 0) = P (ix2 r 0) + ∑ s : Fin 512,
      Cert.Spec.ep (oOf V c) (lOf V c) (rowB (t.val / 16) r) (colB (t.val % 16) s) := by
  refine (posStep1_apply V c t h0 h1 h2 P r).trans ?_
  rw [row_eq_rowB]
  simp only [col_eq_colB]
theorem negStep1_blk (c : Dev nD) (t : Fin cfg1.N)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c))
    (Q : Vec Ideal S512x1 .f32) (r : Fin 512) :
    negStep1 (F := Ideal) V c t Q (ix2 r 0) = Q (ix2 r 0) + ∑ s : Fin 512,
      Cert.Spec.en (oOf V c) (lOf V c) (rowB (t.val / 16) r) (colB (t.val % 16) s) := by
  refine (negStep1_apply V c t h0 h1 h2 Q r).trans ?_
  rw [row_eq_rowB]
  simp only [col_eq_colB]

/-- The running sums at two spellings of one position. -/
theorem acc1_same (c : Dev nD) (u n : ℕ) (hu : u < cfg1.N) (hn : n < cfg1.N) (e : u = n) :
    acc1 (F := Ideal) V c u hu = acc1 (F := Ideal) V c n hn := by subst e; rfl

/-- The running sums after the point at column block `b` of row block `a`: the column blocks `0 … b` summed
    (induction on `b`: column block 0 starts from zero, each later one adds its tile to what the point before left). -/
theorem acc1_closed (c : Dev nD)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c)) (a : ℕ) :
    ∀ (b : ℕ) (hb : b < 16) (h : 16 * a + b < cfg1.N) (r : Fin 512),
      (acc1 (F := Ideal) V c (16 * a + b) h).1 (ix2 r 0)
          = ∑ b' ∈ Finset.range (b + 1), ∑ s : Fin 512, Cert.Spec.ep (oOf V c) (lOf V c) (rowB a r) (colB b' s)
        ∧ (acc1 (F := Ideal) V c (16 * a + b) h).2 (ix2 r 0)
          = ∑ b' ∈ Finset.range (b + 1), ∑ s : Fin 512, Cert.Spec.en (oOf V c) (lOf V c) (rowB a r) (colB b' s)
  | 0, hb, h, r => by
    have hd : (16 * a + 0) / 16 = a := by omega
    have hm : (16 * a + 0) % 16 = 0 := by omega
    have e : acc1 (F := Ideal) V c (16 * a + 0) h = _ := acc1_first (F := Ideal) V c ⟨16 * a + 0, h⟩ hm
    rw [e]
    show posStep1 (F := Ideal) V c ⟨16 * a + 0, h⟩ (k1_pay4 (F := Ideal)) (ix2 r 0) = _ ∧ negStep1 (F := Ideal) V c ⟨16 * a + 0, h⟩ (k1_pay5 (F := Ideal)) (ix2 r 0) = _
    rw [posStep1_blk V c _ h0 h1 h2, negStep1_blk V c _ h0 h1 h2, pay4_zero, pay5_zero]
    show (0 : EReal) + ∑ s : Fin 512, Cert.Spec.ep (oOf V c) (lOf V c) (rowB ((16 * a + 0) / 16) r) (colB ((16 * a + 0) % 16) s) = _
      ∧ (0 : EReal) + ∑ s : Fin 512, Cert.Spec.en (oOf V c) (lOf V c) (rowB ((16 * a + 0) / 16) r) (colB ((16 * a + 0) % 16) s) = _
    rw [hd, hm]
    refine ⟨?_, ?_⟩ <;> simp only [zero_add, Finset.sum_range_one]
  | b + 1, hb, h, r => by
    have hd : (16 * a + (b + 1)) / 16 = a := by omega
    have hm : (16 * a + (b + 1)) % 16 = b + 1 := by omega
    have hne : ¬ (16 * a + (b + 1)) % 16 = 0 := by omega
    have hlt : 16 * a + b < cfg1.N := Nat.lt_of_succ_lt h
    obtain ⟨ihp, ihn⟩ := acc1_closed c h0 h1 h2 a b (Nat.lt_of_succ_lt hb) hlt r
    have e : acc1 (F := Ideal) V c (16 * a + (b + 1)) h = _ := acc1_next (F := Ideal) V c ⟨16 * a + (b + 1), h⟩ hne
    rw [e]
    show posStep1 (F := Ideal) V c ⟨16 * a + (b + 1), h⟩ _ (ix2 r 0) = _ ∧ negStep1 (F := Ideal) V c ⟨16 * a + (b + 1), h⟩ _ (ix2 r 0) = _
    rw [posStep1_blk V c _ h0 h1 h2, negStep1_blk V c _ h0 h1 h2]
    rw [acc1_same V c (16 * a + (b + 1) - 1) (16 * a + b) _ hlt (by omega), ihp, ihn]
    show _ + ∑ s : Fin 512, Cert.Spec.ep (oOf V c) (lOf V c) (rowB ((16 * a + (b + 1)) / 16) r) (colB ((16 * a + (b + 1)) % 16) s) = _
      ∧ _ + ∑ s : Fin 512, Cert.Spec.en (oOf V c) (lOf V c) (rowB ((16 * a + (b + 1)) / 16) r) (colB ((16 * a + (b + 1)) % 16) s) = _
    rw [hd, hm]
    exact ⟨(Finset.sum_range_succ _ (b + 1)).symm, (Finset.sum_range_succ _ (b + 1)).symm⟩

end Cert.KernelIdeal.Val

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.KIVal1.lean ====
/-
  What the second region leaves in its output array, the 8192 × 1 column of row losses: at the last column block of a
  row block the two running sums are the sums over all 8192 columns, the block of row losses written back there is the
  specification's row loss at the block's rows, and the sixteen blocks written back tile the column.
-/
import proofs.«136872_j61607010893834_1_alg».proof.Proof.KIVal1Acc
import proofs.«136872_j61607010893834_1_alg».proof.Proof.LibSumRegroup
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- Sixteen column blocks of 512 columns are all 8192 columns: column `512 p + q` is column `q` of block `p`. -/
theorem sum_colB (g : Fin 8192 → EReal) :
    ∑ b' ∈ Finset.range 16, ∑ s : Fin 512, g (colB b' s) = ∑ j : Fin 8192, g j := by
  rw [Finset.sum_range (fun b' => ∑ s : Fin 512, g (colB b' s))]
  refine Eq.symm ((Cert.SumRegroup.sum_fin_mul 16 512 (fun j : Fin (16 * 512) => g j)).trans ?_)
  refine Finset.sum_congr rfl fun p _ => Finset.sum_congr rfl fun q _ => congrArg g (Fin.ext ?_)
  show p.val * 512 + q.val = (512 * p.val + q.val) % 8192
  have hp := p.isLt
  have hq := q.isLt
  omega

/-- The block of row losses after a row block's last point: the specification's row loss at the block's rows. -/
theorem after1_7_apply (c : Dev nD)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c))
    (t : Fin cfg1.N) (hf : t.val % 16 = 15) (r : Fin 512) :
    ((dat1 (F := Ideal) V c).after 7 t : S512x1.Idx → EReal) (ix2 r 0)
      = Cert.Spec.loss (oOf V c) (lOf V c) (rowB (t.val / 16) r) := by
  have hlt : 16 * (t.val / 16) + 15 < cfg1.N := lt_of_eq_of_lt (by omega) t.isLt
  have hs : acc1 (F := Ideal) V c t.val t.isLt = acc1 (F := Ideal) V c (16 * (t.val / 16) + 15) hlt :=
    acc1_same V c _ _ _ _ (by omega)
  obtain ⟨ep, en⟩ := acc1_closed V c h0 h1 h2 (t.val / 16) 15 (by decide) hlt r
  rw [after1_7, hs]
  refine (pay3_apply _ _ r).trans ?_
  rw [ep, en, sum_colB (fun j => Cert.Spec.ep (oOf V c) (lOf V c) (rowB (t.val / 16) r) j),
    sum_colB (fun j => Cert.Spec.en (oOf V c) (lOf V c) (rowB (t.val / 16) r) j)]
  rfl

/-- The index map of the row-loss window at every point of the grid: the block at point `t` is block `t / 16` of the
    column. -/
theorem idx1_7 : ∀ t : Fin cfg1.N, win1_7.index t (0 : Fin 2) = t.val / 16 ∧ win1_7.index t (1 : Fin 2) = 0 :=
  (by decide +kernel : ∀ t : Fin grid1.N, _)

/-- The column of row losses, as contents of the output array. -/
def lossCol (c : Dev nD) : S8192x1.Idx → EReal :=
  fun j => Cert.Spec.loss (oOf V c) (lOf V c) ⟨(j 0).val, idx2_lt0 j⟩

/-- What a point that writes its block back writes: its block of the column of row losses. The block's row `y` sits
    at row `512 (t / 16) + y` of the column. -/
theorem flushed1_7_eq (c : Dev nD)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c))
    (t : Fin cfg1.N) (hf : (cfg1.win 7).flush t = true) :
    (dat1 (F := Ideal) V c).flushed 7 t = ((cfg1.win 7).blk t).view.read (Elt Ideal) (lossCol V c) := by
  have hm : t.val % 16 = 15 := (flush1_7 t).mp hf
  obtain ⟨i0, i1⟩ := idx1_7 t
  funext y
  have hy0 : (y 0).val < 512 := (y 0).isLt
  have hy1 : (y 1).val < 1 := (y 1).isLt
  show ((dat1 (F := Ideal) V c).after 7 t : S512x1.Idx → EReal) ((cfg1.win 7).xinj (grid1.coords t) y)
    = lossCol V c (((cfg1.win 7).blk t).view.emb y)
  have ex : (cfg1.win 7).xinj (grid1.coords t) y = ix2 (⟨(y 0).val, hy0⟩ : Fin 512) (0 : Fin 1) := by
    funext a
    apply Fin.ext
    match a with
    | ⟨0, _⟩ => rfl
    | ⟨1, _⟩ => show (y 1).val = 0; omega
  rw [ex, after1_7_apply V c h0 h1 h2 t hm]
  unfold lossCol
  refine congrArg _ (Fin.ext ?_)
  show (512 * (t.val / 16) + (y 0).val) % 8192 = win1_7.index t 0 * 512 + 1 * (y 0).val
  rw [i0]
  have hlt := lt1 t
  omega

/-- Every row of the column lies in the block some point writes back: row `i` in that of the last point of row block
    `i / 512`. -/
theorem cover1_7 (i : S8192x1.Idx) :
    ∃ t : Fin cfg1.N, (cfg1.win 7).flush t = true ∧ i ∈ ((cfg1.win 7).blk t).view.set := by
  have hi0 : (i 0).val < 8192 := idx2_lt0 i
  have hi1 : (i 1).val < 1 := idx2_lt1 i
  have hN : cfg1.N = 256 := N_1
  have hlt : 16 * ((i 0).val / 512) + 15 < cfg1.N := by rw [hN]; omega
  obtain ⟨e0, e1⟩ := idx1_7 ⟨16 * ((i 0).val / 512) + 15, hlt⟩
  refine ⟨⟨16 * ((i 0).val / 512) + 15, hlt⟩, (flush1_7 _).mpr (by show (16 * ((i 0).val / 512) + 15) % 16 = 15; omega), ?_⟩
  show i ∈ ((View.whole main_v1).slice (win1_7.rect ⟨16 * ((i 0).val / 512) + 15, hlt⟩)).set
  rw [View.set_slice_whole, Rect.mem_set_unit]
  intro a
  match a with
  | ⟨0, _⟩ =>
    show win1_7.index ⟨16 * ((i 0).val / 512) + 15, hlt⟩ 0 * 512 ≤ (i 0).val
      ∧ (i 0).val < win1_7.index ⟨16 * ((i 0).val / 512) + 15, hlt⟩ 0 * 512 + 512
    rw [e0]
    show (16 * ((i 0).val / 512) + 15) / 16 * 512 ≤ (i 0).val ∧ (i 0).val < (16 * ((i 0).val / 512) + 15) / 16 * 512 + 512
    omega
  | ⟨1, _⟩ =>
    show win1_7.index ⟨16 * ((i 0).val / 512) + 15, hlt⟩ 1 * 1 ≤ (i 1).val
      ∧ (i 1).val < win1_7.index ⟨16 * ((i 0).val / 512) + 15, hlt⟩ 1 * 1 + 1
    rw [e1]
    omega

/-- THE OUTPUT ARRAY of the second region after its run: the specification's row losses. -/
theorem arrAt1_7 (c : Dev nD)
    (h0 : (V c main_v0_0 : S1x1.Idx → EReal) = fun _ => Cert.Spec.smin (lOf V c))
    (h1 : (V c main_v0_1 : S1x1.Idx → EReal) = fun _ => Cert.Spec.smax (lOf V c))
    (h2 : (V c main_v0_2 : S1x1.Idx → EReal) = fun _ => Cert.Spec.emax (oOf V c)) (i : Fin 8192) :
    ((dat1 (F := Ideal) V c).arrAt 7 cfg1.N : S8192x1.Idx → EReal) (ix2 i 0)
      = Cert.Spec.loss (oOf V c) (lOf V c) i := by
  have h := (dat1 (F := Ideal) V c).arrAt_eq_of_cover 7 (lossCol V c)
    (fun t hf => flushed1_7_eq V c h0 h1 h2 t hf) cover1_7
  rw [h]
  rfl

end Cert.KernelIdeal.Val

end
-- ==== Proof.KITail.lean ====
/-
  The host's two operations after the second region: the column of row losses summed over both its axes from the zero
  word, and the sum divided by the word of 8192. At the exact instance that is the mean of the rows' losses.
-/
import proofs.«136872_j61607010893834_1_alg».proof.Proof.KIIdx
import Idealize.ShloMosaic.PureOps.Ideal.Laws

noncomputable section

namespace Cert.KernelIdeal.Val

open Cert.KernelIdeal Cert.KernelIdeal.Facts₀ Cert.KernelIdeal.Facts Idealize.ShloMosaic Idealize.ShloMosaic.TcCoe Idealize.ShloMosaic.ValueIdx

/-- The two host operations, as one function of the column. -/
def tail {F : FTy → Type} [FloatOps F] (X : (⟨S8192x1, .f32⟩ : BufTy).Contents (Elt F)) : (⟨S_, .f32⟩ : BufTy).Contents (Elt F) :=
  Host.divf (Host.reduceAdd X (constant S_ .f32 0x00000000#32) reducesTo_S8192x1_S_d0_1 h_S_) (constant S_ .f32 0x46000000#32)

/-- A column whose entry `(i, 0)` is row `i`'s loss is sent to the specification's mean. -/
theorem tail_eq (X : (⟨S8192x1, .f32⟩ : BufTy).Contents (Elt Ideal)) (o : Fin 8192 → Fin 256 → EReal) (l : Fin 8192 → Fin 128 → EReal)
    (hX : ∀ i : Fin 8192, X (ix2 i 0) = Cert.Spec.loss o l i) (j : S_.Idx) :
    tail (F := Ideal) X j = Cert.Spec.result o l := by
  unfold tail
  simp only [Host.divf, Host.reduceAdd, Ideal.hostReduceAdd_def]
  show Ideal.div (Ideal.hostReduceAdd reducesTo_S8192x1_S_d0_1 X _ j) _ = _
  rw [Ideal.hostReduceAdd_total reducesTo_S8192x1_S_d0_1 (fun b => b.elim0) X _ j]
  unfold Cert.Spec.result Cert.Spec.cnt
  refine congrArg (fun z => Ideal.div z _) ?_
  show Ideal.ofBits .f32 0x00000000#32 + _ = _
  rw [Ideal.ofBits_zero_f32, zero_add, sum_idx2 (n0 := 8192) (n1 := 1) X]
  refine Finset.sum_congr rfl fun i _ => ?_
  rw [Fin.sum_univ_one]
  exact hX i

end Cert.KernelIdeal.Val

end
-- ==== Proof.KIAlg.lean ====
/-
  The kernel at the exact instance, assembled: the first region leaves the three global extremes in its result arrays,
  the second, entered with those, leaves the column of row losses, and the host's sum and division make the mean; so the
  program's result buffer ends at the specification's value of the launch contents of the two argument arrays.
-/
import proofs.«136872_j61607010893834_1_alg».proof.Proof.KISeg
import proofs.«136872_j61607010893834_1_alg».proof.Proof.KIBody0
import proofs.«136872_j61607010893834_1_alg».proof.Proof.KIBody1
import proofs.«136872_j61607010893834_1_alg».proof.Proof.KIVal0
import proofs.«136872_j61607010893834_1_alg».proof.Proof.KIVal1
import proofs.«136872_j61607010893834_1_alg».proof.Proof.KITail

noncomputable section

namespace Cert.KernelIdeal.Val

open Cert.KernelIdeal Cert.KernelIdeal.Facts₀ Cert.KernelIdeal.Facts Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The two argument arrays at launch, entry by entry. -/
def oM (c : Dev nD) : Fin 8192 → Fin 256 → EReal :=
  fun a d => (m ((c.tc : Thread nD τ).loc main_arg0) : S8192x256.Idx → EReal) (ix2 a d)
def lM (c : Dev nD) : Fin 8192 → Fin 128 → EReal :=
  fun a k => (m ((c.tc : Thread nD τ).loc main_arg1) : S8192x128.Idx → EReal) (ix2 a k)

/-- Both regions are entered with the argument arrays at their launch contents. -/
theorem oOf_Vin0 (c : Dev nD) : oOf (Vin0 m) c = oM m c := rfl
theorem lOf_Vin0 (c : Dev nD) : lOf (Vin0 m) c = lM m c := rfl
theorem oOf_Vin1 (c : Dev nD) : oOf (Vin1 m) c = oM m c := by
  unfold oOf oM; rw [Vin1_arg0]
theorem lOf_Vin1 (c : Dev nD) : lOf (Vin1 m) c = lM m c := by
  unfold lOf lM; rw [Vin1_arg1]

/-- The second region finds the three global extremes in its scalar windows' arrays. -/
theorem Vin1_smin (c : Dev nD) : (Vin1 m c main_v0_0 : S1x1.Idx → EReal) = fun _ => Cert.Spec.smin (lOf (Vin1 m) c) := by
  rw [Vin1_v0_0, lOf_Vin1, ← lOf_Vin0]; exact arrAt0_4 (Vin0 m) c
theorem Vin1_smax (c : Dev nD) : (Vin1 m c main_v0_1 : S1x1.Idx → EReal) = fun _ => Cert.Spec.smax (lOf (Vin1 m) c) := by
  rw [Vin1_v0_1, lOf_Vin1, ← lOf_Vin0]; exact arrAt0_5 (Vin0 m) c
theorem Vin1_emax (c : Dev nD) : (Vin1 m c main_v0_2 : S1x1.Idx → EReal) = fun _ => Cert.Spec.emax (oOf (Vin1 m) c) := by
  rw [Vin1_v0_2, oOf_Vin1, ← oOf_Vin0]; exact arrAt0_6 (Vin0 m) c

/-- THE KERNEL'S RUN: every weakly fair execution ends with the result buffer at the specification's mean of the row
    losses of the launch contents, and the arguments unchanged. -/
theorem kernel_run :
    θ_run defs (onTc (τ := τ) (main (F := Ideal))) ⟨m, fun _ => 0, ρ⟩ fun r => ∀ c : Dev nD,
      r.2.mem ((c.tc : Thread nD τ).loc main_v3) = (fun _ => Cert.Spec.result (oM m c) (lM m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext j
      have e := tail_eq ((dat1 (F := Ideal) (Vin1 m) c).arrAt 7 cfg1.N) (oOf (Vin1 m) c) (lOf (Vin1 m) c)
        (fun i => arrAt1_7 (Vin1 m) c (Vin1_smin m c) (Vin1_smax m c) (Vin1_emax m c) i) j
      rw [oOf_Vin1, lOf_Vin1] at e
      exact e), (h c).2⟩)
    (run_value (F := Ideal) m ρ (fun V c => body_obligation0 V c) (fun V c => body_obligation1 V c)
      (fun V c => hin1 V c) (fun V c => hout1 V c))

end Cert.KernelIdeal.Val

end
-- ==== Proof.RefRed.lean ====
/-
  The global minimum and maximum of a matrix, as the host computes them, are the infimum and supremum over both
  coordinates: a fold of `min` from +∞ (of `max` from −∞) over every entry, in any order, is the greatest lower
  (least upper) bound of the entries.
-/
import proofs.«136872_j61607010893834_1_alg».proof.Proof.Gen.ReferenceIdeal.Read
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- A fold of `min` from `⊤` over all entries of a matrix is the infimum over both coordinates. -/
theorem fold_min_top_idx2 {n0 n1 : Nat} (x : (⟨2, ![n0, n1]⟩ : Shape).Idx → EReal) :
    (Finset.univ.fold min (⊤ : EReal) x) = ⨅ a : Fin n0, ⨅ b : Fin n1, x (ix2 a b) := by
  refine eq_of_forall_le_iff fun c => ?_
  rw [Finset.le_fold_min]
  simp only [le_top, true_and, Finset.mem_univ, forall_true_left, le_iInf_iff]
  constructor
  · intro h a b; exact h _
  · intro h i; rw [eq_ix2 i]; exact h _ _

/-- A fold of `max` from `⊥` over all entries of a matrix is the supremum over both coordinates. -/
theorem fold_max_bot_idx2 {n0 n1 : Nat} (x : (⟨2, ![n0, n1]⟩ : Shape).Idx → EReal) :
    (Finset.univ.fold max (⊥ : EReal) x) = ⨆ a : Fin n0, ⨆ b : Fin n1, x (ix2 a b) := by
  refine eq_of_forall_ge_iff fun c => ?_
  rw [Finset.fold_max_le]
  simp only [bot_le, true_and, Finset.mem_univ, forall_true_left, iSup_le_iff]
  constructor
  · intro h a b; exact h _
  · intro h i; rw [eq_ix2 i]; exact h _ _

theorem ofBits_pinf : Ideal.ofBits .f32 0x7F800000#32 = (⊤ : EReal) := by simp [Ideal.ofBits, Ideal.ieee]
theorem ofBits_ninf : Ideal.ofBits .f32 0xFF800000#32 = (⊥ : EReal) := by simp [Ideal.ofBits, Ideal.ieee]

/-- The host's minimum-reduce of an 8192 × 8192 matrix over both axes, from +∞, is the infimum of its entries. -/
theorem reduce_min_all (x : S8192x8192.Idx → Ideal .f32) (j : S_.Idx) :
    Host.reduce FloatOps.minimumf x (constant (F := Ideal) S_ .f32 0x7F800000#32) reducesTo_S8192x8192_S_d0_1 h_S_ j
      = ⨅ a : Fin 8192, ⨅ b : Fin 8192, x (ix2 a b) := by
  rw [Host.reduce_eq_fold]
  rw [Finset.filter_true_of_mem (fun i _ => funext fun d => d.elim0)]
  refine Eq.trans ?_ (fold_min_top_idx2 x)
  show Finset.fold min (Ideal.ofBits .f32 0x7F800000#32) x Finset.univ = _
  rw [ofBits_pinf]

/-- The host's maximum-reduce of an 8192 × 8192 matrix over both axes, from −∞, is the supremum of its entries. -/
theorem reduce_max_all (x : S8192x8192.Idx → Ideal .f32) (j : S_.Idx) :
    Host.reduce FloatOps.maximumf x (constant (F := Ideal) S_ .f32 0xFF800000#32) reducesTo_S8192x8192_S_d0_1 h_S_ j
      = ⨆ a : Fin 8192, ⨆ b : Fin 8192, x (ix2 a b) := by
  rw [Host.reduce_eq_fold]
  rw [Finset.filter_true_of_mem (fun i _ => funext fun d => d.elim0)]
  refine Eq.trans ?_ (fold_max_bot_idx2 x)
  show Finset.fold max (Ideal.ofBits .f32 0xFF800000#32) x Finset.univ = _
  rw [ofBits_ninf]

end Cert.ReferenceIdeal.RefValue

end
-- ==== Proof.RefSim.lean ====
/-
  The similarity side of the reference, stage by stage, is the specification's: each label row divided by its norm
  plus ε, the matrix of inner products of the normalised rows, its least and greatest entry, and the min-max
  normalised similarity.
-/
import proofs.«136872_j61607010893834_1_alg».proof.Proof.Gen.ReferenceIdeal.Read
import proofs.«136872_j61607010893834_1_alg».proof.Proof.Spec
import proofs.«136872_j61607010893834_1_alg».proof.Proof.RefRed
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x1 : (⟨S8192x128, .f32⟩ : BufTy).Contents (Elt Ideal))

/-- The label array by coordinates. -/
abbrev lab : Fin 8192 → Fin 128 → EReal := fun a c => x1 (ix2 a c)

/-- A label row's sum of squares. -/
theorem sumsq_eq (i : Fin 8192) :
    val_main_call0_v1 (F := Ideal) x1 (ix1 i) = ∑ c : Fin 128, lab x1 i c * lab x1 i c := by
  rw [val_main_call0_v1_apply, val_main_call0_cst_apply, Ideal.ofBits_def, Ideal.ofBits_zero_f32, zero_add]
  refine Finset.sum_congr rfl fun k _ => ?_
  rw [val_main_call0_v0_apply, Ideal.mulf_def]
  have e : idx_main_call0_v1 (ix1 i) k = ix2 i k := funext fun a => match a with | ⟨0, _⟩ => rfl | ⟨1, _⟩ => rfl
  rw [e]

/-- A label row's norm plus ε. -/
theorem nrm_eq (i : Fin 8192) (z : Fin 1) :
    val_main_v2 (F := Ideal) x1 (ix2 i z) = Cert.Spec.nrm (lab x1) i := by
  rw [val_main_v2_apply, val_main_v0_apply, val_main_call0_v2_apply, val_main_v1_apply, val_main_cst_apply,
    Ideal.addf_def, Ideal.hostUnary_sqrt_def, Ideal.ofBits_def]
  have e : idx_main_call0_v2 (ix2 i z) = ix1 i := funext fun a => match a with | ⟨0, _⟩ => rfl
  rw [e, sumsq_eq]
  rfl

/-- The normalised label rows. -/
theorem ln_eq (i : Fin 8192) (c : Fin 128) :
    val_main_v4 (F := Ideal) x1 (ix2 i c) = Cert.Spec.ln (lab x1) i c := by
  rw [val_main_v4_apply, val_main_v3_apply, Ideal.hostDivf_def]
  have e : idx_main_v3 (ix2 i c) = ix2 i (0 : Fin 1) := funext fun a => match a with | ⟨0, _⟩ => rfl | ⟨1, _⟩ => rfl
  rw [e, nrm_eq]
  rfl

/-- The cosine-similarity matrix. -/
theorem sim_eq (i j : Fin 8192) :
    val_main_v6 (F := Ideal) x1 (ix2 i j) = Cert.Spec.sim (lab x1) i j := by
  rw [val_main_v6_apply]
  refine Finset.sum_congr rfl fun k _ => ?_
  rw [val_main_v5_apply]
  have e1 : lidx_main_v6 (ix2 i j) k = ix2 i k := funext fun a => match a with | ⟨0, _⟩ => rfl | ⟨1, _⟩ => rfl
  have e2 : idx_main_v5 (ridx_main_v6 (ix2 i j) k) = ix2 j k :=
    funext fun a => match a with | ⟨0, _⟩ => rfl | ⟨1, _⟩ => rfl
  rw [e1, e2, ln_eq, ln_eq]

/-- The least similarity. -/
theorem smin_eq (j : S_.Idx) : val_main_v7 (F := Ideal) x1 j = Cert.Spec.smin (lab x1) := by
  refine (reduce_min_all (val_main_v6 (F := Ideal) x1) j).trans ?_
  unfold Cert.Spec.smin
  exact iInf_congr fun a => iInf_congr fun b => sim_eq x1 a b

theorem smin_eq' (j : S_.Idx) : val_main_v11 (F := Ideal) x1 j = Cert.Spec.smin (lab x1) := by
  refine (reduce_min_all (val_main_v6 (F := Ideal) x1) j).trans ?_
  unfold Cert.Spec.smin
  exact iInf_congr fun a => iInf_congr fun b => sim_eq x1 a b

/-- The greatest similarity. -/
theorem smax_eq (j : S_.Idx) : val_main_v10 (F := Ideal) x1 j = Cert.Spec.smax (lab x1) := by
  refine (reduce_max_all (val_main_v6 (F := Ideal) x1) j).trans ?_
  unfold Cert.Spec.smax
  exact iSup_congr fun a => iSup_congr fun b => sim_eq x1 a b

/-- The min-max normalised similarity. -/
theorem simn_eq (i j : Fin 8192) :
    val_main_v14 (F := Ideal) x1 (ix2 i j) = Cert.Spec.simn (lab x1) i j := by
  rw [val_main_v14_apply, val_main_v9_apply, val_main_v8_apply, val_main_v13_apply, val_main_v12_apply,
    Ideal.hostDivf_def, Ideal.subf_def, Ideal.subf_def, smin_eq, smin_eq', smax_eq, sim_eq]
  rfl

end Cert.ReferenceIdeal.RefValue

end
-- ==== Proof.RefDist.lean ====
/-
  The distance side of the reference, stage by stage, is the specification's: the rows' squared norms, the Gram
  matrix, the clamped squared distance, its safe square root (masked where the squared distance is not positive),
  and the greatest such distance.
-/
import proofs.«136872_j61607010893834_1_alg».proof.Proof.Gen.ReferenceIdeal.Read
import proofs.«136872_j61607010893834_1_alg».proof.Proof.Spec
import proofs.«136872_j61607010893834_1_alg».proof.Proof.RefRed
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A select on the bit of a strict comparison is the `if` on the comparison. -/
theorem select_cmp_ogt {α : Type} (x y : EReal) (a b : α) :
    Scalar.select (Ideal.cmp .ogt x y) a b = if y < x then a else b := by
  show (if BitVec.ofBool (decide (y < x)) = 1 then a else b) = _
  by_cases h : y < x <;> simp [h]

/-- The bit of a strict comparison, read as an unsigned integer, is 1 where it holds and 0 elsewhere. -/
theorem uitofp_cmp_ogt (x y : EReal) :
    FloatOps.uitofp (F := Ideal) .f32 (Ideal.cmp .ogt x y) = if y < x then (1 : EReal) else 0 := by
  show (((BitVec.ofBool (decide (y < x))).toNat : ℝ) : EReal) = _
  by_cases h : y < x <;> simp [h]

variable (x0 : (⟨S8192x256, .f32⟩ : BufTy).Contents (Elt Ideal))

/-- The output array by coordinates. -/
abbrev outp : Fin 8192 → Fin 256 → EReal := fun a d => x0 (ix2 a d)

/-- A row's squared norm. -/
theorem sq_eq (i : Fin 8192) : val_main_v16 (F := Ideal) x0 (ix1 i) = Cert.Spec.sq (outp x0) i := by
  unfold Cert.Spec.sq
  rw [val_main_v16_apply, val_main_cst_3_apply, Ideal.ofBits_def, Ideal.ofBits_zero_f32, zero_add]
  refine Finset.sum_congr rfl fun k _ => ?_
  rw [val_main_v15_apply, Ideal.mulf_def]
  have e : idx_main_v16 (ix1 i) k = ix2 i k := funext fun a => match a with | ⟨0, _⟩ => rfl | ⟨1, _⟩ => rfl
  rw [e]

/-- Two rows' inner product. -/
theorem cross_eq (i j : Fin 8192) : val_main_v23 (F := Ideal) x0 (ix2 i j) = Cert.Spec.cross (outp x0) i j := by
  unfold Cert.Spec.cross
  rw [val_main_v23_apply]
  refine Finset.sum_congr rfl fun k _ => ?_
  rw [val_main_v22_apply]
  have e1 : lidx_main_v23 (ix2 i j) k = ix2 i k := funext fun a => match a with | ⟨0, _⟩ => rfl | ⟨1, _⟩ => rfl
  have e2 : idx_main_v22 (ridx_main_v23 (ix2 i j) k) = ix2 j k :=
    funext fun a => match a with | ⟨0, _⟩ => rfl | ⟨1, _⟩ => rfl
  rw [e1, e2]

/-- The clamped squared distance. -/
theorem d2_eq (i j : Fin 8192) : val_main_v28 (F := Ideal) x0 (ix2 i j) = Cert.Spec.d2 (outp x0) i j := by
  rw [val_main_v28_apply, val_main_v26_apply, val_main_v21_apply, val_main_v19_apply, val_main_v17_apply,
    val_main_v20_apply, val_main_v18_apply, val_main_v25_apply, val_main_v24_apply, val_main_cst_4_apply,
    val_main_v27_apply, val_main_cst_5_apply, Ideal.maximumf_def, Ideal.subf_def, Ideal.addf_def, Ideal.mulf_def,
    Ideal.ofBits_def, Ideal.ofBits_def, cross_eq]
  have e1 : idx_main_v17 (idx_main_v19 (ix2 i j)) = ix1 i := funext fun a => match a with | ⟨0, _⟩ => rfl
  have e2 : idx_main_v18 (idx_main_v20 (ix2 i j)) = ix1 j := funext fun a => match a with | ⟨0, _⟩ => rfl
  rw [e1, e2, sq_eq, sq_eq]
  rfl

/-- The safe square root of the clamped squared distance, zero where that is not positive. -/
theorem eud_eq (i j : Fin 8192) : val_main_v34 (F := Ideal) x0 (ix2 i j) = Cert.Spec.eud (outp x0) i j := by
  rw [val_main_v34_apply, val_main_v32_apply, val_main_v33_apply, val_main_v31_apply, val_main_v30_apply,
    val_main_call1_v1_apply, val_main_call1_v0_apply, val_main_cst_7_apply, val_main_v29_apply,
    val_main_cst_6_apply, Ideal.mulf_def, Ideal.hostUnary_sqrt_def, Ideal.cmpf_def, Ideal.ofBits_def,
    Ideal.ofBits_def, select_cmp_ogt, uitofp_cmp_ogt, d2_eq]
  rfl

/-- The greatest distance. -/
theorem emax_eq (j : S_.Idx) : val_main_v35 (F := Ideal) x0 j = Cert.Spec.emax (outp x0) := by
  refine (reduce_max_all (val_main_v34 (F := Ideal) x0) j).trans ?_
  unfold Cert.Spec.emax
  exact iSup_congr fun a => iSup_congr fun b => eud_eq x0 a b

end Cert.ReferenceIdeal.RefValue

end
-- ==== Proof.RefIsSpec.lean ====
/-
  The reference is the specification: the distance (normalised distance plus normalised similarity), the two masked
  exponentials, the rows' sums and losses, and the mean of the losses, stage by stage.
-/
import proofs.«136872_j61607010893834_1_alg».proof.Proof.Gen.ReferenceIdeal.Read
import proofs.«136872_j61607010893834_1_alg».proof.Proof.Spec
import proofs.«136872_j61607010893834_1_alg».proof.Proof.RefSim
import proofs.«136872_j61607010893834_1_alg».proof.Proof.RefDist
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ f (fun a => f (ix1 a))
    fun i => congrArg f (eq_ix1 i)

variable (x0 : (⟨S8192x256, .f32⟩ : BufTy).Contents (Elt Ideal)) (x1 : (⟨S8192x128, .f32⟩ : BufTy).Contents (Elt Ideal))

/-- The distance: normalised Euclidean distance plus normalised similarity. -/
theorem dist_eq (i j : Fin 8192) :
    val_main_v38 (F := Ideal) x0 x1 (ix2 i j) = Cert.Spec.dist (outp x0) (lab x1) i j := by
  rw [val_main_v38_apply, val_main_v37_apply, val_main_v36_apply, Ideal.addf_def, Ideal.hostDivf_def, eud_eq,
    emax_eq, simn_eq]
  rfl

/-- The positive pairs' exponential. -/
theorem ep_eq (i j : Fin 8192) :
    val_main_v42 (F := Ideal) x0 x1 (ix2 i j) = Cert.Spec.ep (outp x0) (lab x1) i j := by
  rw [val_main_v42_apply, val_main_v40_apply, val_main_v41_apply, val_main_call2_v1_apply, val_main_call2_v0_apply,
    val_main_cst_10_apply, val_main_v39_apply, val_main_cst_9_apply, Ideal.cmpf_def, Ideal.hostUnary_exp_def,
    Ideal.ofBits_def, Ideal.ofBits_def, select_cmp_ogt, simn_eq, dist_eq]
  rfl

/-- The other pairs' exponential. -/
theorem en_eq (i j : Fin 8192) :
    val_main_v48 (F := Ideal) x0 x1 (ix2 i j) = Cert.Spec.en (outp x0) (lab x1) i j := by
  rw [val_main_v48_apply, val_main_v40_apply, val_main_v47_apply, val_main_v46_apply, val_main_v45_apply,
    val_main_cst_12_apply, val_main_call3_v1_apply, val_main_call3_v0_apply, val_main_cst_13_apply,
    val_main_v39_apply, val_main_cst_9_apply, Ideal.cmpf_def, Ideal.hostUnary_exp_def, Ideal.subf_def,
    Ideal.ofBits_def, Ideal.ofBits_def, Ideal.ofBits_def, select_cmp_ogt, simn_eq, dist_eq]
  rfl

/-- A row's sum of the positive pairs' exponentials. -/
theorem rowp_eq (i : Fin 8192) :
    val_main_v43 (F := Ideal) x0 x1 (ix1 i) = ∑ j : Fin 8192, Cert.Spec.ep (outp x0) (lab x1) i j := by
  rw [val_main_v43_apply, val_main_cst_11_apply, Ideal.ofBits_def, Ideal.ofBits_zero_f32, zero_add]
  refine Finset.sum_congr rfl fun k _ => ?_
  have e : idx_main_v43 (ix1 i) k = ix2 i k := funext fun a => match a with | ⟨0, _⟩ => rfl | ⟨1, _⟩ => rfl
  rw [e, ep_eq]

/-- A row's sum of the other pairs' exponentials. -/
theorem rown_eq (i : Fin 8192) :
    val_main_v49 (F := Ideal) x0 x1 (ix1 i) = ∑ j : Fin 8192, Cert.Spec.en (outp x0) (lab x1) i j := by
  rw [val_main_v49_apply, val_main_cst_14_apply, Ideal.ofBits_def, Ideal.ofBits_zero_f32, zero_add]
  refine Finset.sum_congr rfl fun k _ => ?_
  have e : idx_main_v49 (ix1 i) k = ix2 i k := funext fun a => match a with | ⟨0, _⟩ => rfl | ⟨1, _⟩ => rfl
  rw [e, en_eq]

/-- A row's loss. -/
theorem loss_eq (i : Fin 8192) :
    val_main_v55 (F := Ideal) x0 x1 (ix1 i) = Cert.Spec.loss (outp x0) (lab x1) i := by
  rw [val_main_v55_apply, val_main_v52_apply, val_main_v54_apply, val_main_v44_apply, val_main_v50_apply,
    val_main_v51_apply, val_main_cst_15_apply, val_main_v53_apply, val_main_cst_16_apply, Ideal.addf_def,
    Ideal.maximumf_def, Ideal.maximumf_def, Ideal.hostUnary_log_def, Ideal.hostUnary_log_def, Ideal.ofBits_def,
    rowp_eq, rown_eq]
  rfl

/-- The sum of the rows' losses. -/
theorem total_eq (j : S_.Idx) :
    val_main_v56 (F := Ideal) x0 x1 j = ∑ i : Fin 8192, Cert.Spec.loss (outp x0) (lab x1) i := by
  rw [val_main_v56_apply, val_main_cst_17_apply, Ideal.ofBits_def, Ideal.ofBits_zero_f32, zero_add, sum_idx1]
  exact Finset.sum_congr rfl fun i _ => loss_eq x0 x1 i

/-- The reference's result is the specification's mean loss of the two argument arrays read by coordinates. -/
theorem ref_is_spec (x0 : (⟨S8192x256, .f32⟩ : BufTy).Contents (Elt Ideal))
    (x1 : (⟨S8192x128, .f32⟩ : BufTy).Contents (Elt Ideal)) (i : S_.Idx) :
    Cert.ReferenceIdeal.Read.val_main_v57 (F := Ideal) x0 x1 i
      = Cert.Spec.result (fun a d => x0 (ValueIdx.ix2 a d)) (fun a c => x1 (ValueIdx.ix2 a c)) := by
  rw [val_main_v57_apply, val_main_cst_18_apply, Ideal.hostDivf_def, Ideal.ofBits_def, total_eq]
  rfl

end Cert.ReferenceIdeal.RefValue

end
-- ==== Proof.RefRun.lean ====
/-
  The reference's side of the claims: its generated run ends with the result buffer at the operations' composed term,
  which is the specification's mean of the row losses of the argument arrays, and with the arguments unchanged.
-/
import proofs.«136872_j61607010893834_1_alg».proof.Defs
import proofs.«136872_j61607010893834_1_alg».proof.Proof.Gen.ReferenceIdeal.Read
import proofs.«136872_j61607010893834_1_alg».proof.Proof.RefIsSpec

noncomputable section

open Idealize.ShloMosaic Idealize.ShloMosaic.TcCoe Idealize.SL.Sem

namespace Cert.ReferenceIdeal.RefValue

open Cert.ReferenceIdeal

/-- The reference's run, its result named by the specification. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57)
          = (fun _ => Cert.Spec.result
              (fun a d => (m ((c.tc : Thread nD τ).loc main_arg0) : S8192x256.Idx → EReal) (ValueIdx.ix2 a d))
              (fun a k => (m ((c.tc : Thread nD τ).loc main_arg1) : S8192x128.Idx → EReal) (ValueIdx.ix2 a k)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [Cert.ReferenceIdeal.Read.val_main_v57_eq]
      funext i
      exact ref_is_spec _ _ i), (h c).2⟩)
    (Cert.ReferenceIdeal.Value.run (F := Ideal) m ρ)

end Cert.ReferenceIdeal.RefValue

end
-- ==== Proof.lean ====
/- The proof of `Cert.Claim`: the three frames, the idealization's conjunct and the equality of the two idealized programs.

   The kernel is two passes over a 16 × 16 tiling of the 8192 × 8192 space of row pairs. The first reduces, tile by tile,
   to three scalars: the least and the greatest cosine similarity of two label rows and the greatest (safe-square-root)
   Euclidean distance of two output rows. The second recomputes each tile, normalises it by those scalars, and adds the
   positive pairs' `exp dist` and the other pairs' `exp (1 − dist)` into two running row sums along a row block; at the row
   block's last column block it stores the sum of the two clamped logarithms. The host takes the mean. The reference forms
   the same quantities on whole 8192 × 8192 matrices. On the extended reals the two agree because a minimum (maximum) over
   all pairs is the minimum (maximum) of the tiles' minima (maxima), and a row's sum over all columns is the sum over the
   column blocks of the tile's row sums: regroupings of min, max and + alone, which need no finiteness. Both programs are
   proved equal, entry by entry, to one specification (`Cert.Spec.result`).

   Each kernel region's frame is a record over the pipeline library's two-region kit: the windows' arrays at the region's
   entry contents (two windows on one array each hold half of it, split at entry and joined again at exit), the body's
   triple per control case, and what the carried buffers hold point by point (`acc0`: the three running extremes; `acc1`:
   the two running row sums). The records are written once, generic in the float instance, for the idealized kernel and
   again, by substituting the program's namespace, for the kernel as printed. -/
import proofs.«136872_j61607010893834_1_alg».proof.Defs
import proofs.«136872_j61607010893834_1_alg».proof.Proof.Gen.Kernel
import proofs.«136872_j61607010893834_1_alg».proof.Proof.Gen.KernelIdeal
import proofs.«136872_j61607010893834_1_alg».proof.Proof.Gen.ReferenceIdeal
import proofs.«136872_j61607010893834_1_alg».proof.Proof.Gen.Pre_finite_inputs
import proofs.«136872_j61607010893834_1_alg».proof.Proof.KSeg
import proofs.«136872_j61607010893834_1_alg».proof.Proof.KBody0
import proofs.«136872_j61607010893834_1_alg».proof.Proof.KBody1
import proofs.«136872_j61607010893834_1_alg».proof.Proof.KIAlg
import proofs.«136872_j61607010893834_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched: the two regions' records at the word-level
    instance. -/
theorem frame_p : Cert.frame_Kernel := fun m ρ _ =>
  Cert.Kernel.Hand.frame (F := Bits) m ρ (fun V c => Cert.Kernel.Hand.body_obligation0 V c)
    (fun V c => Cert.Kernel.Hand.body_obligation1 V c) (fun V c => Cert.Kernel.Hand.hin1 V c)
    (fun V c => Cert.Kernel.Hand.hout1 V c)

/-- The same for the idealized kernel, at the exact instance. -/
theorem frame_pi : Cert.frame_KernelIdeal := fun m ρ _ =>
  Cert.KernelIdeal.Hand.frame (F := Ideal) m ρ (fun V c => Cert.KernelIdeal.Hand.body_obligation0 V c)
    (fun V c => Cert.KernelIdeal.Hand.body_obligation1 V c) (fun V c => Cert.KernelIdeal.Hand.hin1 V c)
    (fun V c => Cert.KernelIdeal.Hand.hout1 V c)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with their result at the specification's mean of
    the row losses of those arguments. -/
theorem algebraic : Cert.algebraic_KernelIdeal_ReferenceIdeal := by
  intro m ρ m' ρ' _ hagree
  refine ⟨fun c => (fun _ => Cert.Spec.result (Cert.KernelIdeal.Val.oM m c) (Cert.KernelIdeal.Val.lM m c)),
    Cert.KernelIdeal.Val.kernel_run m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
